-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x256 : Shape := ⟨4, ![8, 32, 32, 256]⟩
abbrev S256x1536 : Shape := ⟨2, ![256, 1536]⟩
abbrev S512x256 : Shape := ⟨2, ![512, 256]⟩
abbrev S256 : Shape := ⟨1, ![256]⟩
abbrev S_ : Shape := ⟨0, ![]⟩

class Facts : Prop where
  bcast_S_S8x32x32x256 : S_.BroadcastsInDim S8x32x32x256 (![] : Fin 0 → Fin S8x32x32x256.rank)
  reducesTo_S8x32x32x256_S_d0_1_2_3 : S8x32x32x256.ReducesTo [0, 1, 2, 3] S_
  h_S_ : 0 < S_.numel
  bcast_S_S256x1536 : S_.BroadcastsInDim S256x1536 (![] : Fin 0 → Fin S256x1536.rank)
  reducesTo_S256x1536_S_d0_1 : S256x1536.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8x32x32x256 .f32) (main_arg1 : FVec F S256x1536 .f32) (main_arg2 : FVec F S512x256 .f32) (main_arg3 : FVec F S256 .f32) (main_arg4 : FVec F S256 .f32) (main_arg5 : FVec F S256 .f32) : IVec S_ 1 :=
  let main_v0 : FVec F S8x32x32x256 .f32 := Host.absf main_arg0
  let main_cst : FVec F S_ .f32 := constant S_ .f32 0x7F800000#32
  let main_v1 : FVec F S8x32x32x256 .f32 := broadcastInDim S8x32x32x256 ![] bcast_S_S8x32x32x256 main_cst
  let main_v2 : IVec S8x32x32x256 1 := cmpf .olt main_v0 main_v1
  let main_c : IVec S_ 1 := constantI S_ 1 1#1
  let main_v3 : IVec S_ 1 := (fun x v => Host.reduce IntOp.andi x v reducesTo_S8x32x32x256_S_d0_1_2_3 h_S_) main_v2 main_c
  let main_v4 : FVec F S256x1536 .f32 := Host.absf main_arg1
  let main_cst_0 : FVec F S_ .f32 := constant S_ .f32 0x7F800000#32
  let main_v5 : FVec F S256x1536 .f32 := broadcastInDim S256x1536 ![] bcast_S_S256x1536 main_cst_0
  let main_v6 : IVec S256x1536 1 := cmpf .olt main_v4 main_v5
  let main_c_1 : IVec S_ 1 := constantI S_ 1 1#1
  let main_v7 : IVec S_ 1 := (fun x v => Host.reduce IntOp.andi x v reducesTo_S256x1536_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x32x32x256 : Shape := ⟨4, ![8, 32, 32, 256]⟩
abbrev S256x1536 : Shape := ⟨2, ![256, 1536]⟩
abbrev S512x256 : Shape := ⟨2, ![512, 256]⟩
abbrev S256 : Shape := ⟨1, ![256]⟩
abbrev S8x1024x256 : Shape := ⟨3, ![8, 1024, 256]⟩
abbrev S8x8x1024x64 : Shape := ⟨4, ![8, 8, 1024, 64]⟩
abbrev S1x1024x256 : Shape := ⟨3, ![1, 1024, 256]⟩
abbrev S1x8x1024x64 : Shape := ⟨4, ![1, 8, 1024, 64]⟩
abbrev S1024x1536 : Shape := ⟨2, ![1024, 1536]⟩
abbrev S1024x256 : Shape := ⟨2, ![1024, 256]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x1x1024x64 : Shape := ⟨4, ![1, 1, 1024, 64]⟩
abbrev S8x512x32x32 : Shape := ⟨4, ![8, 512, 32, 32]⟩
abbrev S8x32x32x512 : Shape := ⟨4, ![8, 32, 32, 512]⟩
abbrev S8x1024x512 : Shape := ⟨3, ![8, 1024, 512]⟩
abbrev S1x256 : Shape := ⟨2, ![1, 256]⟩
abbrev S1x1024x512 : Shape := ⟨3, ![1, 1024, 512]⟩
abbrev S1024x512 : Shape := ⟨2, ![1024, 512]⟩
abbrev S1 : Shape := ⟨1, ![1]⟩
abbrev S1x1 : Shape := ⟨2, ![1, 1]⟩

abbrev nBuf : Space → Nat
  | .hbm => 18
  | .vmem => 14
  | .smem => 0
  | _ => 0

abbrev bufTy : (tb : Table) → Fin (tcTables nBuf tb) → BufTy
  | .hbm, ⟨0, _⟩ => ⟨S8x32x32x256, .f32⟩
  | .hbm, ⟨1, _⟩ => ⟨S256x1536, .f32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S8x1024x256, .f32⟩
  | .hbm, ⟨7, _⟩ => ⟨S256x1536, .bf16⟩
  | .hbm, ⟨8, _⟩ => ⟨S512x256, .bf16⟩
  | .hbm, ⟨9, _⟩ => ⟨S8x8x1024x64, .bf16⟩
  | .hbm, ⟨10, _⟩ => ⟨S8x512x32x32, .bf16⟩
  | .hbm, ⟨11, _⟩ => ⟨S8x32x32x512, .bf16⟩
  | .hbm, ⟨12, _⟩ => ⟨S8x1024x512, .bf16⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S8x1024x256, .f32⟩
  | .hbm, ⟨17, _⟩ => ⟨S8x32x32x256, .f32⟩
  | .local _ .vmem, ⟨0, _⟩ => ⟨S1x1024x256, .f32⟩
  | .local _ .vmem, ⟨1, _⟩ => ⟨S1x1024x256, .f32⟩
  | .local _ .vmem, ⟨2, _⟩ => ⟨S256x1536, .bf16⟩
  | .local _ .vmem, ⟨3, _⟩ => ⟨S1x8x1024x64, .bf16⟩
  | .local _ .vmem, ⟨4, _⟩ => ⟨S1x8x1024x64, .bf16⟩
  | .local _ .vmem, ⟨5, _⟩ => ⟨S1024x1536, .bf16⟩
  | .local _ .vmem, ⟨6, _⟩ => ⟨S1x1024x512, .bf16⟩
  | .local _ .vmem, ⟨7, _⟩ => ⟨S1x1024x512, .bf16⟩
  | .local _ .vmem, ⟨8, _⟩ => ⟨S512x256, .bf16⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x1024x256, .f32⟩
  | .local _ .vmem, ⟨13, _⟩ => ⟨S1x1024x256, .f32⟩
  | _, _ => ⟨S8x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S8x32x32x256_S8x1024x256 : S8x32x32x256.ShapeCasts S8x1024x256
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  packedbf16_S1024x1536_S1024x1536_0_0 : (Rect.unit (s := S1024x1536) ![0, 0] S1024x1536.size inb_S1024x1536_S1024x1536_0_0).PackedRows (EltTy.packing .bf16)
  inb_S1024x1536_S1024x64_0_0 : ∀ a, (![0, 0] : Fin 2 → Nat) a + S1024x64.size a ≤ S1024x1536.size a
  h_S1024x64 : 0 < S1024x64.numel
  inb_S1024x1536_S1024x64_0_512 : ∀ a, (![0, 512] : Fin 2 → Nat) a + S1024x64.size a ≤ S1024x1536.size a
  inb_S1024x1536_S1024x64_0_1024 : ∀ a, (![0, 1024] : Fin 2 → Nat) a + S1024x64.size a ≤ S1024x1536.size a
  reduces_S1024x1024_S1024 : S1024x1024.Reduces [1] S1024
  shapeCasts_S1024_S1024x1 : S1024.ShapeCasts S1024x1
  broadcasts_S1024x1_S1024x1024 : S1024x1.Broadcasts S1024x1024
  inb_S1x8x1024x64_S1x1x1024x64_0_0_0_0 : ∀ a, (![0, 0, 0, 0] : Fin 4 → Nat) a + S1x1x1024x64.size a ≤ S1x8x1024x64.size a
  h_S1x1x1024x64 : 0 < S1x1x1024x64.numel
  shapeCasts_S1x1x1024x64_S1024x64 : S1x1x1024x64.ShapeCasts S1024x64
  shapeCasts_S1024x64_S1x1x1024x64 : S1024x64.ShapeCasts S1x1x1024x64
  packedbf16_S1x8x1024x64_S1x1x1024x64_0_0_0_0 : (Rect.unit (s := S1x8x1024x64) ![0, 0, 0, 0] S1x1x1024x64.size inb_S1x8x1024x64_S1x1x1024x64_0_0_0_0).PackedRows (EltTy.packing .bf16)
  inb_S1024x1536_S1024x64_0_64 : ∀ a, (![0, 64] : Fin 2 → Nat) a + S1024x64.size a ≤ S1024x1536.size a
  inb_S1024x1536_S1024x64_0_576 : ∀ a, (![0, 576] : Fin 2 → Nat) a + S1024x64.size a ≤ S1024x1536.size a
  inb_S1024x1536_S1024x64_0_1088 : ∀ a, (![0, 1088] : Fin 2 → Nat) a + S1024x64.size a ≤ S1024x1536.size a
  inb_S1x8x1024x64_S1x1x1024x64_0_1_0_0 : ∀ a, (![0, 1, 0, 0] : Fin 4 → Nat) a + S1x1x1024x64.size a ≤ S1x8x1024x64.size a
  packedbf16_S1x8x1024x64_S1x1x1024x64_0_1_0_0 : (Rect.unit (s := S1x8x1024x64) ![0, 1, 0, 0] S1x1x1024x64.size inb_S1x8x1024x64_S1x1x1024x64_0_1_0_0).PackedRows (EltTy.packing .bf16)
  inb_S1024x1536_S1024x64_0_128 : ∀ a, (![0, 128] : Fin 2 → Nat) a + S1024x64.size a ≤ S1024x1536.size a
  inb_S1024x1536_S1024x64_0_640 : ∀ a, (![0, 640] : Fin 2 → Nat) a + S1024x64.size a ≤ S1024x1536.size a
  inb_S1024x1536_S1024x64_0_1152 : ∀ a, (![0, 1152] : Fin 2 → Nat) a + S1024x64.size a ≤ S1024x1536.size a
  inb_S1x8x1024x64_S1x1x1024x64_0_2_0_0 : ∀ a, (![0, 2, 0, 0] : Fin 4 → Nat) a + S1x1x1024x64.size a ≤ S1x8x1024x64.size a
  packedbf16_S1x8x1024x64_S1x1x1024x64_0_2_0_0 : (Rect.unit (s := S1x8x1024x64) ![0, 2, 0, 0] S1x1x1024x64.size inb_S1x8x1024x64_S1x1x1024x64_0_2_0_0).PackedRows (EltTy.packing .bf16)
  inb_S1024x1536_S1024x64_0_192 : ∀ a, (![0, 192] : Fin 2 → Nat) a + S1024x64.size a ≤ S1024x1536.size a
  inb_S1024x1536_S1024x64_0_704 : ∀ a, (![0, 704] : Fin 2 → Nat) a + S1024x64.size a ≤ S1024x1536.size a
  inb_S1024x1536_S1024x64_0_1216 : ∀ a, (![0, 1216] : Fin 2 → Nat) a + S1024x64.size a ≤ S1024x1536.size a
  inb_S1x8x1024x64_S1x1x1024x64_0_3_0_0 : ∀ a, (![0, 3, 0, 0] : Fin 4 → Nat) a + S1x1x1024x64.size a ≤ S1x8x1024x64.size a
  packedbf16_S1x8x1024x64_S1x1x1024x64_0_3_0_0 : (Rect.unit (s := S1x8x1024x64) ![0, 3, 0, 0] S1x1x1024x64.size inb_S1x8x1024x64_S1x1x1024x64_0_3_0_0).PackedRows (EltTy.packing .bf16)
  inb_S1024x1536_S1024x64_0_256 : ∀ a, (![0, 256] : Fin 2 → Nat) a + S1024x64.size a ≤ S1024x1536.size a
  inb_S1024x1536_S1024x64_0_768 : ∀ a, (![0, 768] : Fin 2 → Nat) a + S1024x64.size a ≤ S1024x1536.size a
  inb_S1024x1536_S1024x64_0_1280 : ∀ a, (![0, 1280] : Fin 2 → Nat) a + S1024x64.size a ≤ S1024x1536.size a
  inb_S1x8x1024x64_S1x1x1024x64_0_4_0_0 : ∀ a, (![0, 4, 0, 0] : Fin 4 → Nat) a + S1x1x1024x64.size a ≤ S1x8x1024x64.size a
  packedbf16_S1x8x1024x64_S1x1x1024x64_0_4_0_0 : (Rect.unit (s := S1x8x1024x64) ![0, 4, 0, 0] S1x1x1024x64.size inb_S1x8x1024x64_S1x1x1024x64_0_4_0_0).PackedRows (EltTy.packing .bf16)
  inb_S1024x1536_S1024x64_0_320 : ∀ a, (![0, 320] : Fin 2 → Nat) a + S1024x64.size a ≤ S1024x1536.size a
  inb_S1024x1536_S1024x64_0_832 : ∀ a, (![0, 832] : Fin 2 → Nat) a + S1024x64.size a ≤ S1024x1536.size a
  inb_S1024x1536_S1024x64_0_1344 : ∀ a, (![0, 1344] : Fin 2 → Nat) a + S1024x64.size a ≤ S1024x1536.size a
  inb_S1x8x1024x64_S1x1x1024x64_0_5_0_0 : ∀ a, (![0, 5, 0, 0] : Fin 4 → Nat) a + S1x1x1024x64.size a ≤ S1x8x1024x64.size a
  packedbf16_S1x8x1024x64_S1x1x1024x64_0_5_0_0 : (Rect.unit (s := S1x8x1024x64) ![0, 5, 0, 0] S1x1x1024x64.size inb_S1x8x1024x64_S1x1x1024x64_0_5_0_0).PackedRows (EltTy.packing .bf16)
  inb_S1024x1536_S1024x64_0_384 : ∀ a, (![0, 384] : Fin 2 → Nat) a + S1024x64.size a ≤ S1024x1536.size a
  inb_S1024x1536_S1024x64_0_896 : ∀ a, (![0, 896] : Fin 2 → Nat) a + S1024x64.size a ≤ S1024x1536.size a
  inb_S1024x1536_S1024x64_0_1408 : ∀ a, (![0, 1408] : Fin 2 → Nat) a + S1024x64.size a ≤ S1024x1536.size a
  inb_S1x8x1024x64_S1x1x1024x64_0_6_0_0 : ∀ a, (![0, 6, 0, 0] : Fin 4 → Nat) a + S1x1x1024x64.size a ≤ S1x8x1024x64.size a
  packedbf16_S1x8x1024x64_S1x1x1024x64_0_6_0_0 : (Rect.unit (s := S1x8x1024x64) ![0, 6, 0, 0] S1x1x1024x64.size inb_S1x8x1024x64_S1x1x1024x64_0_6_0_0).PackedRows (EltTy.packing .bf16)
  inb_S1024x1536_S1024x64_0_448 : ∀ a, (![0, 448] : Fin 2 → Nat) a + S1024x64.size a ≤ S1024x1536.size a
  inb_S1024x1536_S1024x64_0_960 : ∀ a, (![0, 960] : Fin 2 → Nat) a + S1024x64.size a ≤ S1024x1536.size a
  inb_S1024x1536_S1024x64_0_1472 : ∀ a, (![0, 1472] : Fin 2 → Nat) a + S1024x64.size a ≤ S1024x1536.size a
  inb_S1x8x1024x64_S1x1x1024x64_0_7_0_0 : ∀ a, (![0, 7, 0, 0] : Fin 4 → Nat) a + S1x1x1024x64.size a ≤ S1x8x1024x64.size a
  packedbf16_S1x8x1024x64_S1x1x1024x64_0_7_0_0 : (Rect.unit (s := S1x8x1024x64) ![0, 7, 0, 0] S1x1x1024x64.size inb_S1x8x1024x64_S1x1x1024x64_0_7_0_0).PackedRows (EltTy.packing .bf16)
  shapeCasts_S8x8x1024x64_S8x512x32x32 : S8x8x1024x64.ShapeCasts S8x512x32x32
  transposes_S8x512x32x32_S8x32x32x512_0_2_3_1 : S8x512x32x32.Transposes [0, 2, 3, 1] S8x32x32x512
  shapeCasts_S8x32x32x512_S8x1024x512 : S8x32x32x512.ShapeCasts S8x1024x512
  shapeCasts_S256_S1x256 : S256.ShapeCasts S1x256
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  reduces_S1024x1_S1 : S1024x1.Reduces [0] S1
  shapeCasts_S1_S1x1 : S1.ShapeCasts S1x1
  broadcasts_S1x1_S1024x256 : S1x1.Broadcasts S1024x256
  shapeCasts_S1024x256_S1x1024x256 : S1024x256.ShapeCasts S1x1024x256
  shapeCasts_S8x1024x256_S8x32x32x256 : S8x1024x256.ShapeCasts S8x32x32x256
  dot_S1024x256_S256x1536_S1024x1536_1_0_0_1_n_n_wf : DotDims.WF S1024x256 S256x1536 S1024x1536 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x1024x256.size a
  hwx0_0 : ∀ i : grid0.Coords, EltTy.bits .f32 = 32 ∨ (Rect.block (s := S8x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1536.size a ≤ S256x1536.size a
  hwx0_1 : ∀ i : grid0.Coords, EltTy.bits .bf16 = 32 ∨ (Rect.block (s := S256x1536) S256x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1024x64.size a ≤ S8x8x1024x64.size a
  hwx0_2 : ∀ i : grid0.Coords, EltTy.bits .bf16 = 32 ∨ (Rect.block (s := S8x8x1024x64) S1x8x1024x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x1024x512.size a
  hwx1_0 : ∀ i : grid1.Coords, EltTy.bits .bf16 = 32 ∨ (Rect.block (s := S8x1024x512) S1x1024x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .bf16 = 32 ∨ (Rect.block (s := S512x256) S512x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x256.size a ≤ S8x1024x256.size a
  hwx1_5 : ∀ i : grid1.Coords, EltTy.bits .f32 = 32 ∨ (Rect.block (s := S8x1024x256) S1x1024x256.size (cc1_transform_5 i) (hinb1_5 i)).WholeWords (EltTy.packing .f32)

variable [Facts₀]

def dot_S1024x256_S256x1536_S1024x1536_1_0_0_1_n_n : DotDims S1024x256 S256x1536 S1024x1536 where
  lhsContracting := [1]
  rhsContracting := [0]
  lhsNonContracting := [0]
  rhsNonContracting := [1]
  lhsBatch := []
  rhsBatch := []
  wf := dot_S1024x256_S256x1536_S1024x1536_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x32x32x256 : Shape := ⟨4, ![8, 32, 32, 256]⟩
abbrev S256x1536 : Shape := ⟨2, ![256, 1536]⟩
abbrev S512x256 : Shape := ⟨2, ![512, 256]⟩
abbrev S256 : Shape := ⟨1, ![256]⟩
abbrev S8x32x32x1536 : Shape := ⟨4, ![8, 32, 32, 1536]⟩
abbrev S8x32x32x512 : Shape := ⟨4, ![8, 32, 32, 512]⟩
abbrev S8x512x32x32 : Shape := ⟨4, ![8, 512, 32, 32]⟩
abbrev S8x8x64x1024 : Shape := ⟨4, ![8, 8, 64, 1024]⟩
abbrev S_ : Shape := ⟨0, ![]⟩
abbrev S8x8x1024x1024 : Shape := ⟨4, ![8, 8, 1024, 1024]⟩
abbrev S8x8x1024 : Shape := ⟨3, ![8, 8, 1024]⟩
abbrev S8x8x1024x1 : Shape := ⟨4, ![8, 8, 1024, 1]⟩
abbrev S8x8x1024x64 : Shape := ⟨4, ![8, 8, 1024, 64]⟩
abbrev S1x1x1x256 : Shape := ⟨4, ![1, 1, 1, 256]⟩
abbrev S8 : Shape := ⟨1, ![8]⟩
abbrev S8x1x1x1 : Shape := ⟨4, ![8, 1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S8x32x32x256, .f32⟩
  | .hbm, ⟨1, _⟩ => ⟨S256x1536, .f32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S8x32x32x1536, .f32⟩
  | .hbm, ⟨7, _⟩ => ⟨S8x32x32x512, .f32⟩
  | .hbm, ⟨8, _⟩ => ⟨S8x32x32x512, .f32⟩
  | .hbm, ⟨9, _⟩ => ⟨S8x32x32x512, .f32⟩
  | .hbm, ⟨10, _⟩ => ⟨S8x512x32x32, .f32⟩
  | .hbm, ⟨11, _⟩ => ⟨S8x8x64x1024, .f32⟩
  | .hbm, ⟨12, _⟩ => ⟨S_, .f32⟩
  | .hbm, ⟨13, _⟩ => ⟨S8x8x64x1024, .f32⟩
  | .hbm, ⟨14, _⟩ => ⟨S8x8x64x1024, .f32⟩
  | .hbm, ⟨15, _⟩ => ⟨S8x512x32x32, .f32⟩
  | .hbm, ⟨16, _⟩ => ⟨S8x8x64x1024, .f32⟩
  | .hbm, ⟨17, _⟩ => ⟨S8x512x32x32, .f32⟩
  | .hbm, ⟨18, _⟩ => ⟨S8x8x64x1024, .f32⟩
  | .hbm, ⟨19, _⟩ => ⟨S8x8x1024x1024, .f32⟩
  | .hbm, ⟨20, _⟩ => ⟨S_, .f32⟩
  | .hbm, ⟨21, _⟩ => ⟨S8x8x1024, .f32⟩
  | .hbm, ⟨22, _⟩ => ⟨S_, .f32⟩
  | .hbm, ⟨23, _⟩ => ⟨S8x8x1024, .f32⟩
  | .hbm, ⟨24, _⟩ => ⟨S8x8x1024, .f32⟩
  | .hbm, ⟨25, _⟩ => ⟨S8x8x1024x1, .f32⟩
  | .hbm, ⟨26, _⟩ => ⟨S8x8x1024x1024, .f32⟩
  | .hbm, ⟨27, _⟩ => ⟨S8x8x1024x1024, .f32⟩
  | .hbm, ⟨28, _⟩ => ⟨S8x8x1024x1024, .f32⟩
  | .hbm, ⟨29, _⟩ => ⟨S_, .f32⟩
  | .hbm, ⟨30, _⟩ => ⟨S8x8x1024, .f32⟩
  | .hbm, ⟨31, _⟩ => ⟨S8x8x1024x1, .f32⟩
  | .hbm, ⟨32, _⟩ => ⟨S8x8x1024x1024, .f32⟩
  | .hbm, ⟨33, _⟩ => ⟨S8x8x1024x1024, .f32⟩
  | .hbm, ⟨34, _⟩ => ⟨S8x8x1024x64, .f32⟩
  | .hbm, ⟨35, _⟩ => ⟨S8x512x32x32, .f32⟩
  | .hbm, ⟨36, _⟩ => ⟨S8x32x32x512, .f32⟩
  | .hbm, ⟨37, _⟩ => ⟨S8x32x32x256, .f32⟩
  | .hbm, ⟨38, _⟩ => ⟨S1x1x1x256, .f32⟩
  | .hbm, ⟨39, _⟩ => ⟨S8x32x32x256, .f32⟩
  | .hbm, ⟨40, _⟩ => ⟨S8x32x32x256, .f32⟩
  | .hbm, ⟨41, _⟩ => ⟨S_, .f32⟩
  | .hbm, ⟨42, _⟩ => ⟨S8, .f32⟩
  | .hbm, ⟨43, _⟩ => ⟨S8x1x1x1, .f32⟩
  | .hbm, ⟨44, _⟩ => ⟨S_, .f32⟩
  | .hbm, ⟨45, _⟩ => ⟨S8x1x1x1, .f32⟩
  | .hbm, ⟨46, _⟩ => ⟨S8x1x1x1, .f32⟩
  | .hbm, ⟨47, _⟩ => ⟨S_, .i32⟩
  | .hbm, ⟨48, _⟩ => ⟨S_, .f32⟩
  | .hbm, ⟨49, _⟩ => ⟨S8, .f32⟩
  | .hbm, ⟨50, _⟩ => ⟨S8x1x1x1, .f32⟩
  | .hbm, ⟨51, _⟩ => ⟨S_, .f32⟩
  | .hbm, ⟨52, _⟩ => ⟨S8x1x1x1, .f32⟩
  | .hbm, ⟨53, _⟩ => ⟨S8x1x1x1, .f32⟩
  | .hbm, ⟨54, _⟩ => ⟨S8x32x32x256, .f32⟩
  | .hbm, ⟨55, _⟩ => ⟨S8x32x32x256, .f32⟩
  | .hbm, ⟨56, _⟩ => ⟨S8x32x32x256, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8, .f32⟩
  | .hbm, ⟨62, _⟩ => ⟨S8x1x1x1, .f32⟩
  | .hbm, ⟨63, _⟩ => ⟨S8x1x1x1, .f32⟩
  | .hbm, ⟨64, _⟩ => ⟨S8x1x1x1, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .f32⟩
  | .hbm, ⟨69, _⟩ => ⟨S8x1x1x1, .f32⟩
  | .hbm, ⟨70, _⟩ => ⟨S8x1x1x1, .f32⟩
  | .hbm, ⟨71, _⟩ => ⟨S8x32x32x256, .f32⟩
  | .hbm, ⟨72, _⟩ => ⟨S8x32x32x256, .f32⟩
  | .hbm, ⟨73, _⟩ => ⟨S_, .f32⟩
  | .hbm, ⟨74, _⟩ => ⟨S8x1x1x1, .f32⟩
  | .hbm, ⟨75, _⟩ => ⟨S8x1x1x1, .f32⟩
  | .hbm, ⟨76, _⟩ => ⟨S8x1x1x1, .f32⟩
  | .hbm, ⟨77, _⟩ => ⟨S8x32x32x256, .f32⟩
  | .hbm, ⟨78, _⟩ => ⟨S8x32x32x256, .f32⟩
  | .hbm, ⟨79, _⟩ => ⟨S1x1x1x256, .f32⟩
  | .hbm, ⟨80, _⟩ => ⟨S8x32x32x256, .f32⟩
  | .hbm, ⟨81, _⟩ => ⟨S8x32x32x256, .f32⟩
  | .hbm, ⟨82, _⟩ => ⟨S1x1x1x256, .f32⟩
  | .hbm, ⟨83, _⟩ => ⟨S8x32x32x256, .f32⟩
  | .hbm, ⟨84, _⟩ => ⟨S8x32x32x256, .f32⟩
  | _, _ => ⟨S8x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_v12 : Ref sig .tc := ⟨.hbm, 64, rfl⟩
abbrev main_call0_cst_3 : Ref sig .tc := ⟨.hbm, 65, rfl⟩
abbrev main_call0_v13 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_5 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩

abbrev nD : Nat := 1
abbrev τ : Topo := Topo.v7x

variable {F : FTy → Type} [FloatOps F]

class Facts₀ : Prop where
  slices_S8x32x32x1536_S8x32x32x512_0_0_0_0 : S8x32x32x1536.Slices ![0, 0, 0, 0] S8x32x32x512
  slices_S8x32x32x1536_S8x32x32x512_0_0_0_512 : S8x32x32x1536.Slices ![0, 0, 0, 512] S8x32x32x512
  slices_S8x32x32x1536_S8x32x32x512_0_0_0_1024 : S8x32x32x1536.Slices ![0, 0, 0, 1024] S8x32x32x512
  transposes_S8x32x32x512_S8x512x32x32_0_3_1_2 : S8x32x32x512.Transposes [0, 3, 1, 2] S8x512x32x32
  shapeCasts_S8x512x32x32_S8x8x64x1024 : S8x512x32x32.ShapeCasts S8x8x64x1024
  bcast_S_S8x8x64x1024 : S_.BroadcastsInDim S8x8x64x1024 (![] : Fin 0 → Fin S8x8x64x1024.rank)
  reducesTo_S8x8x1024x1024_S8x8x1024_d3 : S8x8x1024x1024.ReducesTo [3] S8x8x1024
  h_S_ : 0 < S_.numel
  bcast_S_S8x8x1024 : S_.BroadcastsInDim S8x8x1024 (![] : Fin 0 → Fin S8x8x1024.rank)
  bcast_S8x8x1024_S8x8x1024x1_0_1_2 : S8x8x1024.BroadcastsInDim S8x8x1024x1 (![0, 1, 2] : Fin 3 → Fin S8x8x1024x1.rank)
  bcast_S8x8x1024x1_S8x8x1024x1024_0_1_2_3 : S8x8x1024x1.BroadcastsInDim S8x8x1024x1024 (![0, 1, 2, 3] : Fin 4 → Fin S8x8x1024x1024.rank)
  shapeCasts_S8x8x1024x64_S8x512x32x32 : S8x8x1024x64.ShapeCasts S8x512x32x32
  transposes_S8x512x32x32_S8x32x32x512_0_2_3_1 : S8x512x32x32.Transposes [0, 2, 3, 1] S8x32x32x512
  bcast_S256_S1x1x1x256_3 : S256.BroadcastsInDim S1x1x1x256 (![3] : Fin 1 → Fin S1x1x1x256.rank)
  bcast_S1x1x1x256_S8x32x32x256_0_1_2_3 : S1x1x1x256.BroadcastsInDim S8x32x32x256 (![0, 1, 2, 3] : Fin 4 → Fin S8x32x32x256.rank)
  reducesTo_S8x32x32x256_S8_d1_2_3 : S8x32x32x256.ReducesTo [1, 2, 3] S8
  bcast_S8_S8x1x1x1_0 : S8.BroadcastsInDim S8x1x1x1 (![0] : Fin 1 → Fin S8x1x1x1.rank)
  bcast_S_S8x1x1x1 : S_.BroadcastsInDim S8x1x1x1 (![] : Fin 0 → Fin S8x1x1x1.rank)
  bcast_S8x1x1x1_S8x32x32x256_0_1_2_3 : S8x1x1x1.BroadcastsInDim S8x32x32x256 (![0, 1, 2, 3] : Fin 4 → Fin S8x32x32x256.rank)
  dot_S8x32x32x256_S256x1536_S8x32x32x1536_3_0_012_1_n_n_wf : DotDims.WF S8x32x32x256 S256x1536 S8x32x32x1536 [3] [0] [0, 1, 2] [1] [] []
  dot_S8x8x64x1024_S8x8x64x1024_S8x8x1024x1024_2_2_3_3_01_01_wf : DotDims.WF S8x8x64x1024 S8x8x64x1024 S8x8x1024x1024 [2] [2] [3] [3] [0, 1] [0, 1]
  dot_S8x8x1024x1024_S8x8x64x1024_S8x8x1024x64_3_3_2_2_01_01_wf : DotDims.WF S8x8x1024x1024 S8x8x64x1024 S8x8x1024x64 [3] [3] [2] [2] [0, 1] [0, 1]
  dot_S8x32x32x512_S512x256_S8x32x32x256_3_0_012_1_n_n_wf : DotDims.WF S8x32x32x512 S512x256 S8x32x32x256 [3] [0] [0, 1, 2] [1] [] []

variable [Facts₀]

def dot_S8x32x32x256_S256x1536_S8x32x32x1536_3_0_012_1_n_n : DotDims S8x32x32x256 S256x1536 S8x32x32x1536 where
  lhsContracting := [3]
  rhsContracting := [0]
  lhsNonContracting := [0, 1, 2]
  rhsNonContracting := [1]
  lhsBatch := []
  rhsBatch := []
  wf := dot_S8x32x32x256_S256x1536_S8x32x32x1536_3_0_012_1_n_n_wf
def dot_S8x8x64x1024_S8x8x64x1024_S8x8x1024x1024_2_2_3_3_01_01 : DotDims S8x8x64x1024 S8x8x64x1024 S8x8x1024x1024 where
  lhsContracting := [2]
  rhsContracting := [2]
  lhsNonContracting := [3]
  rhsNonContracting := [3]
  lhsBatch := [0, 1]
  rhsBatch := [0, 1]
  wf := dot_S8x8x64x1024_S8x8x64x1024_S8x8x1024x1024_2_2_3_3_01_01_wf
def dot_S8x8x1024x1024_S8x8x64x1024_S8x8x1024x64_3_3_2_2_01_01 : DotDims S8x8x1024x1024 S8x8x64x1024 S8x8x1024x64 where
  lhsContracting := [3]
  rhsContracting := [3]
  lhsNonContracting := [2]
  rhsNonContracting := [2]
  lhsBatch := [0, 1]
  rhsBatch := [0, 1]
  wf := dot_S8x8x1024x1024_S8x8x64x1024_S8x8x1024x64_3_3_2_2_01_01_wf
def dot_S8x32x32x512_S512x256_S8x32x32x256_3_0_012_1_n_n : DotDims S8x32x32x512 S512x256 S8x32x32x256 where
  lhsContracting := [3]
  rhsContracting := [0]
  lhsNonContracting := [0, 1, 2]
  rhsNonContracting := [1]
  lhsBatch := []
  rhsBatch := []
  wf := dot_S8x32x32x512_S512x256_S8x32x32x256_3_0_012_1_n_n_wf

class Facts : Prop extends Facts₀ where

variable [Facts]
-- ==== Proof.KernRun.lean ====
/-
  The idealized kernel program's run with its RESULT named: the same launch of @main's five segments (a stretch of host
  operations, the attention region, a stretch, the projection region, a stretch) that gives the frame, read at the result
  buffer as well as at the six argument buffers. The result is the last boundary's contents at that buffer: the fold of
  the last stretch over what the second region leaves.
-/
import proofs.«134831_j36223754174593_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run_value : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.ValueRun

end
-- ==== Proof.Spec.lean ====
/-
  The function both programs compute, written once over the extended reals.

  Inputs: an image `X` of 8 samples, 32 × 32 positions and 256 channels; a projection `W` to 1536 = 3 · 8 · 64 columns
  (queries, keys and values of 8 heads of width 64); an output projection `Wo` with bias `bo`; a scale `g` and a shift `be`.
  The 1024 positions of a sample are numbered row by row: position `n` is the pixel `(n / 32, n % 32)`.

  Stage one (attention).  `qkv b n d = ∑ k, X[b, n, k] · W[k, d]`.  For head `h` the score of query position `n` against key
  position `m` is `sim = ∑ c, (q[n, c] · 1/8) · k[m, c]`; a row of scores is shifted by its maximum, exponentiated and divided by
  the sum of the exponentials; the head's output at `(n, c)` is the sum over `m` of that weight times `v[m, c]`.

  Stage two (projection and normalisation of a sample).  For an array `T` of 8 samples, 32 × 32 positions and 512 channels:
  `proj b n d = ∑ k, T[b, n, k] · Wo[k, d] + bo[d]`; the mean and the variance of a sample are taken over all its 1024 · 256
  entries (sums divided by 262144), and the result is `(proj - mean) · rsqrt (var + ε) · g[d] + be[d]`.
-/
import Idealize.ShloMosaic.PureOps.Ideal
import Idealize.ShloMosaic.PureOps.Ideal.Laws
import Idealize.ShloMosaic.Lib.ValueIdx

noncomputable section

namespace AttnSpec

open Idealize.ShloMosaic Idealize.ShloMosaic.ValueIdx

abbrev SX : Shape := ⟨4, ![8, 32, 32, 256]⟩
abbrev SWq : Shape := ⟨2, ![256, 1536]⟩
abbrev SWo : Shape := ⟨2, ![512, 256]⟩
abbrev SV : Shape := ⟨1, ![256]⟩
abbrev SO : Shape := ⟨4, ![8, 8, 1024, 64]⟩
abbrev ST : Shape := ⟨4, ![8, 32, 32, 512]⟩

/-! ## Positions and columns -/

/-- The pixel row of position `n`. -/
def rowHi (n : Fin 1024) : Fin 32 := ⟨n.val / 32, by omega⟩
/-- The pixel column of position `n`. -/
def rowLo (n : Fin 1024) : Fin 32 := ⟨n.val % 32, by omega⟩
/-- The position of pixel `(i, j)`. -/
def row (i j : Fin 32) : Fin 1024 := ⟨32 * i.val + j.val, by omega⟩

theorem rowHi_val (n : Fin 1024) : (rowHi n).val = n.val / 32 := rfl
theorem rowLo_val (n : Fin 1024) : (rowLo n).val = n.val % 32 := rfl
theorem row_val (i j : Fin 32) : (row i j).val = 32 * i.val + j.val := rfl
theorem rowHi_row (i j : Fin 32) : rowHi (row i j) = i := Fin.ext (by simp only [rowHi_val, row_val]; omega)
theorem rowLo_row (i j : Fin 32) : rowLo (row i j) = j := Fin.ext (by simp only [rowLo_val, row_val]; omega)
theorem row_rowHi_rowLo (n : Fin 1024) : row (rowHi n) (rowLo n) = n := Fin.ext (by simp only [rowHi_val, rowLo_val, row_val]; omega)

/-- Column of head `h`'s query / key / value component `c` among the 1536 projected columns. -/
def qcol (h : Fin 8) (c : Fin 64) : Fin 1536 := ⟨64 * h.val + c.val, by omega⟩
def kcol (h : Fin 8) (c : Fin 64) : Fin 1536 := ⟨512 + 64 * h.val + c.val, by omega⟩
def vcol (h : Fin 8) (c : Fin 64) : Fin 1536 := ⟨1024 + 64 * h.val + c.val, by omega⟩
theorem qcol_val (h : Fin 8) (c : Fin 64) : (qcol h c).val = 64 * h.val + c.val := rfl
theorem kcol_val (h : Fin 8) (c : Fin 64) : (kcol h c).val = 512 + 64 * h.val + c.val := rfl
theorem vcol_val (h : Fin 8) (c : Fin 64) : (vcol h c).val = 1024 + 64 * h.val + c.val := rfl

/-! ## Stage one: attention -/

section Attention
variable (X : SX.Idx → EReal) (W : SWq.Idx → EReal)

/-- The projected row of position `n` of sample `b`, at column `d`. -/
def qkv (b : Fin 8) (n : Fin 1024) (d : Fin 1536) : EReal :=
  ∑ k : Fin 256, X (ix4 b (rowHi n) (rowLo n) k) * W (ix2 k d)

/-- The score of query position `n` against key position `m` in head `h`: the query is scaled by 1/8 first. -/
def sim (b : Fin 8) (h : Fin 8) (n m : Fin 1024) : EReal :=
  ∑ c : Fin 64, (qkv X W b n (qcol h c) * ((1 / 8 : ℝ) : EReal)) * qkv X W b m (kcol h c)

/-- The largest score of a row (the maximum of the empty family being `⊥`). -/
def rowMax (b : Fin 8) (h : Fin 8) (n : Fin 1024) : EReal :=
  (Finset.univ : Finset (Fin 1024)).fold max ⊥ (fun m => sim X W b h n m)

/-- The shifted exponential of a score. -/
def expo (b : Fin 8) (h : Fin 8) (n m : Fin 1024) : EReal :=
  Ideal.exp (sim X W b h n m - rowMax X W b h n)

/-- The sum of a row's exponentials. -/
def rowSum (b : Fin 8) (h : Fin 8) (n : Fin 1024) : EReal :=
  ∑ m : Fin 1024, expo X W b h n m

/-- The attention weight. -/
def weight (b : Fin 8) (h : Fin 8) (n m : Fin 1024) : EReal :=
  Ideal.div (expo X W b h n m) (rowSum X W b h n)

/-- The head's output at position `n`, component `c`. -/
def headOut (b : Fin 8) (h : Fin 8) (n : Fin 1024) (c : Fin 64) : EReal :=
  ∑ m : Fin 1024, weight X W b h n m * qkv X W b m (vcol h c)

/-- Stage one as an array of 8 samples × 8 heads × 1024 positions × 64 components. -/
def attnOut : SO.Idx → EReal := fun i => headOut X W (i 0) (i 1) (i 2) (i 3)

theorem attnOut_apply (b h : Fin 8) (n : Fin 1024) (c : Fin 64) :
    attnOut X W (ix4 b h n c) = headOut X W b h n c := rfl

end Attention

/-! ## Stage two: projection and normalisation -/

section Norm
variable (T : ST.Idx → EReal) (Wo : SWo.Idx → EReal) (bo g be : SV.Idx → EReal)

/-- The projected and biased entry of sample `b` at position `n`, channel `d`. -/
def proj (b : Fin 8) (n : Fin 1024) (d : Fin 256) : EReal :=
  (∑ k : Fin 512, T (ix4 b (rowHi n) (rowLo n) k) * Wo (ix2 k d)) + bo (ix1 d)

/-- The number of entries of a sample, 262144 = 1024 · 256, as the float word both programs divide by. -/
def cnt : EReal := Ideal.ofBits .f32 0x48800000#32
/-- The stabiliser added to the variance, as the float word both programs add. -/
def eps : EReal := Ideal.ofBits .f32 0x3727C5AC#32

/-- The sum of a sample's entries. -/
def total (b : Fin 8) : EReal := ∑ n : Fin 1024, ∑ d : Fin 256, proj T Wo bo b n d
def mean (b : Fin 8) : EReal := Ideal.div (total T Wo bo b) cnt
def dev (b : Fin 8) (n : Fin 1024) (d : Fin 256) : EReal := proj T Wo bo b n d - mean T Wo bo b
/-- The sum of a sample's squared deviations. -/
def sqTotal (b : Fin 8) : EReal := ∑ n : Fin 1024, ∑ d : Fin 256, dev T Wo bo b n d * dev T Wo bo b n d
def var (b : Fin 8) : EReal := Ideal.div (sqTotal T Wo bo b) cnt
def inv (b : Fin 8) : EReal := Ideal.rsqrt (var T Wo bo b + eps)

/-- The normalised, scaled and shifted entry. -/
def normAt (b : Fin 8) (n : Fin 1024) (d : Fin 256) : EReal :=
  (dev T Wo bo b n d * inv T Wo bo b) * g (ix1 d) + be (ix1 d)

/-- Stage two as an array of 8 samples × 32 × 32 pixels × 256 channels. -/
def normOut : SX.Idx → EReal := fun i => normAt T Wo bo g be (i 0) (row (i 1) (i 2)) (i 3)

theorem normOut_apply (b : Fin 8) (i j : Fin 32) (d : Fin 256) :
    normOut T Wo bo g be (ix4 b i j d) = normAt T Wo bo g be b (row i j) d := rfl

end Norm

/-! ## The float words that are evaluated -/

theorem eighth_bf16 : Ideal.ofBits .bf16 0x3E00#16 = ((1 / 8 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num
theorem negInf_f32 : Ideal.ofBits .f32 0xFF800000#32 = ⊥ := by
  simp [Ideal.ofBits, Ideal.ieee]
theorem cnt_eq : cnt = ((262144 : ℝ) : EReal) := by
  unfold cnt; simp [Ideal.ofBits, Ideal.ieee, -EReal.coe_mul]; norm_num

end AttnSpec

end
-- ==== Proof.KernGlue.lean ====
/-
  From the blocks the two kernels write to the idealized kernel program's result, over the extended reals.

  The program is five segments: host operations (the image's 32 × 32 pixels renumbered as 1024 positions; the two weight
  arrays changed of format, which is the identity here), the attention region (one grid point per sample: point `t`
  reads sample `t` of the image and the whole weight array, and writes block `t` of an 8 × 8 × 1024 × 64 array), host
  operations (that array regrouped as 8 × 32 × 32 × 512 by a reshape and a transposition, then its pixels renumbered as
  positions; the three channel vectors given a leading unit axis), the projection region (one grid point per sample again)
  and one last renumbering of positions as pixels.

  What each kernel body leaves in its output block, entry by entry, is proved where the body is read; here it is a
  hypothesis (`AttnBodyValue`, `NormBodyValue`) about arbitrary input blocks. This module supplies the blocks (each
  window's block at a point is the array read where the block sits), shows that the blocks written over the grid tile the
  output array (sample `b` is written by point `b`), and reads the host operations between and after the regions. The
  regrouping between the stages is never opened: the reference applies the same two operations to the same array.
-/
import proofs.«134831_j36223754174593_2_alg».proof.Proof.Gen.KernelIdeal.Frame
import proofs.«134831_j36223754174593_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.ValueIdx Idealize.SL.Sem
open Idealize.ShloMosaic.Pipeline (Dat)
open AttnSpec (rowHi rowLo row)

variable (m : (ℓ : Loc nD τ sig) → Buf (Elt Ideal) ℓ) (ρ : Dev nD → PrngReg)

/-! ## Regrouping 32 × 32 pixels as 1024 positions, read at an index -/

theorem cast_pixels_positions {C : ℕ} {α : Type} (x : (⟨4, ![8, 32, 32, C]⟩ : Shape).Idx → α)
    (h : (⟨4, ![8, 32, 32, C]⟩ : Shape).ShapeCasts ⟨3, ![8, 1024, C]⟩) (b : Fin 8) (n : Fin 1024) (k : Fin C) :
    shapeCast ⟨3, ![8, 1024, C]⟩ x h (ix3 b n k) = x (ix4 b (rowHi n) (rowLo n) k) :=
  shapeCast_apply x h _ _ (by
    rw [Shape.rowMajor_val_four, Shape.rowMajor_val_three]
    show (((b.val * 32 + n.val / 32) * 32 + n.val % 32) * C + k.val) = (b.val * 1024 + n.val) * C + k.val
    have : (b.val * 32 + n.val / 32) * 32 + n.val % 32 = b.val * 1024 + n.val := by omega
    rw [this])

theorem cast_positions_pixels {C : ℕ} {α : Type} (x : (⟨3, ![8, 1024, C]⟩ : Shape).Idx → α)
    (h : (⟨3, ![8, 1024, C]⟩ : Shape).ShapeCasts ⟨4, ![8, 32, 32, C]⟩) (b : Fin 8) (i j : Fin 32) (k : Fin C) :
    shapeCast ⟨4, ![8, 32, 32, C]⟩ x h (ix4 b i j k) = x (ix3 b (row i j) k) :=
  shapeCast_apply x h _ _ (by
    rw [Shape.rowMajor_val_four, Shape.rowMajor_val_three]
    show (b.val * 1024 + (32 * i.val + j.val)) * C + k.val = (((b.val * 32 + i.val) * 32 + j.val) * C + k.val)
    have : b.val * 1024 + (32 * i.val + j.val) = (b.val * 32 + i.val) * 32 + j.val := by omega
    rw [this])

/-! ## The buffers the first region finds -/

theorem v1_v0 (c : Dev nD) :
    (V1 m ρ c main_v0 : S8x1024x256.Idx → EReal)
      = fun i => shapeCast S8x1024x256 (m ((c : Thread nD τ).loc main_arg0)) shapeCasts_S8x32x32x256_S8x1024x256 i := by
  show StableHlo.after hostOps0 (W0 m ρ c) (Proc.devRef .tc main_v0) = _
  after_results
  rfl

theorem v1_v1 (c : Dev nD) :
    (V1 m ρ c main_v1 : S256x1536.Idx → EReal) = m ((c : Thread nD τ).loc main_arg1) := by
  show StableHlo.after hostOps0 (W0 m ρ c) (Proc.devRef .tc main_v1) = _
  after_results
  rfl

theorem w1_v2 (c : Dev nD) :
    (W1 m ρ c (Proc.devRef .tc main_v2) : S512x256.Idx → EReal) = m ((c : Thread nD τ).loc main_arg2) := by
  show StableHlo.after hostOps0 (W0 m ρ c) (Proc.devRef .tc main_v2) = _
  after_results
  rfl

/-! ## The first region: the attention output array -/

/-- A grid point as a sample number. -/
def smp (t : Fin cfg0.N) : Fin 8 := ⟨t.val, lt_of_lt_of_eq t.isLt N_0⟩

theorem smp_val (t : Fin cfg0.N) : (smp t).val = t.val := rfl

/-- The printed index maps over the grid: the image and output blocks follow the sample, the weights stay. -/
theorem idx0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The image block of point `t` is sample `t` of the image, its pixels numbered as positions. -/
theorem iblk0_0_apply (c : Dev nD) (t : Fin cfg0.N) (n : Fin 1024) (k : Fin 256) :
    (iblk0 (V1 m ρ) c 0 t : Vec Ideal S1x1024x256 .f32) (ix3 (0 : Fin 1) n k)
      = (m ((c : Thread nD τ).loc main_arg0) : S8x32x32x256.Idx → EReal) (ix4 (smp t) (rowHi n) (rowLo n) k) := by
  obtain ⟨e0, e1, e2, -⟩ := idx0 t
  unfold iblk0
  rw [View.read_apply]
  show V1 m ρ c main_v0 (((cfg0.win 0).blk t).view.emb (ix3 (0 : Fin 1) n k)) = _
  rw [v1_v0]
  have he : ((cfg0.win 0).blk t).view.emb (ix3 (0 : Fin 1) n k) = (ix3 (smp t) n k : S8x1024x256.Idx) := by
    funext a; apply Fin.ext
    match a with
    | ⟨0, _⟩ => show win0_0.index t (0 : Fin 3) * 1 + 1 * 0 = t.val; omega
    | ⟨1, _⟩ => show win0_0.index t (1 : Fin 3) * 1024 + 1 * n.val = n.val; omega
    | ⟨2, _⟩ => show win0_0.index t (2 : Fin 3) * 256 + 1 * k.val = k.val; omega
  rw [he]
  exact cast_pixels_positions _ _ (smp t) n k

/-- The weight block of every point is the whole weight array. -/
theorem iblk0_1_apply (c : Dev nD) (t : Fin cfg0.N) (k : Fin 256) (d : Fin 1536) :
    (iblk0 (V1 m ρ) c 1 t : Vec Ideal S256x1536 .bf16) (ix2 k d)
      = (m ((c : Thread nD τ).loc main_arg1) : S256x1536.Idx → EReal) (ix2 k d) := by
  obtain ⟨-, -, -, e0, e1, -⟩ := idx0 t
  unfold iblk0
  rw [View.read_apply]
  show V1 m ρ c main_v1 (((cfg0.win 1).blk t).view.emb (ix2 k d)) = _
  rw [v1_v1]
  have he : ((cfg0.win 1).blk t).view.emb (ix2 k d) = (ix2 k d : S256x1536.Idx) := by
    funext a; apply Fin.ext
    match a with
    | ⟨0, _⟩ => show win0_1.index t (0 : Fin 2) * 256 + 1 * k.val = k.val; omega
    | ⟨1, _⟩ => show win0_1.index t (1 : Fin 2) * 1536 + 1 * d.val = d.val; omega
  rw [he]

/-- What the body of the first kernel leaves in its output block, as a statement about ANY memrefs and input blocks:
    proved where the body is read (the attention body module), taken here as a hypothesis. -/
def AttnBodyValue : Prop :=
  ∀ (c : Dev nD) (i : grid0.Coords) (arg1 : Memref sig .tc .vmem S1x1024x256 .f32) (harg1 : arg1.IsWhole) (arg2 : Memref sig .tc .vmem S256x1536 .bf16) (harg2 : arg2.IsWhole) (arg3 : Memref sig .tc .vmem S1x8x1024x64 .bf16) (harg3 : arg3.IsWhole) (arg4 : Memref sig .tc .vmem S1024x1536 .bf16) (harg4 : arg4.IsWhole)
    (x0 : Vec Ideal S1x1024x256 .f32) (x1 : Vec Ideal S256x1536 .bf16)
    (X : AttnSpec.SX.Idx → EReal) (W : AttnSpec.SWq.Idx → EReal) (b : Fin 8)
    (hx0 : ∀ (n : Fin 1024) (k : Fin 256), x0 (ix3 (0 : Fin 1) n k) = X (ix4 b (AttnSpec.rowHi n) (AttnSpec.rowLo n) k))
    (hx1 : ∀ (k : Fin 256) (d : Fin 1536), x1 (ix2 k d) = W (ix2 k d))
    (h : Fin 8) (n : Fin 1024) (e : Fin 64),
    out0_A_2 (F := Ideal) c i arg1 harg1 arg2 harg2 arg3 harg3 arg4 harg4 x0 x1 (ix4 (0 : Fin 1) h n e) = AttnSpec.headOut X W b h n e

section Region0

/-- The attention output as the contents of the first region's output array. -/
abbrev attnArr (c : Dev nD) : S8x8x1024x64.Idx → EReal :=
  AttnSpec.attnOut (m ((c : Thread nD τ).loc main_arg0)) (m ((c : Thread nD τ).loc main_arg1))

/-- What point `t` leaves in its output block, entry by entry: the heads' outputs of sample `t`. -/
theorem outs0_apply (hbody : AttnBodyValue) (c : Dev nD) (t : Fin cfg0.N) (y : S1x8x1024x64.Idx) :
    (outsAt0 (V1 m ρ) c t : Vec Ideal S1x8x1024x64 .bf16) y = attnArr m c (ix4 (smp t) (y 1) (y 2) (y 3)) := by
  obtain ⟨y0, h, n, e, rfl⟩ : ∃ (y0 : Fin 1) (h : Fin 8) (n : Fin 1024) (e : Fin 64), y = ix4 y0 h n e :=
    ⟨y 0, y 1, y 2, y 3, eq_ix4 y⟩
  obtain rfl : y0 = 0 := Subsingleton.elim _ _
  unfold outsAt0
  exact hbody c _ _ _ _ _ _ _ _ _ _ _ _ _ (smp t) (iblk0_0_apply m ρ c t) (iblk0_1_apply m ρ c t) h n e

/-- WHAT POINT `t` WRITES BACK is block `t` of the attention output. -/
theorem flushed0 (hbody : AttnBodyValue) (c : Dev nD) (t : Fin cfg0.N) :
    (dat0 (V1 m ρ) c).flushed 2 t = ((cfg0.win 2).blk t).view.read (Elt Ideal) (attnArr m c) := by
  obtain ⟨-, -, -, -, -, e0, e1, e2, e3⟩ := idx0 t
  show (cfg0.win 2).cut (grid0.coords t) ((dat0 (V1 m ρ) c).after 2 t) = _
  rw [after0_2]
  funext y
  show (outsAt0 (V1 m ρ) c t : Vec Ideal S1x8x1024x64 .bf16) y = attnArr m c (((cfg0.win 2).blk t).view.emb y)
  rw [outs0_apply m ρ hbody c t y]
  refine congrArg (attnArr m c) ?_
  funext a; apply Fin.ext
  have h0 : (y 0).val < 1 := (y 0).isLt
  match a with
  | ⟨0, _⟩ => show t.val = win0_2.index t (0 : Fin 4) * 1 + 1 * (y 0).val; omega
  | ⟨1, _⟩ => show (y 1).val = win0_2.index t (1 : Fin 4) * 8 + 1 * (y 1).val; omega
  | ⟨2, _⟩ => show (y 2).val = win0_2.index t (2 : Fin 4) * 1024 + 1 * (y 2).val; omega
  | ⟨3, _⟩ => show (y 3).val = win0_2.index t (3 : Fin 4) * 64 + 1 * (y 3).val; omega

/-- Every entry of the output array lies in the block of its sample's point. -/
theorem cover0 (i : S8x8x1024x64.Idx) :
    ∃ t : Fin cfg0.N, (cfg0.win 2).flush t = true ∧ i ∈ ((cfg0.win 2).blk t).view.set := by
  have hi0 : (i 0).val < 8 := (i 0).isLt
  have hi1 : (i 1).val < 8 := (i 1).isLt
  have hi2 : (i 2).val < 1024 := (i 2).isLt
  have hi3 : (i 3).val < 64 := (i 3).isLt
  let t : Fin cfg0.N := ⟨(i 0).val, lt_of_lt_of_eq hi0 N_0.symm⟩
  obtain ⟨-, -, -, -, -, e0, e1, e2, e3⟩ := idx0 t
  have e0' : win0_2.index t (0 : Fin 4) = (i 0).val := e0
  refine ⟨t, flush0_2 t, ?_⟩
  show i ∈ ((View.whole main_v3).slice (win0_2.rect t)).set
  rw [View.set_slice_whole, Rect.mem_set_unit]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 1024 ≤ (i 2).val ∧ (i 2).val < win0_2.index t (2 : Fin 4) * 1024 + 1024; omega
  | ⟨3, _⟩ => show win0_2.index t (3 : Fin 4) * 64 ≤ (i 3).val ∧ (i 3).val < win0_2.index t (3 : Fin 4) * 64 + 64; omega

/-- THE ARRAY the first region leaves: the attention output. -/
theorem arr0 (hbody : AttnBodyValue) (c : Dev nD) : (dat0 (V1 m ρ) c).arrAt 2 cfg0.N = attnArr m c :=
  (dat0 (V1 m ρ) c).arrAt_eq_of_cover 2 (attnArr m c) (fun t _ => flushed0 m ρ hbody c t) cover0

end Region0

/-! ## Between the regions -/

/-- The regrouping of the attention output into 8 samples × 32 × 32 pixels × 512 channels: a reshape, then a
    transposition (kept as the two operations: the reference applies the same two). -/
def regroupK (o : S8x8x1024x64.Idx → EReal) : S8x32x32x512.Idx → EReal :=
  transpose S8x32x32x512 [0, 2, 3, 1] (shapeCast S8x512x32x32 o shapeCasts_S8x8x1024x64_S8x512x32x32)
    transposes_S8x512x32x32_S8x32x32x512_0_2_3_1

theorem w2_v3 (hbody : AttnBodyValue) (c : Dev nD) :
    (W2 m ρ c (Proc.devRef .tc main_v3) : S8x8x1024x64.Idx → EReal) = attnArr m c :=
  (W2_arr m ρ c 2).trans (arr0 m ρ hbody c)

theorem w2_v2 (c : Dev nD) :
    (W2 m ρ c (Proc.devRef .tc main_v2) : S512x256.Idx → EReal) = m ((c : Thread nD τ).loc main_arg2) :=
  (W2_of_ne m ρ c main_v2 (by decide)).trans (w1_v2 m ρ c)

theorem w2_arg (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans h0

theorem w2_arg3 (c : Dev nD) : (W2 m ρ c (Proc.devRef .tc main_arg3) : S256.Idx → EReal) = m ((c : Thread nD τ).loc main_arg3) :=
  w2_arg m ρ c main_arg3 (by decide) (by after_results)
theorem w2_arg4 (c : Dev nD) : (W2 m ρ c (Proc.devRef .tc main_arg4) : S256.Idx → EReal) = m ((c : Thread nD τ).loc main_arg4) :=
  w2_arg m ρ c main_arg4 (by decide) (by after_results)
theorem w2_arg5 (c : Dev nD) : (W2 m ρ c (Proc.devRef .tc main_arg5) : S256.Idx → EReal) = m ((c : Thread nD τ).loc main_arg5) :=
  w2_arg m ρ c main_arg5 (by decide) (by after_results)

/-- The second region's first operand: the regrouped attention output, its pixels numbered as positions. -/
theorem v3_v6 (hbody : AttnBodyValue) (c : Dev nD) :
    (V3 m ρ c main_v6 : S8x1024x512.Idx → EReal)
      = fun i => shapeCast S8x1024x512 (regroupK (attnArr m c)) shapeCasts_S8x32x32x512_S8x1024x512 i := by
  show StableHlo.after hostOps1 (W2 m ρ c) (Proc.devRef .tc main_v6) = _
  after_results
  rw [w2_v3 m ρ hbody c]
  rfl

theorem v3_v2 (c : Dev nD) : (V3 m ρ c main_v2 : S512x256.Idx → EReal) = m ((c : Thread nD τ).loc main_arg2) := by
  show StableHlo.after hostOps1 (W2 m ρ c) (Proc.devRef .tc main_v2) = _
  after_results
  exact w2_v2 m ρ c

theorem v3_v7 (c : Dev nD) :
    (V3 m ρ c main_v7 : S1x256.Idx → EReal) = fun i => shapeCast S1x256 (m ((c : Thread nD τ).loc main_arg3)) shapeCasts_S256_S1x256 i := by
  show StableHlo.after hostOps1 (W2 m ρ c) (Proc.devRef .tc main_v7) = _
  after_results
  rw [w2_arg3 m ρ c]
  rfl
theorem v3_v8 (c : Dev nD) :
    (V3 m ρ c main_v8 : S1x256.Idx → EReal) = fun i => shapeCast S1x256 (m ((c : Thread nD τ).loc main_arg4)) shapeCasts_S256_S1x256 i := by
  show StableHlo.after hostOps1 (W2 m ρ c) (Proc.devRef .tc main_v8) = _
  after_results
  rw [w2_arg4 m ρ c]
  rfl
theorem v3_v9 (c : Dev nD) :
    (V3 m ρ c main_v9 : S1x256.Idx → EReal) = fun i => shapeCast S1x256 (m ((c : Thread nD τ).loc main_arg5)) shapeCasts_S256_S1x256 i := by
  show StableHlo.after hostOps1 (W2 m ρ c) (Proc.devRef .tc main_v9) = _
  after_results
  rw [w2_arg5 m ρ c]
  rfl

/-! ## The second region: the normalised array -/

/-- A grid point of the second region as a sample number. -/
def smp1 (t : Fin cfg1.N) : Fin 8 := ⟨t.val, lt_of_lt_of_eq t.isLt N_1⟩

/-- The printed index maps over the second grid: the operand and output blocks follow the sample, the weights and the
    three channel rows stay. -/
theorem idx1 : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val ∧ win1_5.index t (1 : Fin 3) = 0 ∧ win1_5.index t (2 : Fin 3) = 0 :=
  (by decide +kernel : ∀ t : Fin grid1.N, _)

/-- The regrouped attention output, as the array the second stage projects. -/
abbrev midArr (c : Dev nD) : S8x32x32x512.Idx → EReal := regroupK (attnArr m c)

theorem iblk1_0_apply (hbody : AttnBodyValue) (c : Dev nD) (t : Fin cfg1.N) (n : Fin 1024) (k : Fin 512) :
    (iblk1 (V3 m ρ) c 0 t : Vec Ideal S1x1024x512 .bf16) (ix3 (0 : Fin 1) n k)
      = midArr m c (ix4 (smp1 t) (rowHi n) (rowLo n) k) := by
  obtain ⟨e0, e1, e2, -⟩ := idx1 t
  unfold iblk1
  rw [View.read_apply]
  show V3 m ρ c main_v6 (((cfg1.win 0).blk t).view.emb (ix3 (0 : Fin 1) n k)) = _
  rw [v3_v6 m ρ hbody c]
  have he : ((cfg1.win 0).blk t).view.emb (ix3 (0 : Fin 1) n k) = (ix3 (smp1 t) n k : S8x1024x512.Idx) := by
    funext a; apply Fin.ext
    match a with
    | ⟨0, _⟩ => show win1_0.index t (0 : Fin 3) * 1 + 1 * 0 = t.val; omega
    | ⟨1, _⟩ => show win1_0.index t (1 : Fin 3) * 1024 + 1 * n.val = n.val; omega
    | ⟨2, _⟩ => show win1_0.index t (2 : Fin 3) * 512 + 1 * k.val = k.val; omega
  rw [he]
  exact cast_pixels_positions _ _ (smp1 t) n k

theorem iblk1_1_apply (c : Dev nD) (t : Fin cfg1.N) (k : Fin 512) (d : Fin 256) :
    (iblk1 (V3 m ρ) c 1 t : Vec Ideal S512x256 .bf16) (ix2 k d)
      = (m ((c : Thread nD τ).loc main_arg2) : S512x256.Idx → EReal) (ix2 k d) := by
  obtain ⟨-, -, -, e0, e1, -⟩ := idx1 t
  unfold iblk1
  rw [View.read_apply]
  show V3 m ρ c main_v2 (((cfg1.win 1).blk t).view.emb (ix2 k d)) = _
  rw [v3_v2]
  have he : ((cfg1.win 1).blk t).view.emb (ix2 k d) = (ix2 k d : S512x256.Idx) := by
    funext a; apply Fin.ext
    match a with
    | ⟨0, _⟩ => show win1_1.index t (0 : Fin 2) * 512 + 1 * k.val = k.val; omega
    | ⟨1, _⟩ => show win1_1.index t (1 : Fin 2) * 256 + 1 * d.val = d.val; omega
  rw [he]

theorem iblk1_2_apply (c : Dev nD) (t : Fin cfg1.N) (d : Fin 256) :
    (iblk1 (V3 m ρ) c 2 t : Vec Ideal S1x256 .f32) (ix2 (0 : Fin 1) d)
      = (m ((c : Thread nD τ).loc main_arg3) : S256.Idx → EReal) (ix1 d) := by
  obtain ⟨-, -, -, -, -, e0, e1, -⟩ := idx1 t
  unfold iblk1
  rw [View.read_apply]
  show V3 m ρ c main_v7 (((cfg1.win 2).blk t).view.emb (ix2 (0 : Fin 1) d)) = _
  rw [v3_v7]
  have he : ((cfg1.win 2).blk t).view.emb (ix2 (0 : Fin 1) d) = (ix2 (0 : Fin 1) d : S1x256.Idx) := by
    funext a; apply Fin.ext
    match a with
    | ⟨0, _⟩ => show win1_2.index t (0 : Fin 2) * 1 + 1 * 0 = 0; omega
    | ⟨1, _⟩ => show win1_2.index t (1 : Fin 2) * 256 + 1 * d.val = d.val; omega
  rw [he]
  exact shapeCast_a_1a_apply _ _ 0 d

theorem iblk1_3_apply (c : Dev nD) (t : Fin cfg1.N) (d : Fin 256) :
    (iblk1 (V3 m ρ) c 3 t : Vec Ideal S1x256 .f32) (ix2 (0 : Fin 1) d)
      = (m ((c : Thread nD τ).loc main_arg4) : S256.Idx → EReal) (ix1 d) := by
  obtain ⟨-, -, -, -, -, -, -, e0, e1, -⟩ := idx1 t
  unfold iblk1
  rw [View.read_apply]
  show V3 m ρ c main_v8 (((cfg1.win 3).blk t).view.emb (ix2 (0 : Fin 1) d)) = _
  rw [v3_v8]
  have he : ((cfg1.win 3).blk t).view.emb (ix2 (0 : Fin 1) d) = (ix2 (0 : Fin 1) d : S1x256.Idx) := by
    funext a; apply Fin.ext
    match a with
    | ⟨0, _⟩ => show win1_3.index t (0 : Fin 2) * 1 + 1 * 0 = 0; omega
    | ⟨1, _⟩ => show win1_3.index t (1 : Fin 2) * 256 + 1 * d.val = d.val; omega
  rw [he]
  exact shapeCast_a_1a_apply _ _ 0 d

theorem iblk1_4_apply (c : Dev nD) (t : Fin cfg1.N) (d : Fin 256) :
    (iblk1 (V3 m ρ) c 4 t : Vec Ideal S1x256 .f32) (ix2 (0 : Fin 1) d)
      = (m ((c : Thread nD τ).loc main_arg5) : S256.Idx → EReal) (ix1 d) := by
  obtain ⟨-, -, -, -, -, -, -, -, -, e0, e1, -⟩ := idx1 t
  unfold iblk1
  rw [View.read_apply]
  show V3 m ρ c main_v9 (((cfg1.win 4).blk t).view.emb (ix2 (0 : Fin 1) d)) = _
  rw [v3_v9]
  have he : ((cfg1.win 4).blk t).view.emb (ix2 (0 : Fin 1) d) = (ix2 (0 : Fin 1) d : S1x256.Idx) := by
    funext a; apply Fin.ext
    match a with
    | ⟨0, _⟩ => show win1_4.index t (0 : Fin 2) * 1 + 1 * 0 = 0; omega
    | ⟨1, _⟩ => show win1_4.index t (1 : Fin 2) * 256 + 1 * d.val = d.val; omega
  rw [he]
  exact shapeCast_a_1a_apply _ _ 0 d

/-- What the body of the second kernel leaves in its output block, as a statement about ANY input blocks: proved where
    that body is read, taken here as a hypothesis. -/
def NormBodyValue : Prop :=
  ∀ (x0 : Vec Ideal S1x1024x512 .bf16) (x1 : Vec Ideal S512x256 .bf16) (x2 x3 x4 : Vec Ideal S1x256 .f32)
    (T : AttnSpec.ST.Idx → EReal) (Wo : AttnSpec.SWo.Idx → EReal) (bo g be : AttnSpec.SV.Idx → EReal) (b : Fin 8)
    (hx0 : ∀ (n : Fin 1024) (k : Fin 512), x0 (ix3 (0 : Fin 1) n k) = T (ix4 b (AttnSpec.rowHi n) (AttnSpec.rowLo n) k))
    (hx1 : ∀ (k : Fin 512) (d : Fin 256), x1 (ix2 k d) = Wo (ix2 k d))
    (hx2 : ∀ d : Fin 256, x2 (ix2 (0 : Fin 1) d) = bo (ix1 d))
    (hx3 : ∀ d : Fin 256, x3 (ix2 (0 : Fin 1) d) = g (ix1 d))
    (hx4 : ∀ d : Fin 256, x4 (ix2 (0 : Fin 1) d) = be (ix1 d))
    (n : Fin 1024) (d : Fin 256),
    out1_5 (F := Ideal) x0 x1 x2 x3 x4 (ix3 (0 : Fin 1) n d) = AttnSpec.normAt T Wo bo g be b n d

/-- The normalised entries as the contents of the second region's output array (positions not yet regrouped as pixels). -/
abbrev normArr (c : Dev nD) : S8x1024x256.Idx → EReal := fun i =>
  AttnSpec.normAt (midArr m c) (m ((c : Thread nD τ).loc main_arg2)) (m ((c : Thread nD τ).loc main_arg3))
    (m ((c : Thread nD τ).loc main_arg4)) (m ((c : Thread nD τ).loc main_arg5)) (i 0) (i 1) (i 2)

/-- WHAT POINT `t` WRITES BACK is block `t` of the normalised array. -/
theorem flushed1 (hA : AttnBodyValue) (hN : NormBodyValue) (c : Dev nD) (t : Fin cfg1.N) :
    (dat1 (V3 m ρ) c).flushed 5 t = ((cfg1.win 5).blk t).view.read (Elt Ideal) (normArr m c) := by
  obtain ⟨-, -, -, -, -, -, -, -, -, -, -, e0, e1, e2⟩ := idx1 t
  show (cfg1.win 5).cut (grid1.coords t) ((dat1 (V3 m ρ) c).after 5 t) = _
  rw [after1_5]
  funext y
  show (out1_5 (iblk1 (V3 m ρ) c 0 t) (iblk1 (V3 m ρ) c 1 t) (iblk1 (V3 m ρ) c 2 t) (iblk1 (V3 m ρ) c 3 t) (iblk1 (V3 m ρ) c 4 t) : Vec Ideal S1x1024x256 .f32) y
      = normArr m c (((cfg1.win 5).blk t).view.emb y)
  have hy : (y : S1x1024x256.Idx) = ix3 (0 : Fin 1) (y 1) (y 2) := by
    rw [eq_ix3 (y : S1x1024x256.Idx)]; congr 1
    exact Subsingleton.elim (α := Fin 1) _ _
  have h0 : (y 0).val < 1 := (y 0).isLt
  have he : ((cfg1.win 5).blk t).view.emb y = (ix3 (smp1 t) (y 1) (y 2) : S8x1024x256.Idx) := by
    funext a; apply Fin.ext
    match a with
    | ⟨0, _⟩ => show win1_5.index t (0 : Fin 3) * 1 + 1 * (y 0).val = t.val; omega
    | ⟨1, _⟩ => show win1_5.index t (1 : Fin 3) * 1024 + 1 * (y 1).val = (y 1).val; omega
    | ⟨2, _⟩ => show win1_5.index t (2 : Fin 3) * 256 + 1 * (y 2).val = (y 2).val; omega
  rw [he]
  refine (congrArg _ hy).trans ?_
  exact hN _ _ _ _ _ (midArr m c) _ _ _ _ (smp1 t) (iblk1_0_apply m ρ hA c t) (iblk1_1_apply m ρ c t)
    (iblk1_2_apply m ρ c t) (iblk1_3_apply m ρ c t) (iblk1_4_apply m ρ c t) (y 1) (y 2)

theorem cover1 (i : S8x1024x256.Idx) :
    ∃ t : Fin cfg1.N, (cfg1.win 5).flush t = true ∧ i ∈ ((cfg1.win 5).blk t).view.set := by
  have hi0 : (i 0).val < 8 := (i 0).isLt
  have hi1 : (i 1).val < 1024 := (i 1).isLt
  have hi2 : (i 2).val < 256 := (i 2).isLt
  let t : Fin cfg1.N := ⟨(i 0).val, lt_of_lt_of_eq hi0 N_1.symm⟩
  obtain ⟨-, -, -, -, -, -, -, -, -, -, -, e0, e1, e2⟩ := idx1 t
  have e0' : win1_5.index t (0 : Fin 3) = (i 0).val := e0
  refine ⟨t, flush1_5 t, ?_⟩
  show i ∈ ((View.whole main_v10).slice (win1_5.rect t)).set
  rw [View.set_slice_whole, Rect.mem_set_unit]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 256 ≤ (i 2).val ∧ (i 2).val < win1_5.index t (2 : Fin 3) * 256 + 256; omega

/-- THE ARRAY the second region leaves. -/
theorem arr1 (hA : AttnBodyValue) (hN : NormBodyValue) (c : Dev nD) : (dat1 (V3 m ρ) c).arrAt 5 cfg1.N = normArr m c :=
  (dat1 (V3 m ρ) c).arrAt_eq_of_cover 5 (normArr m c) (fun t _ => flushed1 m ρ hA hN c t) cover1

/-! ## The program's result -/

/-- THE RESULT BUFFER at the last boundary: stage two of the regrouped stage one, its positions regrouped as pixels. -/
theorem result (hA : AttnBodyValue) (hN : NormBodyValue) (c : Dev nD) :
    (W5 m ρ c (Proc.devRef .tc main_v11) : S8x32x32x256.Idx → EReal)
      = AttnSpec.normOut (midArr m c) (m ((c : Thread nD τ).loc main_arg2)) (m ((c : Thread nD τ).loc main_arg3))
          (m ((c : Thread nD τ).loc main_arg4)) (m ((c : Thread nD τ).loc main_arg5)) := by
  have h4 : (W4 m ρ c (Proc.devRef .tc main_v10) : S8x1024x256.Idx → EReal) = normArr m c :=
    (W4_arr m ρ c 5).trans (arr1 m ρ hA hN c)
  show StableHlo.after hostOps2 (W4 m ρ c) (Proc.devRef .tc main_v11) = _
  after_results
  rw [h4]
  funext i
  obtain ⟨b, p, q, d, rfl⟩ : ∃ (b : Fin 8) (p q : Fin 32) (d : Fin 256), i = ix4 b p q d := ⟨i 0, i 1, i 2, i 3, eq_ix4 i⟩
  rw [AttnSpec.normOut_apply]
  exact cast_positions_pixels (normArr m c) _ b p q d

end Cert.KernelIdeal.Glue

end
-- ==== Proof.KernAttn.lean ====
/-
  The value of the fused projection-and-attention body at one sample.

  The body loads the sample's block `x0` (1 × 1024 × 256) and the projection `x1` (256 × 1536), stores their product — the
  projected array, 1024 × 1536 — into a scratch buffer once, and then, for each of the 8 heads, loads three slabs of 64
  columns of it (queries at column 64h, keys at 512 + 64h, values at 1024 + 64h), computes the head's attention and stores
  it as block `h` of the 1 × 8 × 1024 × 64 output.

  The proof follows the data.  (1) The three matrix products, the row maximum and the row sum are read at an index as
  sums and a fold over `Fin` (the contraction index of a product with one contracted axis is that axis's coordinate; a
  reduction over axis 1 of a matrix inserts the reduced coordinate as the column).  (2) The eight spellings of a head's
  chain of operations are one function `headFn` of the three slabs, by unfolding; `headFn` is cut into four stages, each
  read at an index over variables.  (3) A slab read back from the scratch buffer after its one whole store is the stored
  array at the shifted columns, and the stored array at (n, d) is `∑ k, X[b, n, k] · W[k, d]`.  (4) The eight stores are
  the eight blocks of one function of the output block's index, so the block read back is that function.
  Everything is over the extended reals, where sums may be re-indexed freely; no distributivity or cancellation is used:
  both sides are the same sums.
-/
import proofs.«134831_j36223754174593_2_alg».proof.Proof.Gen.KernelIdeal.Frame
import proofs.«134831_j36223754174593_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnBody

open Idealize.ShloMosaic Idealize.ShloMosaic.ValueIdx
open Cert.KernelIdeal Cert.KernelIdeal.Gen

/-! ## Two layout operations at an index: a vector made a column, a column spread over the rows' entries -/

/-- An `[a]` array cast to `[a, 1]` reads, at `(i, u)`, the operand at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three matrix products at an index -/

/-- The score product contracts the 64 components of a query row and a key row. -/
theorem scores_apply (a b : FVec Ideal S1024x64 .bf16) (n m : Fin 1024) :
    matmul dot_S1024x64_S1024x64_S1024x1024_1_1_0_0_n_n none a b (constant (F := Ideal) S1024x1024 .f32 0x00000000#32) (ix2 n m)
      = ∑ c : Fin 64, a (ix2 n c) * b (ix2 m c) := by
  refine (Ideal.matmul_constant_zero_apply dot_S1024x64_S1024x64_S1024x1024_1_1_0_0_n_n none a b (ix2 n m)).trans ?_
  refine (Equiv.sum_comp (contrEquiv1 dot_S1024x64_S1024x64_S1024x1024_1_1_0_0_n_n 64 rfl rfl).symm _).symm.trans ?_
  refine Finset.sum_congr rfl fun c _ => ?_
  have hl : dot_S1024x64_S1024x64_S1024x1024_1_1_0_0_n_n.lhsIdx (ix2 n m)
      ((contrEquiv1 dot_S1024x64_S1024x64_S1024x1024_1_1_0_0_n_n 64 rfl rfl).symm c) = ix2 n c := by
    funext d; apply Fin.ext
    match d with
    | ⟨0, _⟩ => rfl
    | ⟨1, _⟩ =>
      exact (DotDims.lhsIdx_val_of_single (cl := (1 : Fin 2)) _ rfl _ _).trans (contrEquiv1_symm_val dot_S1024x64_S1024x64_S1024x1024_1_1_0_0_n_n 64 rfl rfl c)
  have hr : dot_S1024x64_S1024x64_S1024x1024_1_1_0_0_n_n.rhsIdx (ix2 n m)
      ((contrEquiv1 dot_S1024x64_S1024x64_S1024x1024_1_1_0_0_n_n 64 rfl rfl).symm c) = ix2 m c := by
    funext d; apply Fin.ext
    match d with
    | ⟨0, _⟩ => rfl
    | ⟨1, _⟩ =>
      exact (DotDims.rhsIdx_val_of_single (cr := (1 : Fin 2)) _ rfl _ _).trans (contrEquiv1_symm_val dot_S1024x64_S1024x64_S1024x1024_1_1_0_0_n_n 64 rfl rfl c)
  rw [hl, hr]

/-- The weighted sum contracts the 1024 key positions. -/
theorem mix_apply (p : FVec Ideal S1024x1024 .bf16) (v : FVec Ideal S1024x64 .bf16) (n : Fin 1024) (e : Fin 64) :
    matmul dot_S1024x1024_S1024x64_S1024x64_1_0_0_1_n_n none p v (constant (F := Ideal) S1024x64 .f32 0x00000000#32) (ix2 n e)
      = ∑ m : Fin 1024, p (ix2 n m) * v (ix2 m e) := by
  refine (Ideal.matmul_constant_zero_apply dot_S1024x1024_S1024x64_S1024x64_1_0_0_1_n_n none p v (ix2 n e)).trans ?_
  refine (Equiv.sum_comp (contrEquiv1 dot_S1024x1024_S1024x64_S1024x64_1_0_0_1_n_n 1024 rfl rfl).symm _).symm.trans ?_
  refine Finset.sum_congr rfl fun c _ => ?_
  have hl : dot_S1024x1024_S1024x64_S1024x64_1_0_0_1_n_n.lhsIdx (ix2 n e)
      ((contrEquiv1 dot_S1024x1024_S1024x64_S1024x64_1_0_0_1_n_n 1024 rfl rfl).symm c) = ix2 n c := by
    funext d; apply Fin.ext
    match d with
    | ⟨0, _⟩ => rfl
    | ⟨1, _⟩ =>
      exact (DotDims.lhsIdx_val_of_single (cl := (1 : Fin 2)) _ rfl _ _).trans (contrEquiv1_symm_val dot_S1024x1024_S1024x64_S1024x64_1_0_0_1_n_n 1024 rfl rfl c)
  have hr : dot_S1024x1024_S1024x64_S1024x64_1_0_0_1_n_n.rhsIdx (ix2 n e)
      ((contrEquiv1 dot_S1024x1024_S1024x64_S1024x64_1_0_0_1_n_n 1024 rfl rfl).symm c) = ix2 c e := by
    funext d; apply Fin.ext
    match d with
    | ⟨0, _⟩ =>
      exact (DotDims.rhsIdx_val_of_single (cr := (0 : Fin 2)) _ rfl _ _).trans (contrEquiv1_symm_val dot_S1024x1024_S1024x64_S1024x64_1_0_0_1_n_n 1024 rfl rfl c)
    | ⟨1, _⟩ => rfl
  rw [hl, hr]

/-- The projection contracts the 256 input channels. -/
theorem project_apply (x : FVec Ideal S1024x256 .bf16) (w : FVec Ideal S256x1536 .bf16) (n : Fin 1024) (d : Fin 1536) :
    matmul dot_S1024x256_S256x1536_S1024x1536_1_0_0_1_n_n none x w (constant (F := Ideal) S1024x1536 .f32 0x00000000#32) (ix2 n d)
      = ∑ k : Fin 256, x (ix2 n k) * w (ix2 k d) := by
  refine (Ideal.matmul_constant_zero_apply dot_S1024x256_S256x1536_S1024x1536_1_0_0_1_n_n none x w (ix2 n d)).trans ?_
  refine (Equiv.sum_comp (contrEquiv1 dot_S1024x256_S256x1536_S1024x1536_1_0_0_1_n_n 256 rfl rfl).symm _).symm.trans ?_
  refine Finset.sum_congr rfl fun c _ => ?_
  have hl : dot_S1024x256_S256x1536_S1024x1536_1_0_0_1_n_n.lhsIdx (ix2 n d)
      ((contrEquiv1 dot_S1024x256_S256x1536_S1024x1536_1_0_0_1_n_n 256 rfl rfl).symm c) = ix2 n c := by
    funext a; apply Fin.ext
    match a with
    | ⟨0, _⟩ => rfl
    | ⟨1, _⟩ =>
      exact (DotDims.lhsIdx_val_of_single (cl := (1 : Fin 2)) _ rfl _ _).trans (contrEquiv1_symm_val dot_S1024x256_S256x1536_S1024x1536_1_0_0_1_n_n 256 rfl rfl c)
  have hr : dot_S1024x256_S256x1536_S1024x1536_1_0_0_1_n_n.rhsIdx (ix2 n d)
      ((contrEquiv1 dot_S1024x256_S256x1536_S1024x1536_1_0_0_1_n_n 256 rfl rfl).symm c) = ix2 c d := by
    funext a; apply Fin.ext
    match a with
    | ⟨0, _⟩ =>
      exact (DotDims.rhsIdx_val_of_single (cr := (0 : Fin 2)) _ rfl _ _).trans (contrEquiv1_symm_val dot_S1024x256_S256x1536_S1024x1536_1_0_0_1_n_n 256 rfl rfl c)
    | ⟨1, _⟩ => rfl
  rw [hl, hr]

/-! ## One head, as one function

The body computes the eight heads by the same chain of operations, which the generated payloads spell in eight ways
(whole, or split in two at an intermediate value: the scaled queries, the exponentials, the weights, or the mixed
values before their last reshaping). `headFn` is the chain written once; each spelling is it by unfolding. -/

section AnyInstance
variable {F : FTy → Type} [FloatOps F]

/-- One head: scale the queries by 1/8, score them against the keys, shift each row of scores by its maximum,
    exponentiate, divide by the row's sum, and mix the values with these weights. -/
def headFn (v10 : Vec F S1024x64 .bf16) (v11 : Vec F S1024x64 .bf16) (v12 : Vec F S1024x64 .bf16) : FVec F S1x1x1024x64 .bf16 :=
  have cst_10 : F .bf16 := Scalar.ofBits .bf16 0x3E00#16
  have v13 : FVec F S1024x64 .bf16 := broadcast S1024x64 cst_10
  have v14 : FVec F S1024x64 .bf16 := mulf v10 v13
  have cst_11 : FVec F S1024x1024 .f32 := constant S1024x1024 .f32 0x00000000#32
  have v15 : FVec F S1024x1024 .f32 := matmul dot_S1024x64_S1024x64_S1024x1024_1_1_0_0_n_n none v14 v11 cst_11
  have v16 : FVec F S1024 .f32 := multiReduction .maximumf [1] S1024 v15 0xFF800000#32 reduces_S1024x1024_S1024 (.inl rfl) rfl
  have v17 : FVec F S1024x1 .f32 := shapeCast S1024x1 v16 shapeCasts_S1024_S1024x1
  have v18 : FVec F S1024x1024 .f32 := broadcastTo S1024x1024 v17 broadcasts_S1024x1_S1024x1024
  have v19 : FVec F S1024x1024 .f32 := subf v15 v18
  have v20 : FVec F S1024x1024 .f32 := exp v19
  have v21 : FVec F S1024 .f32 := multiReduction .add [1] S1024 v20 0x00000000#32 reduces_S1024x1024_S1024 (.inl rfl) rfl
  have v22 : FVec F S1024x1 .f32 := shapeCast S1024x1 v21 shapeCasts_S1024_S1024x1
  have v23 : FVec F S1024x1024 .f32 := broadcastTo S1024x1024 v22 broadcasts_S1024x1_S1024x1024
  have v24 : FVec F S1024x1024 .f32 := divf v20 v23
  have v25 : FVec F S1024x1024 .bf16 := truncf .bf16 v24 bitsLt_bf16_f32
  have cst_14 : FVec F S1024x64 .f32 := constant S1024x64 .f32 0x00000000#32
  have v26 : FVec F S1024x64 .f32 := matmul dot_S1024x1024_S1024x64_S1024x64_1_0_0_1_n_n none v25 v12 cst_14
  have v27 : FVec F S1024x64 .bf16 := truncf .bf16 v26 bitsLt_bf16_f32
  have v30 : FVec F S1x1x1024x64 .bf16 := shapeCast S1x1x1024x64 v27 shapeCasts_S1024x64_S1x1x1024x64
  v30

theorem head0_eq (q k v : Vec F S1024x64 .bf16) : k0_pay3 q k v = headFn q k v := rfl
theorem head1_eq (q k v : Vec F S1024x64 .bf16) : k0_pay4 q k v = headFn q k v := rfl
theorem head2_eq (q k v : Vec F S1024x64 .bf16) : k0_pay6 v (k0_pay5 q k) = headFn q k v := rfl
theorem head3_eq (q k v : Vec F S1024x64 .bf16) : k0_pay7 q k v = headFn q k v := rfl
theorem head4_eq (q k v : Vec F S1024x64 .bf16) : k0_pay9 k v (k0_pay8 q) = headFn q k v := rfl
theorem head5_eq (q k v : Vec F S1024x64 .bf16) : k0_pay11 (k0_pay10 q k v) = headFn q k v := rfl
theorem head6_eq (q k v : Vec F S1024x64 .bf16) : k0_pay12 q k v = headFn q k v := rfl
theorem head7_eq (q k v : Vec F S1024x64 .bf16) : k0_pay1 v (k0_pay13 q k) = headFn q k v := rfl

end AnyInstance

/-! ### The chain in four stages -/

section Stages
variable {F : FTy → Type} [FloatOps F]

/-- The scores: the queries scaled by 1/8, times the keys transposed. -/
def scoresOf (v10 : Vec F S1024x64 .bf16) (v11 : Vec F S1024x64 .bf16) : FVec F S1024x1024 .f32 :=
  have cst_10 : F .bf16 := Scalar.ofBits .bf16 0x3E00#16
  have v13 : FVec F S1024x64 .bf16 := broadcast S1024x64 cst_10
  have v14 : FVec F S1024x64 .bf16 := mulf v10 v13
  have cst_11 : FVec F S1024x1024 .f32 := constant S1024x1024 .f32 0x00000000#32
  have v15 : FVec F S1024x1024 .f32 := matmul dot_S1024x64_S1024x64_S1024x1024_1_1_0_0_n_n none v14 v11 cst_11
  v15

/-- The exponentials of the scores shifted by their row's maximum. -/
def exposOf (v15 : FVec F S1024x1024 .f32) : FVec F S1024x1024 .f32 :=
  have v16 : FVec F S1024 .f32 := multiReduction .maximumf [1] S1024 v15 0xFF800000#32 reduces_S1024x1024_S1024 (.inl rfl) rfl
  have v17 : FVec F S1024x1 .f32 := shapeCast S1024x1 v16 shapeCasts_S1024_S1024x1
  have v18 : FVec F S1024x1024 .f32 := broadcastTo S1024x1024 v17 broadcasts_S1024x1_S1024x1024
  have v19 : FVec F S1024x1024 .f32 := subf v15 v18
  have v20 : FVec F S1024x1024 .f32 := exp v19
  v20

/-- The exponentials divided by their row's sum. -/
def weightsOf (v20 : FVec F S1024x1024 .f32) : FVec F S1024x1024 .bf16 :=
  have v21 : FVec F S1024 .f32 := multiReduction .add [1] S1024 v20 0x00000000#32 reduces_S1024x1024_S1024 (.inl rfl) rfl
  have v22 : FVec F S1024x1 .f32 := shapeCast S1024x1 v21 shapeCasts_S1024_S1024x1
  have v23 : FVec F S1024x1024 .f32 := broadcastTo S1024x1024 v22 broadcasts_S1024x1_S1024x1024
  have v24 : FVec F S1024x1024 .f32 := divf v20 v23
  have v25 : FVec F S1024x1024 .bf16 := truncf .bf16 v24 bitsLt_bf16_f32
  v25

/-- The values mixed with the weights, as a block of the output. -/
def mixOf (v25 : FVec F S1024x1024 .bf16) (v12 : Vec F S1024x64 .bf16) : FVec F S1x1x1024x64 .bf16 :=
  have cst_14 : FVec F S1024x64 .f32 := constant S1024x64 .f32 0x00000000#32
  have v26 : FVec F S1024x64 .f32 := matmul dot_S1024x1024_S1024x64_S1024x64_1_0_0_1_n_n none v25 v12 cst_14
  have v27 : FVec F S1024x64 .bf16 := truncf .bf16 v26 bitsLt_bf16_f32
  have v30 : FVec F S1x1x1024x64 .bf16 := shapeCast S1x1x1024x64 v27 shapeCasts_S1024x64_S1x1x1024x64
  v30

theorem headFn_eq_stages (q k v : Vec F S1024x64 .bf16) :
    headFn q k v = mixOf (weightsOf (exposOf (scoresOf q k))) v := rfl

end Stages

/-! ## The stages at an index, over the extended reals -/

/-- The scaled score of query row `n` against key row `m`. -/
def score (q k : FVec Ideal S1024x64 .bf16) (n m : Fin 1024) : EReal :=
  ∑ c : Fin 64, (q (ix2 n c) * ((1 / 8 : ℝ) : EReal)) * k (ix2 m c)

/-- The largest score of row `n`. -/
def scoreMax (q k : FVec Ideal S1024x64 .bf16) (n : Fin 1024) : EReal :=
  (Finset.univ : Finset (Fin 1024)).fold max ⊥ (fun m => score q k n m)

theorem scoresOf_apply (q k : FVec Ideal S1024x64 .bf16) (n m : Fin 1024) :
    scoresOf (F := Ideal) q k (ix2 n m) = score q k n m := by
  unfold scoresOf score
  refine (scores_apply _ _ n m).trans ?_
  refine Finset.sum_congr rfl fun c _ => ?_
  show (q (ix2 n c) * Ideal.ofBits .bf16 0x3E00#16) * k (ix2 m c) = _
  rw [AttnSpec.eighth_bf16]

/-- The index of row `n`, column `m` is the row index `n` with `m` inserted on the reduced axis. -/
theorem lift_row (n m : Fin 1024) : reduces_S1024x1024_S1024.lift (ix1 n) m = ix2 n m := by
  funext d; apply Fin.ext
  match d with
  | ⟨0, _⟩ => rfl
  | ⟨1, _⟩ => rfl

/-- A row's maximum, spread back over the row. -/
theorem rowMax_apply (s : FVec Ideal S1024x1024 .f32) (n m : Fin 1024) :
    broadcastTo S1024x1024
        (shapeCast S1024x1 (multiReduction .maximumf [1] S1024 s 0xFF800000#32 reduces_S1024x1024_S1024 (.inl rfl) rfl)
          shapeCasts_S1024_S1024x1) broadcasts_S1024x1_S1024x1024 (ix2 n m)
      = (Finset.univ : Finset (Fin 1024)).fold max ⊥ (fun m' => s (ix2 n m')) := by
  refine (broadcastTo_a1_ab_apply _ _ n m).trans ?_
  refine (shapeCast_a_a1_apply _ _ n 0).trans ?_
  refine (Ideal.multiReduction_maximumf_single s 0xFF800000#32 reduces_S1024x1024_S1024 (.inl rfl) rfl (ix1 n)).trans ?_
  rw [show FloatOps.ofBits (F := Ideal) .f32 0xFF800000#32 = ⊥ from AttnSpec.negInf_f32]
  refine congrArg (Finset.fold max ⊥ · Finset.univ) (funext fun m' => ?_)
  exact congrArg s (lift_row n m')

/-- A row's sum, spread back over the row. -/
theorem rowSum_apply (s : FVec Ideal S1024x1024 .f32) (n m : Fin 1024) :
    broadcastTo S1024x1024
        (shapeCast S1024x1 (multiReduction .add [1] S1024 s 0x00000000#32 reduces_S1024x1024_S1024 (.inl rfl) rfl)
          shapeCasts_S1024_S1024x1) broadcasts_S1024x1_S1024x1024 (ix2 n m)
      = ∑ m' : Fin 1024, s (ix2 n m') := by
  refine (broadcastTo_a1_ab_apply _ _ n m).trans ?_
  refine (shapeCast_a_a1_apply _ _ n 0).trans ?_
  refine (Ideal.multiReduction_add_single s 0x00000000#32 reduces_S1024x1024_S1024 (.inl rfl) rfl (ix1 n)).trans ?_
  refine Finset.sum_congr rfl fun m' _ => ?_
  exact congrArg s (lift_row n m')

theorem exposOf_apply (s : FVec Ideal S1024x1024 .f32) (n m : Fin 1024) :
    exposOf (F := Ideal) s (ix2 n m)
      = Ideal.exp (s (ix2 n m) - (Finset.univ : Finset (Fin 1024)).fold max ⊥ (fun m' => s (ix2 n m'))) := by
  unfold exposOf
  show Ideal.exp (s (ix2 n m) - _) = _
  rw [rowMax_apply]

theorem weightsOf_apply (p : FVec Ideal S1024x1024 .f32) (n m : Fin 1024) :
    weightsOf (F := Ideal) p (ix2 n m) = Ideal.div (p (ix2 n m)) (∑ m' : Fin 1024, p (ix2 n m')) := by
  unfold weightsOf
  show Ideal.div (p (ix2 n m)) _ = _
  rw [rowSum_apply]

theorem mixOf_apply (w : FVec Ideal S1024x1024 .bf16) (v : FVec Ideal S1024x64 .bf16) (n : Fin 1024) (e : Fin 64) :
    mixOf (F := Ideal) w v (ix4 (0 : Fin 1) (0 : Fin 1) n e) = ∑ m : Fin 1024, w (ix2 n m) * v (ix2 m e) := by
  unfold mixOf
  refine (shapeCast_apply _ shapeCasts_S1024x64_S1x1x1024x64 (ix4 (0 : Fin 1) (0 : Fin 1) n e) (ix2 n e) ?_).trans ?_
  · rw [Shape.rowMajor_val_two, Shape.rowMajor_val_four]
    show n.val * 64 + e.val = ((0 * 1 + 0) * 1024 + n.val) * 64 + e.val
    omega
  exact mix_apply w v n e

/-- One head at position `n`, component `e`: the values mixed with the normalised shifted exponentials of row `n`'s
    scores. -/
theorem headFn_apply (q k v : FVec Ideal S1024x64 .bf16) (n : Fin 1024) (e : Fin 64) :
    headFn (F := Ideal) q k v (ix4 (0 : Fin 1) (0 : Fin 1) n e)
      = ∑ m : Fin 1024,
          Ideal.div (Ideal.exp (score q k n m - scoreMax q k n))
              (∑ m' : Fin 1024, Ideal.exp (score q k n m' - scoreMax q k n))
            * v (ix2 m e) := by
  rw [headFn_eq_stages]
  refine (mixOf_apply _ v n e).trans ?_
  refine Finset.sum_congr rfl fun m _ => ?_
  rw [weightsOf_apply]
  have hE : ∀ m' : Fin 1024, exposOf (F := Ideal) (scoresOf (F := Ideal) q k) (ix2 n m')
      = Ideal.exp (score q k n m' - scoreMax q k n) := fun m' => by
    rw [exposOf_apply, scoresOf_apply]
    unfold scoreMax
    refine congrArg (fun t => Ideal.exp (score q k n m' - Finset.fold max ⊥ t Finset.univ)) (funext fun m'' => ?_)
    exact scoresOf_apply q k n m''
  rw [hE m, Finset.sum_congr rfl fun m' _ => hE m']

/-! ## The projected array: the scratch buffer's one store, and the slabs the heads load from it -/

/-- The first store's payload at row `n`, column `d`: the row of the sample's block times the projection's column. -/
theorem proj_apply (x0 : Vec Ideal S1x1024x256 .f32) (x1 : Vec Ideal S256x1536 .bf16) (n : Fin 1024) (d : Fin 1536) :
    k0_pay2 (F := Ideal) x0 x1 (ix2 n d) = ∑ k : Fin 256, x0 (ix3 (0 : Fin 1) n k) * x1 (ix2 k d) := by
  unfold k0_pay2
  simp only [shapeCast_self]
  refine (project_apply _ _ n d).trans ?_
  refine Finset.sum_congr rfl fun k _ => ?_
  exact congrArg (· * x1 (ix2 k d)) (shapeCast_1ab_ab_apply x0 shapeCasts_S1x1024x256_S1024x256 n k)

/-- A load of a whole buffer that holds `x` reads `x`. -/
theorem load_whole {S : Shape} {e : EltTy} (arg : Memref sig .tc .vmem S e) (harg : arg.IsWhole) (x : Vec Ideal S e)
    {off : Fin S.rank → Nat} (hoff : off = fun _ => 0) (inb : ∀ a, off a + S.size a ≤ S.size a) :
    View.readAt (Elt Ideal) arg.view (Rect.unit (s := S) off S.size inb).toLoadRect (harg.unread x) = x := by
  rw [View.readAt_eq_ld, harg.read_unread]
  exact View.ld_unit_zero hoff inb x

/-- The slab of 64 columns from column `o` that a head loads from the scratch buffer, after the one store of the
    projected array into it, holds the projected array's columns `o … o + 63`. -/
theorem slab_apply (v : View sig .tc .vmem S1024x1536 .bf16) (P : Vec Ideal S1024x1536 .bf16) (o : Nat)
    (inb : ∀ a, (![0, o] : Fin 2 → Nat) a + S1024x64.size a ≤ S1024x1536.size a)
    (n : Fin 1024) (c : Fin 64) (d : Fin 1536) (hd : d.val = o + c.val) :
    v.readCov (Val := Elt Ideal) [⟨Rect.unit (s := S1024x1536) ![0, 0] S1024x1536.size inb_S1024x1536_S1024x1536_0_0, P⟩]
        (Rect.unit (s := S1024x1536) ![0, o] S1024x64.size inb).toLoadRect (ix2 n c) = P (ix2 n d) := by
  rw [View.readCov_eq_canon', View.canon_unit_zero (by funext a; match a with | ⟨0, _⟩ => rfl | ⟨1, _⟩ => rfl)]
  refine congrArg P (funext fun a => Fin.ext ?_)
  match a with
  | ⟨0, _⟩ => show 0 + 1 * n.val = n.val; omega
  | ⟨1, _⟩ => show o + 1 * c.val = d.val; omega

section Slabs
variable (arg1 : Memref sig .tc .vmem S1x1024x256 .f32) (harg1 : arg1.IsWhole)
  (arg2 : Memref sig .tc .vmem S256x1536 .bf16) (harg2 : arg2.IsWhole)
  (arg4 : Memref sig .tc .vmem S1024x1536 .bf16)
  (x0 : Vec Ideal S1x1024x256 .f32) (x1 : Vec Ideal S256x1536 .bf16)
  (X : AttnSpec.SX.Idx → EReal) (W : AttnSpec.SWq.Idx → EReal) (b : Fin 8)
  (hx0 : ∀ (n : Fin 1024) (k : Fin 256), x0 (ix3 (0 : Fin 1) n k) = X (ix4 b (AttnSpec.rowHi n) (AttnSpec.rowLo n) k))
  (hx1 : ∀ (k : Fin 256) (d : Fin 1536), x1 (ix2 k d) = W (ix2 k d))

include hx0 hx1 in
/-- So a slab at column offset `o` holds the sample's projected rows at columns `o … o + 63`. -/
theorem slab_value (o : Nat) (inb : ∀ a, (![0, o] : Fin 2 → Nat) a + S1024x64.size a ≤ S1024x1536.size a)
    (n : Fin 1024) (c : Fin 64) (d : Fin 1536) (hd : d.val = o + c.val) :
    arg4.view.readCov (Val := Elt Ideal)
        [⟨Rect.unit (s := S1024x1536) ![0, 0] S1024x1536.size inb_S1024x1536_S1024x1536_0_0,
          k0_pay2 (F := Ideal)
            (View.readAt (Elt Ideal) arg1.view
              (Rect.unit (s := S1x1024x256) ![0, 0, 0] S1x1024x256.size inb_S1x1024x256_S1x1024x256_0_0_0).toLoadRect (harg1.unread x0))
            (View.readAt (Elt Ideal) arg2.view
              (Rect.unit (s := S256x1536) ![0, 0] S256x1536.size inb_S256x1536_S256x1536_0_0).toLoadRect (harg2.unread x1))⟩]
        (Rect.unit (s := S1024x1536) ![0, o] S1024x64.size inb).toLoadRect (ix2 n c)
      = AttnSpec.qkv X W b n d := by
  rw [load_whole arg1 harg1 x0 (by funext a; match a with | ⟨0, _⟩ => rfl | ⟨1, _⟩ => rfl | ⟨2, _⟩ => rfl),
    load_whole arg2 harg2 x1 (by funext a; match a with | ⟨0, _⟩ => rfl | ⟨1, _⟩ => rfl)]
  refine (slab_apply arg4.view _ o inb n c d hd).trans ?_
  rw [proj_apply]
  unfold AttnSpec.qkv
  exact Finset.sum_congr rfl fun k _ => by rw [hx0, hx1]

end Slabs

/-! ## A head's block of the output, and the output block -/

section Output
variable (X : AttnSpec.SX.Idx → EReal) (W : AttnSpec.SWq.Idx → EReal) (b : Fin 8)

/-- Sample `b`'s attention output as a function of the output block's index (head, position, component). -/
def outFn : S1x8x1024x64.Idx → EReal := fun y => AttnSpec.headOut X W b (y 1) (y 2) (y 3)

/-- The head function applied to head `hh`'s query, key and value slabs is the block of `outFn` that the head's store
    names: both are the same sums, the slabs' entries being the projected array's. -/
theorem piece_apply (hh : Fin 8) (off : Fin 4 → Nat) (hoff : off = ![0, hh.val, 0, 0])
    (inb : ∀ a, off a + S1x1x1024x64.size a ≤ S1x8x1024x64.size a)
    (q k v : FVec Ideal S1024x64 .bf16)
    (hq : ∀ (n : Fin 1024) (c : Fin 64), q (ix2 n c) = AttnSpec.qkv X W b n (AttnSpec.qcol hh c))
    (hk : ∀ (n : Fin 1024) (c : Fin 64), k (ix2 n c) = AttnSpec.qkv X W b n (AttnSpec.kcol hh c))
    (hv : ∀ (n : Fin 1024) (c : Fin 64), v (ix2 n c) = AttnSpec.qkv X W b n (AttnSpec.vcol hh c))
    (x : S1x1x1024x64.Idx) :
    headFn (F := Ideal) q k v x = outFn X W b ((Rect.unit (s := S1x8x1024x64) off S1x1x1024x64.size inb).emb x) := by
  subst hoff
  obtain ⟨u0, u1, n, e, rfl⟩ : ∃ (u0 u1 : Fin 1) (n : Fin 1024) (e : Fin 64), x = ix4 u0 u1 n e :=
    ⟨x 0, x 1, x 2, x 3, eq_ix4 x⟩
  obtain rfl : u0 = 0 := Subsingleton.elim _ _
  obtain rfl : u1 = 0 := Subsingleton.elim _ _
  have hG : outFn X W b ((Rect.unit (s := S1x8x1024x64) ![0, hh.val, 0, 0] S1x1x1024x64.size inb).emb (ix4 (0 : Fin 1) (0 : Fin 1) n e))
      = AttnSpec.headOut X W b hh n e := by
    unfold outFn
    have e1 : ((Rect.unit (s := S1x8x1024x64) ![0, hh.val, 0, 0] S1x1x1024x64.size inb).emb (ix4 (0 : Fin 1) (0 : Fin 1) n e)) 1 = hh :=
      Fin.ext (by show hh.val + 1 * 0 = hh.val; omega)
    have e2 : ((Rect.unit (s := S1x8x1024x64) ![0, hh.val, 0, 0] S1x1x1024x64.size inb).emb (ix4 (0 : Fin 1) (0 : Fin 1) n e)) 2 = n :=
      Fin.ext (by show 0 + 1 * n.val = n.val; omega)
    have e3 : ((Rect.unit (s := S1x8x1024x64) ![0, hh.val, 0, 0] S1x1x1024x64.size inb).emb (ix4 (0 : Fin 1) (0 : Fin 1) n e)) 3 = e :=
      Fin.ext (by show 0 + 1 * e.val = e.val; omega)
    rw [e1, e2, e3]
  rw [hG, headFn_apply]
  have hs : ∀ n m : Fin 1024, score q k n m = AttnSpec.sim X W b hh n m := fun n m => by
    unfold score AttnSpec.sim
    exact Finset.sum_congr rfl fun c _ => by rw [hq, hk]
  have hm : ∀ n : Fin 1024, scoreMax q k n = AttnSpec.rowMax X W b hh n := fun n => by
    unfold scoreMax AttnSpec.rowMax
    exact congrArg (fun t => Finset.fold max ⊥ t Finset.univ) (funext fun m => hs n m)
  simp only [hs, hm, hv]
  rfl

end Output

/-! ## The body's output block -/

/-- After the body at sample `b`'s grid point, the output block holds at (head `h`, position `n`, component `e`) the
    attention output of that sample: the eight stores are the eight heads' blocks of one function of the block's
    index. -/
theorem out_value (c : Dev nD) (i : grid0.Coords) (arg1 : Memref sig .tc .vmem S1x1024x256 .f32) (harg1 : arg1.IsWhole) (arg2 : Memref sig .tc .vmem S256x1536 .bf16) (harg2 : arg2.IsWhole) (arg3 : Memref sig .tc .vmem S1x8x1024x64 .bf16) (harg3 : arg3.IsWhole) (arg4 : Memref sig .tc .vmem S1024x1536 .bf16) (harg4 : arg4.IsWhole)
    (x0 : Vec Ideal S1x1024x256 .f32) (x1 : Vec Ideal S256x1536 .bf16)
    (X : AttnSpec.SX.Idx → EReal) (W : AttnSpec.SWq.Idx → EReal) (b : Fin 8)
    (hx0 : ∀ (n : Fin 1024) (k : Fin 256), x0 (ix3 (0 : Fin 1) n k) = X (ix4 b (AttnSpec.rowHi n) (AttnSpec.rowLo n) k))
    (hx1 : ∀ (k : Fin 256) (d : Fin 1536), x1 (ix2 k d) = W (ix2 k d))
    (h : Fin 8) (n : Fin 1024) (e : Fin 64) :
    Cert.KernelIdeal.Gen.out0_A_2 (F := Ideal) c i arg1 harg1 arg2 harg2 arg3 harg3 arg4 harg4 x0 x1 (ix4 (0 : Fin 1) h n e)
      = AttnSpec.headOut X W b h n e := by
  unfold out0_A_2
  rw [View.read_writes_junk_eq_canon]
  refine (View.canon_apply_of_pieces (outFn X W b) _ ?_ (ix4 (0 : Fin 1) h n e)
    (cover0_A_2 c i arg1 harg1 arg2 harg2 arg3 harg3 arg4 harg4 x0 x1 _)).trans rfl
  have S := fun (o : Nat) (inb : ∀ a, (![0, o] : Fin 2 → Nat) a + S1024x64.size a ≤ S1024x1536.size a) =>
    slab_value arg1 harg1 arg2 harg2 arg4 x0 x1 X W b hx0 hx1 o inb
  unfold kernelRun0_A
  dsimp only
  sl_unfold_words
  refine List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, fun p hp => absurd hp List.not_mem_nil⟩⟩⟩⟩⟩⟩⟩⟩
  · refine (congrFun (head7_eq _ _ _) x).trans ?_
    refine piece_apply X W b 7 ![0, 7, 0, 0] rfl inb_S1x8x1024x64_S1x1x1024x64_0_7_0_0 _ _ _ ?_ ?_ ?_ x
    · exact fun n c => S 448 inb_S1024x1536_S1024x64_0_448 n c (AttnSpec.qcol 7 c) rfl
    · exact fun n c => S 960 inb_S1024x1536_S1024x64_0_960 n c (AttnSpec.kcol 7 c) rfl
    · exact fun n c => S 1472 inb_S1024x1536_S1024x64_0_1472 n c (AttnSpec.vcol 7 c) rfl
  · refine (congrFun (head6_eq _ _ _) x).trans ?_
    refine piece_apply X W b 6 ![0, 6, 0, 0] rfl inb_S1x8x1024x64_S1x1x1024x64_0_6_0_0 _ _ _ ?_ ?_ ?_ x
    · exact fun n c => S 384 inb_S1024x1536_S1024x64_0_384 n c (AttnSpec.qcol 6 c) rfl
    · exact fun n c => S 896 inb_S1024x1536_S1024x64_0_896 n c (AttnSpec.kcol 6 c) rfl
    · exact fun n c => S 1408 inb_S1024x1536_S1024x64_0_1408 n c (AttnSpec.vcol 6 c) rfl
  · refine (congrFun (head5_eq _ _ _) x).trans ?_
    refine piece_apply X W b 5 ![0, 5, 0, 0] rfl inb_S1x8x1024x64_S1x1x1024x64_0_5_0_0 _ _ _ ?_ ?_ ?_ x
    · exact fun n c => S 320 inb_S1024x1536_S1024x64_0_320 n c (AttnSpec.qcol 5 c) rfl
    · exact fun n c => S 832 inb_S1024x1536_S1024x64_0_832 n c (AttnSpec.kcol 5 c) rfl
    · exact fun n c => S 1344 inb_S1024x1536_S1024x64_0_1344 n c (AttnSpec.vcol 5 c) rfl
  · refine (congrFun (head4_eq _ _ _) x).trans ?_
    refine piece_apply X W b 4 ![0, 4, 0, 0] rfl inb_S1x8x1024x64_S1x1x1024x64_0_4_0_0 _ _ _ ?_ ?_ ?_ x
    · exact fun n c => S 256 inb_S1024x1536_S1024x64_0_256 n c (AttnSpec.qcol 4 c) rfl
    · exact fun n c => S 768 inb_S1024x1536_S1024x64_0_768 n c (AttnSpec.kcol 4 c) rfl
    · exact fun n c => S 1280 inb_S1024x1536_S1024x64_0_1280 n c (AttnSpec.vcol 4 c) rfl
  · refine (congrFun (head3_eq _ _ _) x).trans ?_
    refine piece_apply X W b 3 ![0, 3, 0, 0] rfl inb_S1x8x1024x64_S1x1x1024x64_0_3_0_0 _ _ _ ?_ ?_ ?_ x
    · exact fun n c => S 192 inb_S1024x1536_S1024x64_0_192 n c (AttnSpec.qcol 3 c) rfl
    · exact fun n c => S 704 inb_S1024x1536_S1024x64_0_704 n c (AttnSpec.kcol 3 c) rfl
    · exact fun n c => S 1216 inb_S1024x1536_S1024x64_0_1216 n c (AttnSpec.vcol 3 c) rfl
  · refine (congrFun (head2_eq _ _ _) x).trans ?_
    refine piece_apply X W b 2 ![0, 2, 0, 0] rfl inb_S1x8x1024x64_S1x1x1024x64_0_2_0_0 _ _ _ ?_ ?_ ?_ x
    · exact fun n c => S 128 inb_S1024x1536_S1024x64_0_128 n c (AttnSpec.qcol 2 c) rfl
    · exact fun n c => S 640 inb_S1024x1536_S1024x64_0_640 n c (AttnSpec.kcol 2 c) rfl
    · exact fun n c => S 1152 inb_S1024x1536_S1024x64_0_1152 n c (AttnSpec.vcol 2 c) rfl
  · refine (congrFun (head1_eq _ _ _) x).trans ?_
    refine piece_apply X W b 1 ![0, 1, 0, 0] rfl inb_S1x8x1024x64_S1x1x1024x64_0_1_0_0 _ _ _ ?_ ?_ ?_ x
    · exact fun n c => S 64 inb_S1024x1536_S1024x64_0_64 n c (AttnSpec.qcol 1 c) rfl
    · exact fun n c => S 576 inb_S1024x1536_S1024x64_0_576 n c (AttnSpec.kcol 1 c) rfl
    · exact fun n c => S 1088 inb_S1024x1536_S1024x64_0_1088 n c (AttnSpec.vcol 1 c) rfl
  · refine (congrFun (head0_eq _ _ _) x).trans ?_
    refine piece_apply X W b 0 ![0, 0, 0, 0] rfl inb_S1x8x1024x64_S1x1x1024x64_0_0_0_0 _ _ _ ?_ ?_ ?_ x
    · exact fun n c => S 0 inb_S1024x1536_S1024x64_0_0 n c (AttnSpec.qcol 0 c) rfl
    · exact fun n c => S 512 inb_S1024x1536_S1024x64_0_512 n c (AttnSpec.kcol 0 c) rfl
    · exact fun n c => S 1024 inb_S1024x1536_S1024x64_0_1024 n c (AttnSpec.vcol 0 c) rfl

end Cert.KernelIdeal.AttnBody

end
-- ==== Proof.KernNorm.lean ====
/-
  The value of the projection kernel's body, entry by entry.

  For one sample the body multiplies the sample's 1024 × 512 block of rows by the 512 × 256 weights, adds the bias row,
  takes the mean of all 1024 · 256 entries (lane sums, then the sum over rows, divided by 262144), subtracts it, takes the
  mean of the squared deviations the same way, adds the stabiliser, takes the reciprocal square root, and returns
  deviation · that root · scale row + shift row. Over the extended reals every one of these operations is the exact one,
  so the block it leaves is, at row `n` and channel `d`, the specification's `normAt` of the sample: the only work is to
  read each operation at an index — the product as a sum over the 512 channels, the two reductions as a double sum, the
  broadcasts and changes of shape as re-namings of the index.
-/
import proofs.«134831_j36223754174593_2_alg».proof.Proof.Gen.KernelIdeal.Frame
import proofs.«134831_j36223754174593_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NormBody

open Idealize.ShloMosaic Idealize.ShloMosaic.ValueIdx
open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

theorem out_eq_payload (x0 : Vec Ideal S1x1024x512 .bf16) (x1 : Vec Ideal S512x256 .bf16) (x2 x3 x4 : Vec Ideal S1x256 .f32) :
    out1_5 (F := Ideal) x0 x1 x2 x3 x4 = k1_pay1 (k1_pay2 x0 x1 x2 x3 x4) := by
  unfold out1_5
  rw [View.canon_unit_zero hz3]
  simp only [View.ld_unit_zero (S := S1x1024x512) hz3, View.ld_unit_zero (S := S512x256) hz2, View.ld_unit_zero (S := S1x256) hz2]

theorem pay1_apply (v : FVec Ideal S1024x256 .f32) (n : Fin 1024) (d : Fin 256) :
    k1_pay1 v (ix3 (0 : Fin 1) n d) = v (ix2 n d) := by
  unfold k1_pay1
  refine (shapeCast_addUnit_apply ![1024, 256] v _ (ix3 (0 : Fin 1) n d)).trans ?_
  refine congrArg v (funext fun a => ?_)
  match a with
  | ⟨0, _⟩ => rfl
  | ⟨1, _⟩ => rfl

/-! ## The payload cut into named stages -/

/-- The projected and biased block: the product of the sample's rows with the weights, plus the bias row. -/
def yBlk (v0 : Vec Ideal S1x1024x512 .bf16) (v2 : Vec Ideal S512x256 .bf16) (v5 : Vec Ideal S1x256 .f32) : FVec Ideal S1024x256 .f32 :=
  addf (matmul dot_S1024x512_S512x256_S1024x256_1_0_0_1_n_n none (shapeCast S1024x512 v0 shapeCasts_S1x1024x512_S1024x512 : FVec Ideal S1024x512 .bf16)
      (shapeCast S512x256 v2 shapeCasts_S512x256_S512x256 : FVec Ideal S512x256 .bf16) (constant S1024x256 .f32 0x00000000#32))
    (broadcastTo S1024x256 (shapeCast S1x256 v5 shapeCasts_S1x256_S1x256) broadcasts_S1x256_S1024x256)

/-- The sum of all entries of a block, as the kernel takes it: lanes first, then rows, kept as a 1 × 1 array. -/
def totBlk (v : FVec Ideal S1024x256 .f32) : FVec Ideal S1x1 .f32 :=
  shapeCast S1x1 (multiReduction .add [0] S1
    (shapeCast S1024x1 (multiReduction .add [1] S1024 v 0x00000000#32 reduces_S1024x256_S1024 (.inl rfl) rfl) shapeCasts_S1024_S1024x1)
    0x00000000#32 reduces_S1024x1_S1 (.inl rfl) rfl) shapeCasts_S1_S1x1

/-- A block's total divided by the number of its entries. -/
def avgBlk (v : FVec Ideal S1024x256 .f32) : FVec Ideal S1x1 .f32 :=
  divf (totBlk v) (broadcast S1x1 (Scalar.ofBits .f32 0x48800000#32))

/-- The block minus its mean. -/
def devBlk (v : FVec Ideal S1024x256 .f32) : FVec Ideal S1024x256 .f32 :=
  subf v (broadcastTo S1024x256 (avgBlk v) broadcasts_S1x1_S1024x256)

/-- The reciprocal square root of the stabilised mean square of a block of deviations. -/
def invBlk (w : FVec Ideal S1024x256 .f32) : FVec Ideal S1x1 .f32 :=
  rsqrt (addf (avgBlk (mulf w w)) (broadcast S1x1 (Scalar.ofBits .f32 0x3727C5AC#32)))

theorem pay2_eq (v0 : Vec Ideal S1x1024x512 .bf16) (v2 : Vec Ideal S512x256 .bf16) (v5 v29 v33 : Vec Ideal S1x256 .f32) :
    k1_pay2 v0 v2 v5 v29 v33 =
      addf (mulf (mulf (devBlk (yBlk v0 v2 v5)) (broadcastTo S1024x256 (invBlk (devBlk (yBlk v0 v2 v5))) broadcasts_S1x1_S1024x256))
          (broadcastTo S1024x256 (shapeCast S1x256 v29 shapeCasts_S1x256_S1x256) broadcasts_S1x256_S1024x256))
        (broadcastTo S1024x256 (shapeCast S1x256 v33 shapeCasts_S1x256_S1x256) broadcasts_S1x256_S1024x256) := rfl

/-! ## Layout operations of the body, read at an index -/

/-- A row broadcast down the 1024 rows reads its entry in the same lane. -/
theorem bcastRow_apply (v : FVec Ideal S1x256 .f32) (n : Fin 1024) (d : Fin 256) :
    broadcastTo S1024x256 v broadcasts_S1x256_S1024x256 (ix2 n d) = v (ix2 (0 : Fin 1) d) := by
  refine broadcastTo_apply v _ (ix2 n d) (ix2 (0 : Fin 1) d) fun a => ?_
  match a with
  | ⟨0, _⟩ => rfl
  | ⟨1, _⟩ => rfl

/-- A 1 × 1 array broadcast over the whole block reads its one entry. -/
theorem bcastOne_apply (v : FVec Ideal S1x1 .f32) (n : Fin 1024) (d : Fin 256) :
    broadcastTo S1024x256 v broadcasts_S1x1_S1024x256 (ix2 n d) = v (ix2 (0 : Fin 1) (0 : Fin 1)) := by
  refine broadcastTo_apply v _ (ix2 n d) (ix2 (0 : Fin 1) (0 : Fin 1)) fun a => ?_
  match a with
  | ⟨0, _⟩ => rfl
  | ⟨1, _⟩ => rfl

/-- The sample's block with its leading unit axis dropped. -/
theorem dropUnit_apply (v : Vec Ideal S1x1024x512 .bf16) (n : Fin 1024) (k : Fin 512) :
    (shapeCast S1024x512 v shapeCasts_S1x1024x512_S1024x512 : FVec Ideal S1024x512 .bf16) (ix2 n k) = v (ix3 (0 : Fin 1) n k) := by
  refine (shapeCast_dropUnit_apply ![1024, 512] v _ (ix2 n k)).trans ?_
  refine congrArg v (funext fun a => ?_)
  match a with
  | ⟨0, _⟩ => rfl
  | ⟨1, _⟩ => rfl
  | ⟨2, _⟩ => rfl

/-- A vector of 1024 row values viewed as a column. -/
theorem colCast_apply (v : FVec Ideal S1024 .f32) (n : Fin 1024) :
    shapeCast S1024x1 v shapeCasts_S1024_S1024x1 (ix2 n (0 : Fin 1)) = v (ix1 n) := by
  refine shapeCast_apply v _ (ix2 n (0 : Fin 1)) (ix1 n) ?_
  rw [Shape.rowMajor_val_one, Shape.rowMajor_val_two]
  show n.val = n.val * 1 + 0
  omega

/-- A one-entry vector viewed as a 1 × 1 array. -/
theorem oneCast_apply (v : FVec Ideal S1 .f32) :
    shapeCast S1x1 v shapeCasts_S1_S1x1 (ix2 (0 : Fin 1) (0 : Fin 1)) = v (ix1 (0 : Fin 1)) := by
  refine shapeCast_apply v _ (ix2 (0 : Fin 1) (0 : Fin 1)) (ix1 (0 : Fin 1)) ?_
  rw [Shape.rowMajor_val_one, Shape.rowMajor_val_two]
  rfl

/-- The sum over the 256 lanes of a row. -/
theorem laneSum_apply (src : FVec Ideal S1024x256 .f32) (h : S1024x256.Reduces [1] S1024) (hφ : FKind.Formats .f32)
    (hacc : (0x00000000#32 : BitVec 32) = 0x00000000#32) (n : Fin 1024) :
    multiReduction (F := Ideal) .add [1] S1024 src 0x00000000#32 h hφ hacc (ix1 n) = ∑ d : Fin 256, src (ix2 n d) := by
  refine (Ideal.multiReduction_add_single src 0x00000000#32 h hφ hacc (ix1 n)).trans ?_
  refine Finset.sum_congr rfl fun d _ => congrArg src (funext fun a => ?_)
  match a with
  | ⟨0, _⟩ => rfl
  | ⟨1, _⟩ => rfl

/-- The sum over the 1024 rows of a column. -/
theorem rowSum_apply (src : FVec Ideal S1024x1 .f32) (h : S1024x1.Reduces [0] S1) (hφ : FKind.Formats .f32)
    (hacc : (0x00000000#32 : BitVec 32) = 0x00000000#32) :
    multiReduction (F := Ideal) .add [0] S1 src 0x00000000#32 h hφ hacc (ix1 (0 : Fin 1)) = ∑ n : Fin 1024, src (ix2 n (0 : Fin 1)) := by
  refine (Ideal.multiReduction_add_single src 0x00000000#32 h hφ hacc (ix1 (0 : Fin 1))).trans ?_
  refine Finset.sum_congr rfl fun n _ => congrArg src (funext fun a => ?_)
  match a with
  | ⟨0, _⟩ => rfl
  | ⟨1, _⟩ => rfl

/-- The block product into the zero block, read at an entry: the sum over the 512 channels of the products. -/
theorem prod_apply (lhs : FVec Ideal S1024x512 .bf16) (rhs : FVec Ideal S512x256 .bf16) (n : Fin 1024) (d : Fin 256) :
    matmul dot_S1024x512_S512x256_S1024x256_1_0_0_1_n_n none lhs rhs (constant S1024x256 .f32 0x00000000#32) (ix2 n d)
      = ∑ k : Fin 512, lhs (ix2 n k) * rhs (ix2 k d) := by
  refine (Ideal.matmul_constant_zero_apply dot_S1024x512_S512x256_S1024x256_1_0_0_1_n_n none lhs rhs (ix2 n d)).trans ?_
  refine (Equiv.sum_comp (contrEquiv1 dot_S1024x512_S512x256_S1024x256_1_0_0_1_n_n 512 rfl rfl).symm _).symm.trans ?_
  refine Finset.sum_congr rfl fun k _ => ?_
  have hl : dot_S1024x512_S512x256_S1024x256_1_0_0_1_n_n.lhsIdx (ix2 n d)
      ((contrEquiv1 dot_S1024x512_S512x256_S1024x256_1_0_0_1_n_n 512 rfl rfl).symm k) = ix2 n k := by
    funext a
    apply Fin.ext
    match a with
    | ⟨0, _⟩ => rfl
    | ⟨1, _⟩ =>
      exact (DotDims.lhsIdx_val_of_single dot_S1024x512_S512x256_S1024x256_1_0_0_1_n_n (cl := (1 : Fin 2)) rfl _ _).trans
        (contrEquiv1_symm_val dot_S1024x512_S512x256_S1024x256_1_0_0_1_n_n 512 rfl rfl k)
  have hr : dot_S1024x512_S512x256_S1024x256_1_0_0_1_n_n.rhsIdx (ix2 n d)
      ((contrEquiv1 dot_S1024x512_S512x256_S1024x256_1_0_0_1_n_n 512 rfl rfl).symm k) = ix2 k d := by
    funext a
    apply Fin.ext
    match a with
    | ⟨0, _⟩ =>
      exact (DotDims.rhsIdx_val_of_single dot_S1024x512_S512x256_S1024x256_1_0_0_1_n_n (cr := (0 : Fin 2)) rfl _ _).trans
        (contrEquiv1_symm_val dot_S1024x512_S512x256_S1024x256_1_0_0_1_n_n 512 rfl rfl k)
    | ⟨1, _⟩ => rfl
  rw [hl, hr]

/-! ## The stages at an index -/

/-- The total of a block, lanes first and then rows, is the double sum of its entries. -/
theorem totBlk_apply (v : FVec Ideal S1024x256 .f32) :
    totBlk v (ix2 (0 : Fin 1) (0 : Fin 1)) = ∑ n : Fin 1024, ∑ d : Fin 256, v (ix2 n d) := by
  unfold totBlk
  refine (oneCast_apply _).trans ?_
  refine (rowSum_apply _ _ _ _).trans ?_
  refine Finset.sum_congr rfl fun n _ => ?_
  refine (colCast_apply _ n).trans ?_
  exact laneSum_apply v _ _ _ n

/-- The mean of a block: its total over the number of its entries. -/
theorem avgBlk_apply (v : FVec Ideal S1024x256 .f32) :
    avgBlk v (ix2 (0 : Fin 1) (0 : Fin 1)) = Ideal.div (∑ n : Fin 1024, ∑ d : Fin 256, v (ix2 n d)) AttnSpec.cnt := by
  unfold avgBlk AttnSpec.cnt
  refine (divf_apply _ _ _).trans ?_
  rw [totBlk_apply]
  rfl

/-- An entry of the block of deviations. -/
theorem devBlk_apply (v : FVec Ideal S1024x256 .f32) (n : Fin 1024) (d : Fin 256) :
    devBlk v (ix2 n d) = v (ix2 n d) - Ideal.div (∑ n : Fin 1024, ∑ d : Fin 256, v (ix2 n d)) AttnSpec.cnt := by
  unfold devBlk
  refine (subf_apply _ _ _).trans ?_
  rw [bcastOne_apply, avgBlk_apply]

/-- The reciprocal square root of the stabilised mean square. -/
theorem invBlk_apply (w : FVec Ideal S1024x256 .f32) :
    invBlk w (ix2 (0 : Fin 1) (0 : Fin 1))
      = Ideal.rsqrt (Ideal.div (∑ n : Fin 1024, ∑ d : Fin 256, w (ix2 n d) * w (ix2 n d)) AttnSpec.cnt + AttnSpec.eps) := by
  unfold invBlk AttnSpec.eps
  show Ideal.rsqrt (avgBlk (mulf w w) (ix2 (0 : Fin 1) (0 : Fin 1)) + Ideal.ofBits .f32 0x3727C5AC#32) = _
  rw [avgBlk_apply]
  rfl

/-! ## The body's value -/

section Value
variable (x0 : Vec Ideal S1x1024x512 .bf16) (x1 : Vec Ideal S512x256 .bf16) (x2 x3 x4 : Vec Ideal S1x256 .f32)
  (T : AttnSpec.ST.Idx → EReal) (Wo : AttnSpec.SWo.Idx → EReal) (bo g be : AttnSpec.SV.Idx → EReal) (b : Fin 8)

/-- The projected block is the specification's projection of sample `b`. -/
theorem yBlk_apply
    (hx0 : ∀ (n : Fin 1024) (k : Fin 512), x0 (ix3 (0 : Fin 1) n k) = T (ix4 b (AttnSpec.rowHi n) (AttnSpec.rowLo n) k))
    (hx1 : ∀ (k : Fin 512) (d : Fin 256), x1 (ix2 k d) = Wo (ix2 k d))
    (hx2 : ∀ d : Fin 256, x2 (ix2 (0 : Fin 1) d) = bo (ix1 d)) (n : Fin 1024) (d : Fin 256) :
    yBlk x0 x1 x2 (ix2 n d) = AttnSpec.proj T Wo bo b n d := by
  unfold yBlk AttnSpec.proj
  refine (addf_apply _ _ _).trans ?_
  refine congrArg₂ (· + ·) ?_ ?_
  · refine (prod_apply _ _ n d).trans ?_
    refine Finset.sum_congr rfl fun k _ => ?_
    rw [dropUnit_apply, shapeCast_self, hx0, hx1]
  · rw [bcastRow_apply, shapeCast_self, hx2]

/-- The block of deviations is the specification's. -/
theorem devBlk_yBlk_apply
    (hx0 : ∀ (n : Fin 1024) (k : Fin 512), x0 (ix3 (0 : Fin 1) n k) = T (ix4 b (AttnSpec.rowHi n) (AttnSpec.rowLo n) k))
    (hx1 : ∀ (k : Fin 512) (d : Fin 256), x1 (ix2 k d) = Wo (ix2 k d))
    (hx2 : ∀ d : Fin 256, x2 (ix2 (0 : Fin 1) d) = bo (ix1 d)) (n : Fin 1024) (d : Fin 256) :
    devBlk (yBlk x0 x1 x2) (ix2 n d) = AttnSpec.dev T Wo bo b n d := by
  rw [devBlk_apply]
  unfold AttnSpec.dev AttnSpec.mean AttnSpec.total
  rw [yBlk_apply x0 x1 x2 T Wo bo b hx0 hx1 hx2 n d]
  refine congrArg (fun s => AttnSpec.proj T Wo bo b n d - Ideal.div s AttnSpec.cnt) ?_
  exact Finset.sum_congr rfl fun n' _ => Finset.sum_congr rfl fun d' _ => yBlk_apply x0 x1 x2 T Wo bo b hx0 hx1 hx2 n' d'

/-- What the body of the projection kernel leaves in its output block, entry by entry: the normalised, scaled and
    shifted projection of sample `b`. -/
theorem out_value
    (hx0 : ∀ (n : Fin 1024) (k : Fin 512), x0 (ix3 (0 : Fin 1) n k) = T (ix4 b (AttnSpec.rowHi n) (AttnSpec.rowLo n) k))
    (hx1 : ∀ (k : Fin 512) (d : Fin 256), x1 (ix2 k d) = Wo (ix2 k d))
    (hx2 : ∀ d : Fin 256, x2 (ix2 (0 : Fin 1) d) = bo (ix1 d))
    (hx3 : ∀ d : Fin 256, x3 (ix2 (0 : Fin 1) d) = g (ix1 d))
    (hx4 : ∀ d : Fin 256, x4 (ix2 (0 : Fin 1) d) = be (ix1 d))
    (n : Fin 1024) (d : Fin 256) :
    Cert.KernelIdeal.Gen.out1_5 (F := Ideal) x0 x1 x2 x3 x4 (ix3 (0 : Fin 1) n d) = AttnSpec.normAt T Wo bo g be b n d := by
  rw [out_eq_payload, pay1_apply, pay2_eq]
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) (devBlk_yBlk_apply x0 x1 x2 T Wo bo b hx0 hx1 hx2 n d) ?_
      rw [bcastOne_apply, invBlk_apply]
      unfold AttnSpec.inv AttnSpec.var AttnSpec.sqTotal
      refine congrArg (fun s => Ideal.rsqrt (Ideal.div s AttnSpec.cnt + AttnSpec.eps)) ?_
      refine Finset.sum_congr rfl fun n' _ => Finset.sum_congr rfl fun d' _ => ?_
      rw [devBlk_yBlk_apply x0 x1 x2 T Wo bo b hx0 hx1 hx2 n' d']
    · rw [bcastRow_apply, shapeCast_self, hx3]
  · rw [bcastRow_apply, shapeCast_self, hx4]

end Value

end Cert.KernelIdeal.NormBody

end
-- ==== Proof.RefTerm.lean ====
/-
  The reference program's result as one pure term of its six argument arrays, cut at the two places where the kernel's
  program is cut: the attention output (8 samples × 8 heads × 1024 positions × 64 components), the regrouping of that
  array into 8 × 32 × 32 × 512 (a reshape followed by a transposition: the same two operations in both programs), and the
  projection with normalisation that follows.
-/
import proofs.«134831_j36223754174593_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- A third of the projected columns (offset `off` along the last axis), transposed to channels-first and regrouped as
    8 heads × 64 components × 1024 positions. -/
def toHeads (off : Fin 4 → Nat) (hs : S8x32x32x1536.Slices off S8x32x32x512) (v0 : FVec F S8x32x32x1536 .f32) :
    FVec F S8x8x64x1024 .f32 :=
  shapeCast S8x8x64x1024
    (transpose S8x512x32x32 [0, 3, 1, 2] (extractStridedSlice S8x32x32x512 off v0 hs) transposes_S8x32x32x512_S8x512x32x32_0_3_1_2)
    shapeCasts_S8x512x32x32_S8x8x64x1024

/-- The scores: scaled queries against keys, contracted over the 64 components of a head. -/
def scores (v0 : FVec F S8x32x32x1536 .f32) : FVec F S8x8x1024x1024 .f32 :=
  Host.dotGeneral dot_S8x8x64x1024_S8x8x64x1024_S8x8x1024x1024_2_2_3_3_01_01 none
    (mulf (toHeads ![0, 0, 0, 0] slices_S8x32x32x1536_S8x32x32x512_0_0_0_0 v0)
      (broadcastInDim S8x8x64x1024 ![] bcast_S_S8x8x64x1024 (constant S_ .f32 0x3E000000#32)))
    (toHeads ![0, 0, 0, 512] slices_S8x32x32x1536_S8x32x32x512_0_0_0_512 v0)

/-- The row-wise softmax of the scores. -/
def softmax (v12 : FVec F S8x8x1024x1024 .f32) : FVec F S8x8x1024x1024 .f32 :=
  let v19 : FVec F S8x8x1024x1024 .f32 :=
    Host.exp (subf v12
      (broadcastInDim S8x8x1024x1024 ![0, 1, 2, 3] bcast_S8x8x1024x1_S8x8x1024x1024_0_1_2_3
        (broadcastInDim S8x8x1024x1 ![0, 1, 2] bcast_S8x8x1024_S8x8x1024x1_0_1_2
          (maximumf (broadcastInDim S8x8x1024 ![] bcast_S_S8x8x1024 (constant S_ .f32 0xFF800000#32))
            (Host.reduce FloatOps.maximumf v12 (constant S_ .f32 0xFF800000#32) reducesTo_S8x8x1024x1024_S8x8x1024_d3 h_S_)))))
  Host.divf v19
    (broadcastInDim S8x8x1024x1024 ![0, 1, 2, 3] bcast_S8x8x1024x1_S8x8x1024x1024_0_1_2_3
      (broadcastInDim S8x8x1024x1 ![0, 1, 2] bcast_S8x8x1024_S8x8x1024x1_0_1_2
        (Host.reduceAdd v19 (constant S_ .f32 0x00000000#32) reducesTo_S8x8x1024x1024_S8x8x1024_d3 h_S_)))

/-- The attention output: softmax weights against the values. -/
def refO (x : FVec F S8x32x32x256 .f32) (w : FVec F S256x1536 .f32) : FVec F S8x8x1024x64 .f32 :=
  let v0 : FVec F S8x32x32x1536 .f32 := Host.dotGeneral dot_S8x32x32x256_S256x1536_S8x32x32x1536_3_0_012_1_n_n none x w
  Host.dotGeneral dot_S8x8x1024x1024_S8x8x64x1024_S8x8x1024x64_3_3_2_2_01_01 none
    (softmax (scores v0))
    (toHeads ![0, 0, 0, 1024] slices_S8x32x32x1536_S8x32x32x512_0_0_0_1024 v0)

/-- The regrouping between the two stages. -/
def regroup (o : FVec F S8x8x1024x64 .f32) : FVec F S8x32x32x512 .f32 :=
  transpose S8x32x32x512 [0, 2, 3, 1] (shapeCast S8x512x32x32 o shapeCasts_S8x8x1024x64_S8x512x32x32)
    transposes_S8x512x32x32_S8x32x32x512_0_2_3_1

/-- A vector of 256 channel values spread over every sample and pixel. -/
def chan (v : FVec F S256 .f32) : FVec F S8x32x32x256 .f32 :=
  broadcastInDim S8x32x32x256 ![0, 1, 2, 3] bcast_S1x1x1x256_S8x32x32x256_0_1_2_3
    (broadcastInDim S1x1x1x256 ![3] bcast_S256_S1x1x1x256_3 v)

/-- A per-sample value spread over the sample's entries. -/
def perSample (v : FVec F S8x1x1x1 .f32) : FVec F S8x32x32x256 .f32 :=
  broadcastInDim S8x32x32x256 ![0, 1, 2, 3] bcast_S8x1x1x1_S8x32x32x256_0_1_2_3 v

/-- The per-sample mean: the sum over a sample's entries divided by their number. -/
def sampleMean (y : FVec F S8x32x32x256 .f32) : FVec F S8x1x1x1 .f32 :=
  Host.divf
    (broadcastInDim S8x1x1x1 ![0] bcast_S8_S8x1x1x1_0
      (Host.reduceAdd y (constant S_ .f32 0x00000000#32) reducesTo_S8x32x32x256_S8_d1_2_3 h_S_))
    (broadcastInDim S8x1x1x1 ![] bcast_S_S8x1x1x1 (constant S_ .f32 0x48800000#32))

/-- The per-sample variance as the library routine computes it: squared deviations from the mean, summed, divided by the
    count less a correction (here the integer 0), and replaced by a NaN word where that divisor is not positive. -/
def sampleVar (y : FVec F S8x32x32x256 .f32) : FVec F S8x1x1x1 .f32 :=
  let d : FVec F S8x32x32x256 .f32 := subf y (perSample (sampleMean y))
  let v8 : FVec F S_ .f32 := subf (constant S_ .f32 0x48800000#32) (sitofp .f32 (constantI S_ 32 0#32))
  select (broadcastInDim S8x1x1x1 ![] bcast_S_S8x1x1x1 (cmpf .ogt v8 (constant S_ .f32 0x00000000#32)))
    (Host.divf
      (broadcastInDim S8x1x1x1 ![0] bcast_S8_S8x1x1x1_0
        (Host.reduceAdd (mulf d d) (constant S_ .f32 0x00000000#32) reducesTo_S8x32x32x256_S8_d1_2_3 h_S_))
      (broadcastInDim S8x1x1x1 ![] bcast_S_S8x1x1x1 v8))
    (broadcastInDim S8x1x1x1 ![] bcast_S_S8x1x1x1 (id (constant S_ .f32 0x7FC00000#32)))

/-- Stage two: the projection with bias, then the normalisation, scale and shift. -/
def refTail (t : FVec F S8x32x32x512 .f32) (wo : FVec F S512x256 .f32) (bo g be : FVec F S256 .f32) :
    FVec F S8x32x32x256 .f32 :=
  let y : FVec F S8x32x32x256 .f32 :=
    addf (Host.dotGeneral dot_S8x32x32x512_S512x256_S8x32x32x256_3_0_012_1_n_n none t wo) (chan bo)
  addf
    (mulf
      (mulf (subf y (perSample (sampleMean y)))
        (perSample (Host.rsqrt (addf (sampleVar y) (broadcastInDim S8x1x1x1 ![] bcast_S_S8x1x1x1 (constant S_ .f32 0x3727C5AC#32))))))
      (chan g))
    (chan be)

/-- The whole reference. -/
def refTerm (x : FVec F S8x32x32x256 .f32) (w : FVec F S256x1536 .f32) (wo : FVec F S512x256 .f32) (bo g be : FVec F S256 .f32) :
    FVec F S8x32x32x256 .f32 :=
  refTail (regroup (refO x w)) wo bo g be

end Cert.ReferenceIdeal.RefTerm

end
-- ==== Proof.RefRun.lean ====
/-
  The reference program's run, read back as one pure term of its six arguments.

  The reference's entry function is a straight line of array operations, two of which are calls: the variance routine,
  and inside it the routine that chooses between two arrays by a condition.  A call executes the callee's body on the
  operands, so the program is the flat list of all these operations in order, each callee's operations standing at its
  call site over the buffers that call names.  For a straight-line list every weakly fair execution terminates, and the
  final contents of a buffer are the fold of the operations' results over the launch contents.  Reading that fold at the
  result buffer gives the composition of the operations' functions applied to the arguments, which is the term
  `RefTerm.refTerm` (the same operations in the same order); reading it at an argument buffer, which no operation writes,
  gives the argument back.
-/
import proofs.«134831_j36223754174593_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, the two calls unfolded: the first 42 are its own, the next 20 the variance
    routine's over the buffers of its call, the next 3 the choosing routine's over the buffers of the call nested in it,
    the last 14 the entry function's own again. -/
abbrev ops : List (HloOp τ sig (Elt F)) :=
  [ StableHlo.binary main_arg0 main_arg1 main_v0 ((fun l r => Host.dotGeneral dot_S8x32x32x256_S256x1536_S8x32x32x1536_3_0_012_1_n_n none l r) : (⟨S8x32x32x256, .f32⟩ : BufTy).Contents (Elt F) → (⟨S256x1536, .f32⟩ : BufTy).Contents (Elt F) → (⟨S8x32x32x1536, .f32⟩ : BufTy).Contents (Elt F)),
    StableHlo.unary main_v0 main_v1 ((extractStridedSlice S8x32x32x512 ![0, 0, 0, 0] · slices_S8x32x32x1536_S8x32x32x512_0_0_0_0) : (⟨S8x32x32x1536, .f32⟩ : BufTy).Contents (Elt F) → (⟨S8x32x32x512, .f32⟩ : BufTy).Contents (Elt F)),
    StableHlo.unary main_v0 main_v2 ((extractStridedSlice S8x32x32x512 ![0, 0, 0, 512] · slices_S8x32x32x1536_S8x32x32x512_0_0_0_512) : (⟨S8x32x32x1536, .f32⟩ : BufTy).Contents (Elt F) → (⟨S8x32x32x512, .f32⟩ : BufTy).Contents (Elt F)),
    StableHlo.unary main_v0 main_v3 ((extractStridedSlice S8x32x32x512 ![0, 0, 0, 1024] · slices_S8x32x32x1536_S8x32x32x512_0_0_0_1024) : (⟨S8x32x32x1536, .f32⟩ : BufTy).Contents (Elt F) → (⟨S8x32x32x512, .f32⟩ : BufTy).Contents (Elt F)),
    StableHlo.unary main_v1 main_v4 ((transpose S8x512x32x32 [0, 3, 1, 2] · transposes_S8x32x32x512_S8x512x32x32_0_3_1_2) : (⟨S8x32x32x512, .f32⟩ : BufTy).Contents (Elt F) → (⟨S8x512x32x32, .f32⟩ : BufTy).Contents (Elt F)),
    StableHlo.reshape main_v4 main_v5 rfl shapeCasts_S8x512x32x32_S8x8x64x1024,
    StableHlo.nullary main_cst (constant S_ .f32 0x3E000000#32),
    StableHlo.unary main_cst main_v6 (broadcastInDim S8x8x64x1024 ![] bcast_S_S8x8x64x1024 : (⟨S_, .f32⟩ : BufTy).Contents (Elt F) → (⟨S8x8x64x1024, .f32⟩ : BufTy).Contents (Elt F)),
    StableHlo.binary main_v5 main_v6 main_v7 (mulf : (⟨S8x8x64x1024, .f32⟩ : BufTy).Contents (Elt F) → (⟨S8x8x64x1024, .f32⟩ : BufTy).Contents (Elt F) → (⟨S8x8x64x1024, .f32⟩ : BufTy).Contents (Elt F)),
    StableHlo.unary main_v2 main_v8 ((transpose S8x512x32x32 [0, 3, 1, 2] · transposes_S8x32x32x512_S8x512x32x32_0_3_1_2) : (⟨S8x32x32x512, .f32⟩ : BufTy).Contents (Elt F) → (⟨S8x512x32x32, .f32⟩ : BufTy).Contents (Elt F)),
    StableHlo.reshape main_v8 main_v9 rfl shapeCasts_S8x512x32x32_S8x8x64x1024,
    StableHlo.unary main_v3 main_v10 ((transpose S8x512x32x32 [0, 3, 1, 2] · transposes_S8x32x32x512_S8x512x32x32_0_3_1_2) : (⟨S8x32x32x512, .f32⟩ : BufTy).Contents (Elt F) → (⟨S8x512x32x32, .f32⟩ : BufTy).Contents (Elt F)),
    StableHlo.reshape main_v10 main_v11 rfl shapeCasts_S8x512x32x32_S8x8x64x1024,
    StableHlo.binary main_v7 main_v9 main_v12 ((fun l r => Host.dotGeneral dot_S8x8x64x1024_S8x8x64x1024_S8x8x1024x1024_2_2_3_3_01_01 none l r) : (⟨S8x8x64x1024, .f32⟩ : BufTy).Contents (Elt F) → (⟨S8x8x64x1024, .f32⟩ : BufTy).Contents (Elt F) → (⟨S8x8x1024x1024, .f32⟩ : BufTy).Contents (Elt F)),
    StableHlo.nullary main_cst_0 (constant S_ .f32 0xFF800000#32),
    StableHlo.binary main_v12 main_cst_0 main_v13 ((fun x v => Host.reduce FloatOps.maximumf x v reducesTo_S8x8x1024x1024_S8x8x1024_d3 h_S_) : (⟨S8x8x1024x1024, .f32⟩ : BufTy).Contents (Elt F) → (⟨S_, .f32⟩ : BufTy).Contents (Elt F) → (⟨S8x8x1024, .f32⟩ : BufTy).Contents (Elt F)),
    StableHlo.nullary main_cst_1 (constant S_ .f32 0xFF800000#32),
    StableHlo.unary main_cst_1 main_v14 (broadcastInDim S8x8x1024 ![] bcast_S_S8x8x1024 : (⟨S_, .f32⟩ : BufTy).Contents (Elt F) → (⟨S8x8x1024, .f32⟩ : BufTy).Contents (Elt F)),
    StableHlo.binary main_v14 main_v13 main_v15 (maximumf : (⟨S8x8x1024, .f32⟩ : BufTy).Contents (Elt F) → (⟨S8x8x1024, .f32⟩ : BufTy).Contents (Elt F) → (⟨S8x8x1024, .f32⟩ : BufTy).Contents (Elt F)),
    StableHlo.unary main_v15 main_v16 (broadcastInDim S8x8x1024x1 ![0, 1, 2] bcast_S8x8x1024_S8x8x1024x1_0_1_2 : (⟨S8x8x1024, .f32⟩ : BufTy).Contents (Elt F) → (⟨S8x8x1024x1, .f32⟩ : BufTy).Contents (Elt F)),
    StableHlo.unary main_v16 main_v17 (broadcastInDim S8x8x1024x1024 ![0, 1, 2, 3] bcast_S8x8x1024x1_S8x8x1024x1024_0_1_2_3 : (⟨S8x8x1024x1, .f32⟩ : BufTy).Contents (Elt F) → (⟨S8x8x1024x1024, .f32⟩ : BufTy).Contents (Elt F)),
    StableHlo.binary main_v12 main_v17 main_v18 (subf : (⟨S8x8x1024x1024, .f32⟩ : BufTy).Contents (Elt F) → (⟨S8x8x1024x1024, .f32⟩ : BufTy).Contents (Elt F) → (⟨S8x8x1024x1024, .f32⟩ : BufTy).Contents (Elt F)),
    StableHlo.unary main_v18 main_v19 (Host.exp : (⟨S8x8x1024x1024, .f32⟩ : BufTy).Contents (Elt F) → (⟨S8x8x1024x1024, .f32⟩ : BufTy).Contents (Elt F)),
    StableHlo.nullary main_cst_2 (constant S_ .f32 0x00000000#32),
    StableHlo.binary main_v19 main_cst_2 main_v20 ((fun x v => Host.reduceAdd x v reducesTo_S8x8x1024x1024_S8x8x1024_d3 h_S_) : (⟨S8x8x1024x1024, .f32⟩ : BufTy).Contents (Elt F) → (⟨S_, .f32⟩ : BufTy).Contents (Elt F) → (⟨S8x8x1024, .f32⟩ : BufTy).Contents (Elt F)),
    StableHlo.unary main_v20 main_v21 (broadcastInDim S8x8x1024x1 ![0, 1, 2] bcast_S8x8x1024_S8x8x1024x1_0_1_2 : (⟨S8x8x1024, .f32⟩ : BufTy).Contents (Elt F) → (⟨S8x8x1024x1, .f32⟩ : BufTy).Contents (Elt F)),
    StableHlo.unary main_v21 main_v22 (broadcastInDim S8x8x1024x1024 ![0, 1, 2, 3] bcast_S8x8x1024x1_S8x8x1024x1024_0_1_2_3 : (⟨S8x8x1024x1, .f32⟩ : BufTy).Contents (Elt F) → (⟨S8x8x1024x1024, .f32⟩ : BufTy).Contents (Elt F)),
    StableHlo.binary main_v19 main_v22 main_v23 (Host.divf : (⟨S8x8x1024x1024, .f32⟩ : BufTy).Contents (Elt F) → (⟨S8x8x1024x1024, .f32⟩ : BufTy).Contents (Elt F) → (⟨S8x8x1024x1024, .f32⟩ : BufTy).Contents (Elt F)),
    StableHlo.binary main_v23 main_v11 main_v24 ((fun l r => Host.dotGeneral dot_S8x8x1024x1024_S8x8x64x1024_S8x8x1024x64_3_3_2_2_01_01 none l r) : (⟨S8x8x1024x1024, .f32⟩ : BufTy).Contents (Elt F) → (⟨S8x8x64x1024, .f32⟩ : BufTy).Contents (Elt F) → (⟨S8x8x1024x64, .f32⟩ : BufTy).Contents (Elt F)),
    StableHlo.reshape main_v24 main_v25 rfl shapeCasts_S8x8x1024x64_S8x512x32x32,
    StableHlo.unary main_v25 main_v26 ((transpose S8x32x32x512 [0, 2, 3, 1] · transposes_S8x512x32x32_S8x32x32x512_0_2_3_1) : (⟨S8x512x32x32, .f32⟩ : BufTy).Contents (Elt F) → (⟨S8x32x32x512, .f32⟩ : BufTy).Contents (Elt F)),
    StableHlo.binary main_v26 main_arg2 main_v27 ((fun l r => Host.dotGeneral dot_S8x32x32x512_S512x256_S8x32x32x256_3_0_012_1_n_n none l r) : (⟨S8x32x32x512, .f32⟩ : BufTy).Contents (Elt F) → (⟨S512x256, .f32⟩ : BufTy).Contents (Elt F) → (⟨S8x32x32x256, .f32⟩ : BufTy).Contents (Elt F)),
    StableHlo.unary main_arg3 main_v28 (broadcastInDim S1x1x1x256 ![3] bcast_S256_S1x1x1x256_3 : (⟨S256, .f32⟩ : BufTy).Contents (Elt F) → (⟨S1x1x1x256, .f32⟩ : BufTy).Contents (Elt F)),
    StableHlo.unary main_v28 main_v29 (broadcastInDim S8x32x32x256 ![0, 1, 2, 3] bcast_S1x1x1x256_S8x32x32x256_0_1_2_3 : (⟨S1x1x1x256, .f32⟩ : BufTy).Contents (Elt F) → (⟨S8x32x32x256, .f32⟩ : BufTy).Contents (Elt F)),
    StableHlo.binary main_v27 main_v29 main_v30 (addf : (⟨S8x32x32x256, .f32⟩ : BufTy).Contents (Elt F) → (⟨S8x32x32x256, .f32⟩ : BufTy).Contents (Elt F) → (⟨S8x32x32x256, .f32⟩ : BufTy).Contents (Elt F)),
    StableHlo.nullary main_cst_3 (constant S_ .f32 0x00000000#32),
    StableHlo.binary main_v30 main_cst_3 main_v31 ((fun x v => Host.reduceAdd x v reducesTo_S8x32x32x256_S8_d1_2_3 h_S_) : (⟨S8x32x32x256, .f32⟩ : BufTy).Contents (Elt F) → (⟨S_, .f32⟩ : BufTy).Contents (Elt F) → (⟨S8, .f32⟩ : BufTy).Contents (Elt F)),
    StableHlo.unary main_v31 main_v32 (broadcastInDim S8x1x1x1 ![0] bcast_S8_S8x1x1x1_0 : (⟨S8, .f32⟩ : BufTy).Contents (Elt F) → (⟨S8x1x1x1, .f32⟩ : BufTy).Contents (Elt F)),
    StableHlo.nullary main_cst_4 (constant S_ .f32 0x48800000#32),
    StableHlo.unary main_cst_4 main_v33 (broadcastInDim S8x1x1x1 ![] bcast_S_S8x1x1x1 : (⟨S_, .f32⟩ : BufTy).Contents (Elt F) → (⟨S8x1x1x1, .f32⟩ : BufTy).Contents (Elt F)),
    StableHlo.binary main_v32 main_v33 main_v34 (Host.divf : (⟨S8x1x1x1, .f32⟩ : BufTy).Contents (Elt F) → (⟨S8x1x1x1, .f32⟩ : BufTy).Contents (Elt F) → (⟨S8x1x1x1, .f32⟩ : BufTy).Contents (Elt F)),
    StableHlo.nullary main_c (constantI S_ 32 0#32),
    StableHlo.TRef.nullary main_call0.cst (constant S_ .f32 0x00000000#32),
    StableHlo.TRef.binary (.of main_v30 : StableHlo.TRef sig ⟨S8x32x32x256, .f32⟩) main_call0.cst main_call0.v0 (fun x v => Host.reduceAdd x v reducesTo_S8x32x32x256_S8_d1_2_3 h_S_),
    StableHlo.TRef.unary main_call0.v0 main_call0.v1 (broadcastInDim S8x1x1x1 ![0] bcast_S8_S8x1x1x1_0),
    StableHlo.TRef.nullary main_call0.cst_0 (constant S_ .f32 0x48800000#32),
    StableHlo.TRef.unary main_call0.cst_0 main_call0.v2 (broadcastInDim S8x1x1x1 ![] bcast_S_S8x1x1x1),
    StableHlo.TRef.binary main_call0.v1 main_call0.v2 main_call0.v3 Host.divf,
    StableHlo.TRef.unary main_call0.v3 main_call0.v4 (broadcastInDim S8x32x32x256 ![0, 1, 2, 3] bcast_S8x1x1x1_S8x32x32x256_0_1_2_3),
    StableHlo.TRef.binary (.of main_v30 : StableHlo.TRef sig ⟨S8x32x32x256, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x48800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8x32x32x256_S8_d1_2_3 h_S_),
    StableHlo.TRef.unary main_call0.v9 main_call0.v10 (broadcastInDim S8x1x1x1 ![0] bcast_S8_S8x1x1x1_0),
    StableHlo.TRef.unary main_call0.v8 main_call0.v11 (broadcastInDim S8x1x1x1 ![] bcast_S_S8x1x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8x1x1x1 ![] bcast_S_S8x1x1x1),
    StableHlo.TRef.ternary main_call0.v13 main_call0.v12 main_call0.call0.v1 main_call0.call0.v2 (fun p a b => select (broadcastInDim S8x1x1x1 ![] bcast_S_S8x1x1x1 p) a b),
    StableHlo.unary main_v34 main_v36 (broadcastInDim S8x32x32x256 ![0, 1, 2, 3] bcast_S8x1x1x1_S8x32x32x256_0_1_2_3 : (⟨S8x1x1x1, .f32⟩ : BufTy).Contents (Elt F) → (⟨S8x32x32x256, .f32⟩ : BufTy).Contents (Elt F)),
    StableHlo.binary main_v30 main_v36 main_v37 (subf : (⟨S8x32x32x256, .f32⟩ : BufTy).Contents (Elt F) → (⟨S8x32x32x256, .f32⟩ : BufTy).Contents (Elt F) → (⟨S8x32x32x256, .f32⟩ : BufTy).Contents (Elt F)),
    StableHlo.nullary main_cst_5 (constant S_ .f32 0x3727C5AC#32),
    StableHlo.unary main_cst_5 main_v38 (broadcastInDim S8x1x1x1 ![] bcast_S_S8x1x1x1 : (⟨S_, .f32⟩ : BufTy).Contents (Elt F) → (⟨S8x1x1x1, .f32⟩ : BufTy).Contents (Elt F)),
    StableHlo.binary main_v35 main_v38 main_v39 (addf : (⟨S8x1x1x1, .f32⟩ : BufTy).Contents (Elt F) → (⟨S8x1x1x1, .f32⟩ : BufTy).Contents (Elt F) → (⟨S8x1x1x1, .f32⟩ : BufTy).Contents (Elt F)),
    StableHlo.unary main_v39 main_v40 (Host.rsqrt : (⟨S8x1x1x1, .f32⟩ : BufTy).Contents (Elt F) → (⟨S8x1x1x1, .f32⟩ : BufTy).Contents (Elt F)),
    StableHlo.unary main_v40 main_v41 (broadcastInDim S8x32x32x256 ![0, 1, 2, 3] bcast_S8x1x1x1_S8x32x32x256_0_1_2_3 : (⟨S8x1x1x1, .f32⟩ : BufTy).Contents (Elt F) → (⟨S8x32x32x256, .f32⟩ : BufTy).Contents (Elt F)),
    StableHlo.binary main_v37 main_v41 main_v42 (mulf : (⟨S8x32x32x256, .f32⟩ : BufTy).Contents (Elt F) → (⟨S8x32x32x256, .f32⟩ : BufTy).Contents (Elt F) → (⟨S8x32x32x256, .f32⟩ : BufTy).Contents (Elt F)),
    StableHlo.unary main_arg4 main_v43 (broadcastInDim S1x1x1x256 ![3] bcast_S256_S1x1x1x256_3 : (⟨S256, .f32⟩ : BufTy).Contents (Elt F) → (⟨S1x1x1x256, .f32⟩ : BufTy).Contents (Elt F)),
    StableHlo.unary main_v43 main_v44 (broadcastInDim S8x32x32x256 ![0, 1, 2, 3] bcast_S1x1x1x256_S8x32x32x256_0_1_2_3 : (⟨S1x1x1x256, .f32⟩ : BufTy).Contents (Elt F) → (⟨S8x32x32x256, .f32⟩ : BufTy).Contents (Elt F)),
    StableHlo.binary main_v42 main_v44 main_v45 (mulf : (⟨S8x32x32x256, .f32⟩ : BufTy).Contents (Elt F) → (⟨S8x32x32x256, .f32⟩ : BufTy).Contents (Elt F) → (⟨S8x32x32x256, .f32⟩ : BufTy).Contents (Elt F)),
    StableHlo.unary main_arg5 main_v46 (broadcastInDim S1x1x1x256 ![3] bcast_S256_S1x1x1x256_3 : (⟨S256, .f32⟩ : BufTy).Contents (Elt F) → (⟨S1x1x1x256, .f32⟩ : BufTy).Contents (Elt F)),
    StableHlo.unary main_v46 main_v47 (broadcastInDim S8x32x32x256 ![0, 1, 2, 3] bcast_S1x1x1x256_S8x32x32x256_0_1_2_3 : (⟨S1x1x1x256, .f32⟩ : BufTy).Contents (Elt F) → (⟨S8x32x32x256, .f32⟩ : BufTy).Contents (Elt F)),
    StableHlo.binary main_v45 main_v47 main_v48 (addf : (⟨S8x32x32x256, .f32⟩ : BufTy).Contents (Elt F) → (⟨S8x32x32x256, .f32⟩ : BufTy).Contents (Elt F) → (⟨S8x32x32x256, .f32⟩ : BufTy).Contents (Elt F)) ]

/-- The entry function is that straight line: with the callees' definitions unfolded at their calls and the call records
    read at their fields, both sides evaluate to the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes buffers of the device only. -/
theorem ops_sub : (ops : List (HloOp τ sig (Elt F))).Forall fun op => op.bufs ⊆ tcRefs τ sig :=
  ⟨binary_bufs_sub .., unary_bufs_sub .., unary_bufs_sub .., unary_bufs_sub .., unary_bufs_sub .., reshape_bufs_sub ..,
    nullary_bufs_sub .., unary_bufs_sub .., binary_bufs_sub .., unary_bufs_sub .., reshape_bufs_sub .., unary_bufs_sub ..,
    reshape_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., binary_bufs_sub .., reshape_bufs_sub ..,
    unary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub ..⟩

/-- No operation writes argument 0: the fold leaves it as it was. -/
theorem arg0_eq (V : Valuation τ sig (Elt F)) :
    after ops V (main_arg0 : DevRef τ sig) = V (main_arg0 : DevRef τ sig) := by
  after_results_simp

/-- No operation writes argument 1: the fold leaves it as it was. -/
theorem arg1_eq (V : Valuation τ sig (Elt F)) :
    after ops V (main_arg1 : DevRef τ sig) = V (main_arg1 : DevRef τ sig) := by
  after_results_simp

/-- No operation writes argument 2: the fold leaves it as it was. -/
theorem arg2_eq (V : Valuation τ sig (Elt F)) :
    after ops V (main_arg2 : DevRef τ sig) = V (main_arg2 : DevRef τ sig) := by
  after_results_simp

/-- No operation writes argument 3: the fold leaves it as it was. -/
theorem arg3_eq (V : Valuation τ sig (Elt F)) :
    after ops V (main_arg3 : DevRef τ sig) = V (main_arg3 : DevRef τ sig) := by
  after_results_simp

/-- No operation writes argument 4: the fold leaves it as it was. -/
theorem arg4_eq (V : Valuation τ sig (Elt F)) :
    after ops V (main_arg4 : DevRef τ sig) = V (main_arg4 : DevRef τ sig) := by
  after_results_simp

/-- No operation writes argument 5: the fold leaves it as it was. -/
theorem arg5_eq (V : Valuation τ sig (Elt F)) :
    after ops V (main_arg5 : DevRef τ sig) = V (main_arg5 : DevRef τ sig) := by
  after_results_simp

/-- The fold read at the result buffer is the reference's term of the arguments: each operation's result at its own
    buffer is its function of what its operands' buffers hold, at any other buffer what was there; unrolled from the
    last operation back this is the composition of the operations' functions, the same operations in the same order as
    the term's. -/
theorem out_eq (V : Valuation τ sig (Elt F)) :
    after ops V (main_v48 : DevRef τ sig)
      = RefTerm.refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-- On every device, for any float values, from any memory with zero counters: every weakly fair execution of the entry
    function terminates with the result buffer at the reference's term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
          = Cert.ReferenceIdeal.RefTerm.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v48).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

/-- The same run, keeping only that the six arguments end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => (h c).2) (run m ρ)

end Cert.ReferenceIdeal.RefRun

end
-- ==== Proof.RefAttn.lean ====
/-
  Stage one of the reference, read entry by entry.

  The reference computes the attention output in five steps, and each step is read here at one index:
  the projection `v0[b, i, j, d] = ∑ k, x[b, i, j, k] · w[k, d]` (a product contracting the 256 input channels);
  the regrouping of a third of its 1536 columns by heads (a slice, a transposition to channels-first and a reshape that
  keeps the row-major position: column `o + 64 h + c`, pixel `(n / 32, n % 32)` for position `n`);
  the scores `∑ c, (q[n, c] · 1/8) · k[m, c]` (a product contracting the 64 components, per sample and head);
  the row-wise softmax (a maximum folded from −∞, a subtraction, an exponential, a row sum from 0, a division);
  and the product of the weights with the values (contracting the 1024 key positions).
  Over the extended reals every one of these is the exact textbook operation, so the composition is, index by index,
  the specification's `attnOut`: no sum is re-ordered and no law of arithmetic is used beyond `0 + x = x` and
  `max ⊥ x = x`.
-/
import proofs.«134831_j36223754174593_2_alg».proof.Proof.RefTerm
import proofs.«134831_j36223754174593_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefAttn

open Cert.ReferenceIdeal Cert.ReferenceIdeal.Gen Cert.ReferenceIdeal.RefTerm Idealize.ShloMosaic Idealize.ShloMosaic.ValueIdx AttnSpec

/-! ## The projection to queries, keys and values

The operand indices of a product at a result index and a contraction index, one axis at a time: a kept axis reads the
result index, the contracted axis reads the contraction index. -/

theorem d0_lhs0 (i : S8x32x32x1536.Idx) (q : (dot_S8x32x32x256_S256x1536_S8x32x32x1536_3_0_012_1_n_n).contr.Idx) :
    ((dot_S8x32x32x256_S256x1536_S8x32x32x1536_3_0_012_1_n_n).lhsIdx i q 0).val = (i 0).val := by
  unfold DotDims.lhsIdx
  rw [dif_neg (show ¬(0 : Fin S8x32x32x256.rank) ∈ (dot_S8x32x32x256_S256x1536_S8x32x32x1536_3_0_012_1_n_n).lhsBatch by decide), dif_pos (show (0 : Fin S8x32x32x256.rank) ∈ (dot_S8x32x32x256_S256x1536_S8x32x32x1536_3_0_012_1_n_n).lhsNonContracting by decide)]
  rfl
theorem d0_lhs1 (i : S8x32x32x1536.Idx) (q : (dot_S8x32x32x256_S256x1536_S8x32x32x1536_3_0_012_1_n_n).contr.Idx) :
    ((dot_S8x32x32x256_S256x1536_S8x32x32x1536_3_0_012_1_n_n).lhsIdx i q 1).val = (i 1).val := by
  unfold DotDims.lhsIdx
  rw [dif_neg (show ¬(1 : Fin S8x32x32x256.rank) ∈ (dot_S8x32x32x256_S256x1536_S8x32x32x1536_3_0_012_1_n_n).lhsBatch by decide), dif_pos (show (1 : Fin S8x32x32x256.rank) ∈ (dot_S8x32x32x256_S256x1536_S8x32x32x1536_3_0_012_1_n_n).lhsNonContracting by decide)]
  rfl
theorem d0_lhs2 (i : S8x32x32x1536.Idx) (q : (dot_S8x32x32x256_S256x1536_S8x32x32x1536_3_0_012_1_n_n).contr.Idx) :
    ((dot_S8x32x32x256_S256x1536_S8x32x32x1536_3_0_012_1_n_n).lhsIdx i q 2).val = (i 2).val := by
  unfold DotDims.lhsIdx
  rw [dif_neg (show ¬(2 : Fin S8x32x32x256.rank) ∈ (dot_S8x32x32x256_S256x1536_S8x32x32x1536_3_0_012_1_n_n).lhsBatch by decide), dif_pos (show (2 : Fin S8x32x32x256.rank) ∈ (dot_S8x32x32x256_S256x1536_S8x32x32x1536_3_0_012_1_n_n).lhsNonContracting by decide)]
  rfl
theorem d0_lhs3 (i : S8x32x32x1536.Idx) (q : (dot_S8x32x32x256_S256x1536_S8x32x32x1536_3_0_012_1_n_n).contr.Idx) :
    ((dot_S8x32x32x256_S256x1536_S8x32x32x1536_3_0_012_1_n_n).lhsIdx i q 3).val = (q ⟨0, by decide⟩).val :=
  (dot_S8x32x32x256_S256x1536_S8x32x32x1536_3_0_012_1_n_n).lhsIdx_val_of_single rfl i q
theorem d0_rhs0 (i : S8x32x32x1536.Idx) (q : (dot_S8x32x32x256_S256x1536_S8x32x32x1536_3_0_012_1_n_n).contr.Idx) :
    ((dot_S8x32x32x256_S256x1536_S8x32x32x1536_3_0_012_1_n_n).rhsIdx i q 0).val = (q ⟨0, by decide⟩).val :=
  (dot_S8x32x32x256_S256x1536_S8x32x32x1536_3_0_012_1_n_n).rhsIdx_val_of_single rfl i q
theorem d0_rhs1 (i : S8x32x32x1536.Idx) (q : (dot_S8x32x32x256_S256x1536_S8x32x32x1536_3_0_012_1_n_n).contr.Idx) :
    ((dot_S8x32x32x256_S256x1536_S8x32x32x1536_3_0_012_1_n_n).rhsIdx i q 1).val = (i 3).val := by
  unfold DotDims.rhsIdx
  rw [dif_neg (show ¬(1 : Fin S256x1536.rank) ∈ (dot_S8x32x32x256_S256x1536_S8x32x32x1536_3_0_012_1_n_n).rhsBatch by decide), dif_pos (show (1 : Fin S256x1536.rank) ∈ (dot_S8x32x32x256_S256x1536_S8x32x32x1536_3_0_012_1_n_n).rhsNonContracting by decide)]
  rfl

/-- The first product contracts the 256 input channels: its entry at sample `b`, pixel `(i, j)`, column `d` is the sum
    over the channels of the image entry times the weight entry. -/
theorem dot0_apply (x : FVec Ideal S8x32x32x256 .f32) (w : FVec Ideal S256x1536 .f32) (b : Fin 8) (i j : Fin 32)
    (d : Fin 1536) :
    Host.dotGeneral (F := Ideal) dot_S8x32x32x256_S256x1536_S8x32x32x1536_3_0_012_1_n_n none x w (ix4 b i j d) = ∑ k : Fin 256, x (ix4 b i j k) * w (ix2 k d) := by
  simp only [Host.dotGeneral]
  rw [Ideal.dotGeneral_apply, ← Equiv.sum_comp (contrEquiv1 dot_S8x32x32x256_S256x1536_S8x32x32x1536_3_0_012_1_n_n 256 rfl rfl).symm]
  refine Finset.sum_congr rfl fun k _ => ?_
  have hk := contrEquiv1_symm_val dot_S8x32x32x256_S256x1536_S8x32x32x1536_3_0_012_1_n_n 256 rfl rfl k
  have el : (dot_S8x32x32x256_S256x1536_S8x32x32x1536_3_0_012_1_n_n).lhsIdx (ix4 b i j d) ((contrEquiv1 dot_S8x32x32x256_S256x1536_S8x32x32x1536_3_0_012_1_n_n 256 rfl rfl).symm k) = ix4 b i j k :=
    funext fun a => Fin.ext (by
      match a with
      | ⟨0, _⟩ => exact d0_lhs0 _ _
      | ⟨1, _⟩ => exact d0_lhs1 _ _
      | ⟨2, _⟩ => exact d0_lhs2 _ _
      | ⟨3, _⟩ => exact (d0_lhs3 _ _).trans hk)
  have er : (dot_S8x32x32x256_S256x1536_S8x32x32x1536_3_0_012_1_n_n).rhsIdx (ix4 b i j d) ((contrEquiv1 dot_S8x32x32x256_S256x1536_S8x32x32x1536_3_0_012_1_n_n 256 rfl rfl).symm k) = ix2 k d :=
    funext fun a => Fin.ext (by
      match a with
      | ⟨0, _⟩ => exact (d0_rhs0 _ _).trans hk
      | ⟨1, _⟩ => exact d0_rhs1 _ _)
  rw [el, er]

/-! ## Regrouping by heads -/

/-- A third of the projected columns (those from `o` on), moved channels-first and regrouped: the entry at sample `b`,
    head `h`, component `c`, position `n` is the projected entry of pixel `(n / 32, n % 32)` at column `o + 64 h + c`.
    The reshape keeps the row-major position: channel `64 h + c` of 512, pixel `32 (n / 32) + n % 32 = n` of 1024. -/
theorem toHeads_apply (o : Nat) (hs : S8x32x32x1536.Slices ![0, 0, 0, o] S8x32x32x512)
    (v0 : FVec Ideal S8x32x32x1536 .f32) (b h : Fin 8) (c : Fin 64) (n : Fin 1024) (d : Fin 1536)
    (hd : d.val = o + (64 * h.val + c.val)) :
    toHeads ![0, 0, 0, o] hs v0 (ix4 b h c n) = v0 (ix4 b (rowHi n) (rowLo n) d) := by
  unfold toHeads
  refine (shapeCast_apply _ _ (ix4 b h c n)
    (ix4 b (⟨64 * h.val + c.val, by omega⟩ : Fin 512) (rowHi n) (rowLo n)) ?_).trans ?_
  · rw [Shape.rowMajor_val_four, Shape.rowMajor_val_four]
    show ((b.val * 512 + (64 * h.val + c.val)) * 32 + n.val / 32) * 32 + n.val % 32
      = ((b.val * 8 + h.val) * 64 + c.val) * 1024 + n.val
    omega
  refine (transpose_apply _ _ _ (ix4 b (⟨64 * h.val + c.val, by omega⟩ : Fin 512) (rowHi n) (rowLo n))
    (ix4 b (rowHi n) (rowLo n) (⟨64 * h.val + c.val, by omega⟩ : Fin 512)) ?_).trans ?_
  · intro a
    match a with
    | ⟨0, _⟩ => rfl
    | ⟨1, _⟩ => rfl
    | ⟨2, _⟩ => rfl
    | ⟨3, _⟩ => rfl
  refine extractStridedSlice_apply _ _ _ _ _ ?_
  intro a
  match a with
  | ⟨0, _⟩ => exact (Nat.zero_add _).symm
  | ⟨1, _⟩ => exact (Nat.zero_add _).symm
  | ⟨2, _⟩ => exact (Nat.zero_add _).symm
  | ⟨3, _⟩ => exact hd

/-! ## The two batched products -/

theorem d1_lhs0 (i : S8x8x1024x1024.Idx) (q : (dot_S8x8x64x1024_S8x8x64x1024_S8x8x1024x1024_2_2_3_3_01_01).contr.Idx) :
    ((dot_S8x8x64x1024_S8x8x64x1024_S8x8x1024x1024_2_2_3_3_01_01).lhsIdx i q 0).val = (i 0).val := by
  unfold DotDims.lhsIdx
  rw [dif_pos (show (0 : Fin S8x8x64x1024.rank) ∈ (dot_S8x8x64x1024_S8x8x64x1024_S8x8x1024x1024_2_2_3_3_01_01).lhsBatch by decide)]
  rfl
theorem d1_lhs1 (i : S8x8x1024x1024.Idx) (q : (dot_S8x8x64x1024_S8x8x64x1024_S8x8x1024x1024_2_2_3_3_01_01).contr.Idx) :
    ((dot_S8x8x64x1024_S8x8x64x1024_S8x8x1024x1024_2_2_3_3_01_01).lhsIdx i q 1).val = (i 1).val := by
  unfold DotDims.lhsIdx
  rw [dif_pos (show (1 : Fin S8x8x64x1024.rank) ∈ (dot_S8x8x64x1024_S8x8x64x1024_S8x8x1024x1024_2_2_3_3_01_01).lhsBatch by decide)]
  rfl
theorem d1_lhs2 (i : S8x8x1024x1024.Idx) (q : (dot_S8x8x64x1024_S8x8x64x1024_S8x8x1024x1024_2_2_3_3_01_01).contr.Idx) :
    ((dot_S8x8x64x1024_S8x8x64x1024_S8x8x1024x1024_2_2_3_3_01_01).lhsIdx i q 2).val = (q ⟨0, by decide⟩).val :=
  (dot_S8x8x64x1024_S8x8x64x1024_S8x8x1024x1024_2_2_3_3_01_01).lhsIdx_val_of_single rfl i q
theorem d1_lhs3 (i : S8x8x1024x1024.Idx) (q : (dot_S8x8x64x1024_S8x8x64x1024_S8x8x1024x1024_2_2_3_3_01_01).contr.Idx) :
    ((dot_S8x8x64x1024_S8x8x64x1024_S8x8x1024x1024_2_2_3_3_01_01).lhsIdx i q 3).val = (i 2).val := by
  unfold DotDims.lhsIdx
  rw [dif_neg (show ¬(3 : Fin S8x8x64x1024.rank) ∈ (dot_S8x8x64x1024_S8x8x64x1024_S8x8x1024x1024_2_2_3_3_01_01).lhsBatch by decide), dif_pos (show (3 : Fin S8x8x64x1024.rank) ∈ (dot_S8x8x64x1024_S8x8x64x1024_S8x8x1024x1024_2_2_3_3_01_01).lhsNonContracting by decide)]
  rfl
theorem d1_rhs0 (i : S8x8x1024x1024.Idx) (q : (dot_S8x8x64x1024_S8x8x64x1024_S8x8x1024x1024_2_2_3_3_01_01).contr.Idx) :
    ((dot_S8x8x64x1024_S8x8x64x1024_S8x8x1024x1024_2_2_3_3_01_01).rhsIdx i q 0).val = (i 0).val := by
  unfold DotDims.rhsIdx
  rw [dif_pos (show (0 : Fin S8x8x64x1024.rank) ∈ (dot_S8x8x64x1024_S8x8x64x1024_S8x8x1024x1024_2_2_3_3_01_01).rhsBatch by decide)]
  rfl
theorem d1_rhs1 (i : S8x8x1024x1024.Idx) (q : (dot_S8x8x64x1024_S8x8x64x1024_S8x8x1024x1024_2_2_3_3_01_01).contr.Idx) :
    ((dot_S8x8x64x1024_S8x8x64x1024_S8x8x1024x1024_2_2_3_3_01_01).rhsIdx i q 1).val = (i 1).val := by
  unfold DotDims.rhsIdx
  rw [dif_pos (show (1 : Fin S8x8x64x1024.rank) ∈ (dot_S8x8x64x1024_S8x8x64x1024_S8x8x1024x1024_2_2_3_3_01_01).rhsBatch by decide)]
  rfl
theorem d1_rhs2 (i : S8x8x1024x1024.Idx) (q : (dot_S8x8x64x1024_S8x8x64x1024_S8x8x1024x1024_2_2_3_3_01_01).contr.Idx) :
    ((dot_S8x8x64x1024_S8x8x64x1024_S8x8x1024x1024_2_2_3_3_01_01).rhsIdx i q 2).val = (q ⟨0, by decide⟩).val :=
  (dot_S8x8x64x1024_S8x8x64x1024_S8x8x1024x1024_2_2_3_3_01_01).rhsIdx_val_of_single rfl i q
theorem d1_rhs3 (i : S8x8x1024x1024.Idx) (q : (dot_S8x8x64x1024_S8x8x64x1024_S8x8x1024x1024_2_2_3_3_01_01).contr.Idx) :
    ((dot_S8x8x64x1024_S8x8x64x1024_S8x8x1024x1024_2_2_3_3_01_01).rhsIdx i q 3).val = (i 3).val := by
  unfold DotDims.rhsIdx
  rw [dif_neg (show ¬(3 : Fin S8x8x64x1024.rank) ∈ (dot_S8x8x64x1024_S8x8x64x1024_S8x8x1024x1024_2_2_3_3_01_01).rhsBatch by decide), dif_pos (show (3 : Fin S8x8x64x1024.rank) ∈ (dot_S8x8x64x1024_S8x8x64x1024_S8x8x1024x1024_2_2_3_3_01_01).rhsNonContracting by decide)]
  rfl

/-- The product of scores contracts the 64 components of a head, sample by sample and head by head. -/
theorem dot1_apply (l r : FVec Ideal S8x8x64x1024 .f32) (b h : Fin 8) (n m : Fin 1024) :
    Host.dotGeneral (F := Ideal) dot_S8x8x64x1024_S8x8x64x1024_S8x8x1024x1024_2_2_3_3_01_01 none l r (ix4 b h n m) = ∑ c : Fin 64, l (ix4 b h c n) * r (ix4 b h c m) := by
  simp only [Host.dotGeneral]
  rw [Ideal.dotGeneral_apply, ← Equiv.sum_comp (contrEquiv1 dot_S8x8x64x1024_S8x8x64x1024_S8x8x1024x1024_2_2_3_3_01_01 64 rfl rfl).symm]
  refine Finset.sum_congr rfl fun k _ => ?_
  have hk := contrEquiv1_symm_val dot_S8x8x64x1024_S8x8x64x1024_S8x8x1024x1024_2_2_3_3_01_01 64 rfl rfl k
  have el : (dot_S8x8x64x1024_S8x8x64x1024_S8x8x1024x1024_2_2_3_3_01_01).lhsIdx (ix4 b h n m) ((contrEquiv1 dot_S8x8x64x1024_S8x8x64x1024_S8x8x1024x1024_2_2_3_3_01_01 64 rfl rfl).symm k) = ix4 b h k n :=
    funext fun a => Fin.ext (by
      match a with
      | ⟨0, _⟩ => exact d1_lhs0 _ _
      | ⟨1, _⟩ => exact d1_lhs1 _ _
      | ⟨2, _⟩ => exact (d1_lhs2 _ _).trans hk
      | ⟨3, _⟩ => exact d1_lhs3 _ _)
  have er : (dot_S8x8x64x1024_S8x8x64x1024_S8x8x1024x1024_2_2_3_3_01_01).rhsIdx (ix4 b h n m) ((contrEquiv1 dot_S8x8x64x1024_S8x8x64x1024_S8x8x1024x1024_2_2_3_3_01_01 64 rfl rfl).symm k) = ix4 b h k m :=
    funext fun a => Fin.ext (by
      match a with
      | ⟨0, _⟩ => exact d1_rhs0 _ _
      | ⟨1, _⟩ => exact d1_rhs1 _ _
      | ⟨2, _⟩ => exact (d1_rhs2 _ _).trans hk
      | ⟨3, _⟩ => exact d1_rhs3 _ _)
  rw [el, er]

theorem d2_lhs0 (i : S8x8x1024x64.Idx) (q : (dot_S8x8x1024x1024_S8x8x64x1024_S8x8x1024x64_3_3_2_2_01_01).contr.Idx) :
    ((dot_S8x8x1024x1024_S8x8x64x1024_S8x8x1024x64_3_3_2_2_01_01).lhsIdx i q 0).val = (i 0).val := by
  unfold DotDims.lhsIdx
  rw [dif_pos (show (0 : Fin S8x8x1024x1024.rank) ∈ (dot_S8x8x1024x1024_S8x8x64x1024_S8x8x1024x64_3_3_2_2_01_01).lhsBatch by decide)]
  rfl
theorem d2_lhs1 (i : S8x8x1024x64.Idx) (q : (dot_S8x8x1024x1024_S8x8x64x1024_S8x8x1024x64_3_3_2_2_01_01).contr.Idx) :
    ((dot_S8x8x1024x1024_S8x8x64x1024_S8x8x1024x64_3_3_2_2_01_01).lhsIdx i q 1).val = (i 1).val := by
  unfold DotDims.lhsIdx
  rw [dif_pos (show (1 : Fin S8x8x1024x1024.rank) ∈ (dot_S8x8x1024x1024_S8x8x64x1024_S8x8x1024x64_3_3_2_2_01_01).lhsBatch by decide)]
  rfl
theorem d2_lhs2 (i : S8x8x1024x64.Idx) (q : (dot_S8x8x1024x1024_S8x8x64x1024_S8x8x1024x64_3_3_2_2_01_01).contr.Idx) :
    ((dot_S8x8x1024x1024_S8x8x64x1024_S8x8x1024x64_3_3_2_2_01_01).lhsIdx i q 2).val = (i 2).val := by
  unfold DotDims.lhsIdx
  rw [dif_neg (show ¬(2 : Fin S8x8x1024x1024.rank) ∈ (dot_S8x8x1024x1024_S8x8x64x1024_S8x8x1024x64_3_3_2_2_01_01).lhsBatch by decide), dif_pos (show (2 : Fin S8x8x1024x1024.rank) ∈ (dot_S8x8x1024x1024_S8x8x64x1024_S8x8x1024x64_3_3_2_2_01_01).lhsNonContracting by decide)]
  rfl
theorem d2_lhs3 (i : S8x8x1024x64.Idx) (q : (dot_S8x8x1024x1024_S8x8x64x1024_S8x8x1024x64_3_3_2_2_01_01).contr.Idx) :
    ((dot_S8x8x1024x1024_S8x8x64x1024_S8x8x1024x64_3_3_2_2_01_01).lhsIdx i q 3).val = (q ⟨0, by decide⟩).val :=
  (dot_S8x8x1024x1024_S8x8x64x1024_S8x8x1024x64_3_3_2_2_01_01).lhsIdx_val_of_single rfl i q
theorem d2_rhs0 (i : S8x8x1024x64.Idx) (q : (dot_S8x8x1024x1024_S8x8x64x1024_S8x8x1024x64_3_3_2_2_01_01).contr.Idx) :
    ((dot_S8x8x1024x1024_S8x8x64x1024_S8x8x1024x64_3_3_2_2_01_01).rhsIdx i q 0).val = (i 0).val := by
  unfold DotDims.rhsIdx
  rw [dif_pos (show (0 : Fin S8x8x64x1024.rank) ∈ (dot_S8x8x1024x1024_S8x8x64x1024_S8x8x1024x64_3_3_2_2_01_01).rhsBatch by decide)]
  rfl
theorem d2_rhs1 (i : S8x8x1024x64.Idx) (q : (dot_S8x8x1024x1024_S8x8x64x1024_S8x8x1024x64_3_3_2_2_01_01).contr.Idx) :
    ((dot_S8x8x1024x1024_S8x8x64x1024_S8x8x1024x64_3_3_2_2_01_01).rhsIdx i q 1).val = (i 1).val := by
  unfold DotDims.rhsIdx
  rw [dif_pos (show (1 : Fin S8x8x64x1024.rank) ∈ (dot_S8x8x1024x1024_S8x8x64x1024_S8x8x1024x64_3_3_2_2_01_01).rhsBatch by decide)]
  rfl
theorem d2_rhs2 (i : S8x8x1024x64.Idx) (q : (dot_S8x8x1024x1024_S8x8x64x1024_S8x8x1024x64_3_3_2_2_01_01).contr.Idx) :
    ((dot_S8x8x1024x1024_S8x8x64x1024_S8x8x1024x64_3_3_2_2_01_01).rhsIdx i q 2).val = (i 3).val := by
  unfold DotDims.rhsIdx
  rw [dif_neg (show ¬(2 : Fin S8x8x64x1024.rank) ∈ (dot_S8x8x1024x1024_S8x8x64x1024_S8x8x1024x64_3_3_2_2_01_01).rhsBatch by decide), dif_pos (show (2 : Fin S8x8x64x1024.rank) ∈ (dot_S8x8x1024x1024_S8x8x64x1024_S8x8x1024x64_3_3_2_2_01_01).rhsNonContracting by decide)]
  rfl
theorem d2_rhs3 (i : S8x8x1024x64.Idx) (q : (dot_S8x8x1024x1024_S8x8x64x1024_S8x8x1024x64_3_3_2_2_01_01).contr.Idx) :
    ((dot_S8x8x1024x1024_S8x8x64x1024_S8x8x1024x64_3_3_2_2_01_01).rhsIdx i q 3).val = (q ⟨0, by decide⟩).val :=
  (dot_S8x8x1024x1024_S8x8x64x1024_S8x8x1024x64_3_3_2_2_01_01).rhsIdx_val_of_single rfl i q

/-- The product with the values contracts the 1024 key positions, sample by sample and head by head. -/
theorem dot2_apply (p : FVec Ideal S8x8x1024x1024 .f32) (v : FVec Ideal S8x8x64x1024 .f32) (b h : Fin 8) (n : Fin 1024)
    (c : Fin 64) :
    Host.dotGeneral (F := Ideal) dot_S8x8x1024x1024_S8x8x64x1024_S8x8x1024x64_3_3_2_2_01_01 none p v (ix4 b h n c) = ∑ m : Fin 1024, p (ix4 b h n m) * v (ix4 b h c m) := by
  simp only [Host.dotGeneral]
  rw [Ideal.dotGeneral_apply, ← Equiv.sum_comp (contrEquiv1 dot_S8x8x1024x1024_S8x8x64x1024_S8x8x1024x64_3_3_2_2_01_01 1024 rfl rfl).symm]
  refine Finset.sum_congr rfl fun k _ => ?_
  have hk := contrEquiv1_symm_val dot_S8x8x1024x1024_S8x8x64x1024_S8x8x1024x64_3_3_2_2_01_01 1024 rfl rfl k
  have el : (dot_S8x8x1024x1024_S8x8x64x1024_S8x8x1024x64_3_3_2_2_01_01).lhsIdx (ix4 b h n c) ((contrEquiv1 dot_S8x8x1024x1024_S8x8x64x1024_S8x8x1024x64_3_3_2_2_01_01 1024 rfl rfl).symm k) = ix4 b h n k :=
    funext fun a => Fin.ext (by
      match a with
      | ⟨0, _⟩ => exact d2_lhs0 _ _
      | ⟨1, _⟩ => exact d2_lhs1 _ _
      | ⟨2, _⟩ => exact d2_lhs2 _ _
      | ⟨3, _⟩ => exact (d2_lhs3 _ _).trans hk)
  have er : (dot_S8x8x1024x1024_S8x8x64x1024_S8x8x1024x64_3_3_2_2_01_01).rhsIdx (ix4 b h n c) ((contrEquiv1 dot_S8x8x1024x1024_S8x8x64x1024_S8x8x1024x64_3_3_2_2_01_01 1024 rfl rfl).symm k) = ix4 b h c k :=
    funext fun a => Fin.ext (by
      match a with
      | ⟨0, _⟩ => exact d2_rhs0 _ _
      | ⟨1, _⟩ => exact d2_rhs1 _ _
      | ⟨2, _⟩ => exact d2_rhs2 _ _
      | ⟨3, _⟩ => exact (d2_rhs3 _ _).trans hk)
  rw [el, er]

/-! ## Queries, keys and values of a head

From here on `v0` stands for the projected array, known only through its entries: `hv` says that its entry at sample `b`,
pixel `(n / 32, n % 32)`, column `d` is `qkv x w b n d`. -/

section Heads
variable (x : FVec Ideal S8x32x32x256 .f32) (w : FVec Ideal S256x1536 .f32) (v0 : FVec Ideal S8x32x32x1536 .f32)
  (hv : ∀ (b : Fin 8) (n : Fin 1024) (d : Fin 1536), v0 (ix4 b (rowHi n) (rowLo n) d) = qkv x w b n d)
include hv

/-- The first third of the columns regrouped: the queries. -/
theorem qHead_apply (b h : Fin 8) (c : Fin 64) (n : Fin 1024) :
    toHeads ![0, 0, 0, 0] slices_S8x32x32x1536_S8x32x32x512_0_0_0_0 v0 (ix4 b h c n) = qkv x w b n (qcol h c) :=
  (toHeads_apply 0 _ v0 b h c n (qcol h c) (by rw [qcol_val]; omega)).trans (hv b n _)

/-- The second third: the keys. -/
theorem kHead_apply (b h : Fin 8) (c : Fin 64) (n : Fin 1024) :
    toHeads ![0, 0, 0, 512] slices_S8x32x32x1536_S8x32x32x512_0_0_0_512 v0 (ix4 b h c n) = qkv x w b n (kcol h c) :=
  (toHeads_apply 512 _ v0 b h c n (kcol h c) (by rw [kcol_val]; omega)).trans (hv b n _)

/-- The last third: the values. -/
theorem vHead_apply (b h : Fin 8) (c : Fin 64) (n : Fin 1024) :
    toHeads ![0, 0, 0, 1024] slices_S8x32x32x1536_S8x32x32x512_0_0_0_1024 v0 (ix4 b h c n) = qkv x w b n (vcol h c) :=
  (toHeads_apply 1024 _ v0 b h c n (vcol h c) (by rw [vcol_val]; omega)).trans (hv b n _)

omit hv in
/-- A scalar word spread over an array reads, everywhere, the extended real the word encodes. -/
theorem splat_apply {t : Shape} (hb : S_.BroadcastsInDim t (![] : Fin 0 → Fin t.rank)) (wd : BitVec 32) (j : t.Idx) :
    broadcastInDim t ![] hb (constant (F := Ideal) S_ .f32 wd) j = Ideal.ofBits .f32 wd :=
  broadcastInDim_apply _ hb _ j ix0 (fun a => a.elim0)

/-- The scores: queries scaled by 1/8 against keys. -/
theorem scores_apply (b h : Fin 8) (n m : Fin 1024) : scores v0 (ix4 b h n m) = sim x w b h n m := by
  unfold scores
  refine (dot1_apply _ _ b h n m).trans ?_
  unfold sim
  refine Finset.sum_congr rfl fun c _ => ?_
  rw [mulf_apply, qHead_apply x w v0 hv, kHead_apply x w v0 hv, splat_apply, eighth_f32]

end Heads

/-! ## The softmax of a row -/

/-- Position `(b, h, n)` of the reduced array with coordinate `k` put back on the last axis. -/
theorem lift_last (hR : S8x8x1024x1024.Reduces [3] S8x8x1024) (b h : Fin 8) (n : Fin 1024) (k : Fin 1024) :
    hR.lift (ix3 b h n) k = ix4 b h n k := by
  funext c
  apply Fin.ext
  match c with
  | ⟨0, _⟩ => rfl
  | ⟨1, _⟩ => rfl
  | ⟨2, _⟩ => rfl
  | ⟨3, _⟩ => rfl

/-- A per-row value spread back along the row (through a unit axis) reads the row's value. -/
theorem perRow_apply (r : FVec Ideal S8x8x1024 .f32) (b h : Fin 8) (n m : Fin 1024) :
    broadcastInDim S8x8x1024x1024 ![0, 1, 2, 3] bcast_S8x8x1024x1_S8x8x1024x1024_0_1_2_3
      (broadcastInDim S8x8x1024x1 ![0, 1, 2] bcast_S8x8x1024_S8x8x1024x1_0_1_2 r) (ix4 b h n m) = r (ix3 b h n) := by
  refine (broadcastInDim_apply _ _ _ (ix4 b h n m) (ix4 b h n (0 : Fin 1)) ?_).trans ?_
  · intro a
    match a with
    | ⟨0, _⟩ => rfl
    | ⟨1, _⟩ => rfl
    | ⟨2, _⟩ => rfl
    | ⟨3, _⟩ => rfl
  refine broadcastInDim_apply _ _ _ (ix4 b h n (0 : Fin 1)) (ix3 b h n) ?_
  intro a
  match a with
  | ⟨0, _⟩ => rfl
  | ⟨1, _⟩ => rfl
  | ⟨2, _⟩ => rfl

/-- The reduction by maximum along a row, started from the word of −∞, is the fold of `max` from `⊥` over the row. -/
theorem rowMaxRef_apply (s : FVec Ideal S8x8x1024x1024 .f32) (b h : Fin 8) (n : Fin 1024) :
    Host.reduce FloatOps.maximumf s (constant (F := Ideal) S_ .f32 0xFF800000#32) reducesTo_S8x8x1024x1024_S8x8x1024_d3 h_S_ (ix3 b h n)
      = (Finset.univ : Finset (Fin 1024)).fold max ⊥ (fun m => s (ix4 b h n m)) := by
  have hR : S8x8x1024x1024.Reduces [3] S8x8x1024 := by decide
  rw [Host.reduce_eq_fold_single FloatOps.maximumf s _ reducesTo_S8x8x1024x1024_S8x8x1024_d3 hR h_S_]
  have hf : (s ∘ hR.lift (ix3 b h n)) = fun m : Fin 1024 => s (ix4 b h n m) :=
    funext fun k => congrArg s (lift_last hR b h n k)
  show (Finset.univ : Finset (Fin 1024)).fold max (Ideal.ofBits .f32 0xFF800000#32) (s ∘ hR.lift (ix3 b h n)) = _
  rw [negInf_f32, hf]
  rfl

/-- The sum along a row, started from the zero word, is the sum over the row. -/
theorem rowSumRef_apply (e : FVec Ideal S8x8x1024x1024 .f32) (b h : Fin 8) (n : Fin 1024) :
    Host.reduceAdd e (constant (F := Ideal) S_ .f32 0x00000000#32) reducesTo_S8x8x1024x1024_S8x8x1024_d3 h_S_ (ix3 b h n)
      = ∑ m : Fin 1024, e (ix4 b h n m) := by
  have hR : S8x8x1024x1024.Reduces [3] S8x8x1024 := by decide
  simp only [Host.reduceAdd, Ideal.hostReduceAdd_def]
  rw [Ideal.hostReduceAdd_single reducesTo_S8x8x1024x1024_S8x8x1024_d3 hR]
  refine (congrArg (_ + ·) (Finset.sum_congr rfl fun k _ => congrArg e (lift_last hR b h n k))).trans ?_
  show Ideal.ofBits .f32 0x00000000#32 + _ = _
  rw [Ideal.ofBits_zero_f32, zero_add]
  rfl

/-- The shifted exponentials: each score less its row's maximum, exponentiated. (The maximum with the −∞ splat changes nothing.) -/
theorem exps_apply (s : FVec Ideal S8x8x1024x1024 .f32) (b h : Fin 8) (n m : Fin 1024) :
    Host.exp (subf s
      (broadcastInDim S8x8x1024x1024 ![0, 1, 2, 3] bcast_S8x8x1024x1_S8x8x1024x1024_0_1_2_3
        (broadcastInDim S8x8x1024x1 ![0, 1, 2] bcast_S8x8x1024_S8x8x1024x1_0_1_2
          (maximumf (broadcastInDim S8x8x1024 ![] bcast_S_S8x8x1024 (constant S_ .f32 0xFF800000#32))
            (Host.reduce FloatOps.maximumf s (constant S_ .f32 0xFF800000#32) reducesTo_S8x8x1024x1024_S8x8x1024_d3 h_S_))))) (ix4 b h n m)
      = Ideal.exp (s (ix4 b h n m) - (Finset.univ : Finset (Fin 1024)).fold max ⊥ (fun k => s (ix4 b h n k))) := by
  show Ideal.exp (s (ix4 b h n m) - _) = _
  refine congrArg (fun t => Ideal.exp (s (ix4 b h n m) - t)) ?_
  rw [perRow_apply, maximumf_apply, splat_apply, rowMaxRef_apply, negInf_f32]
  exact max_bot_left _

/-- The normalisation: each exponential divided by the sum of its row. -/
theorem normalise_apply (e : FVec Ideal S8x8x1024x1024 .f32) (b h : Fin 8) (n m : Fin 1024) :
    Host.divf e
      (broadcastInDim S8x8x1024x1024 ![0, 1, 2, 3] bcast_S8x8x1024x1_S8x8x1024x1024_0_1_2_3
        (broadcastInDim S8x8x1024x1 ![0, 1, 2] bcast_S8x8x1024_S8x8x1024x1_0_1_2
          (Host.reduceAdd e (constant S_ .f32 0x00000000#32) reducesTo_S8x8x1024x1024_S8x8x1024_d3 h_S_))) (ix4 b h n m)
      = Ideal.div (e (ix4 b h n m)) (∑ k : Fin 1024, e (ix4 b h n k)) := by
  show Ideal.div (e (ix4 b h n m)) _ = _
  rw [perRow_apply, rowSumRef_apply]

/-- The softmax of an array of scores, entry by entry. -/
theorem softmax_apply (s : FVec Ideal S8x8x1024x1024 .f32) (b h : Fin 8) (n m : Fin 1024) :
    softmax s (ix4 b h n m)
      = Ideal.div (Ideal.exp (s (ix4 b h n m) - (Finset.univ : Finset (Fin 1024)).fold max ⊥ (fun k => s (ix4 b h n k))))
          (∑ j : Fin 1024, Ideal.exp (s (ix4 b h n j) - (Finset.univ : Finset (Fin 1024)).fold max ⊥ (fun k => s (ix4 b h n k)))) := by
  unfold softmax
  refine (normalise_apply _ b h n m).trans ?_
  rw [exps_apply]
  exact congrArg _ (Finset.sum_congr rfl fun j _ => exps_apply s b h n j)

/-! ## The attention output -/

section Out
variable (x : FVec Ideal S8x32x32x256 .f32) (w : FVec Ideal S256x1536 .f32) (v0 : FVec Ideal S8x32x32x1536 .f32)
  (hv : ∀ (b : Fin 8) (n : Fin 1024) (d : Fin 1536), v0 (ix4 b (rowHi n) (rowLo n) d) = qkv x w b n d)
include hv

/-- The softmax of the scores is the attention weight. -/
theorem weight_apply (b h : Fin 8) (n m : Fin 1024) : softmax (scores v0) (ix4 b h n m) = weight x w b h n m := by
  rw [softmax_apply]
  unfold weight rowSum expo rowMax
  simp only [scores_apply x w v0 hv]

/-- The weights against the values: the head's output. -/
theorem out_apply (b h : Fin 8) (n : Fin 1024) (c : Fin 64) :
    Host.dotGeneral (F := Ideal) dot_S8x8x1024x1024_S8x8x64x1024_S8x8x1024x64_3_3_2_2_01_01 none (softmax (scores v0))
      (toHeads ![0, 0, 0, 1024] slices_S8x32x32x1536_S8x32x32x512_0_0_0_1024 v0) (ix4 b h n c) = headOut x w b h n c := by
  refine (dot2_apply _ _ b h n c).trans ?_
  unfold headOut
  refine Finset.sum_congr rfl fun m _ => ?_
  rw [weight_apply x w v0 hv, vHead_apply x w v0 hv]

end Out

/-- The projected array of the reference, entry by entry. -/
theorem proj_apply (x : FVec Ideal S8x32x32x256 .f32) (w : FVec Ideal S256x1536 .f32) (b : Fin 8) (n : Fin 1024)
    (d : Fin 1536) :
    Host.dotGeneral (F := Ideal) dot_S8x32x32x256_S256x1536_S8x32x32x1536_3_0_012_1_n_n none x w (ix4 b (rowHi n) (rowLo n) d) = qkv x w b n d := by
  rw [dot0_apply]
  rfl

/-- Stage one of the reference is the attention output of the specification. -/
theorem refO_eq (x : FVec Ideal S8x32x32x256 .f32) (w : FVec Ideal S256x1536 .f32) :
    Cert.ReferenceIdeal.RefTerm.refO (F := Ideal) x w = AttnSpec.attnOut x w := by
  funext i
  obtain ⟨b, h, n, c, rfl⟩ : ∃ (b h : Fin 8) (n : Fin 1024) (c : Fin 64), i = ix4 b h n c :=
    ⟨i 0, i 1, i 2, i 3, eq_ix4 i⟩
  rw [attnOut_apply]
  unfold refO
  exact out_apply x w _ (proj_apply x w) b h n c

end Cert.ReferenceIdeal.RefAttn

end
-- ==== Proof.RefNorm.lean ====
/-
  Stage two of the reference, read entry by entry.

  The reference projects each of the 8 · 1024 rows of 512 channels to 256 channels and adds a bias, then normalises every
  sample over all of its 1024 · 256 entries: the mean is the sum of the entries divided by 262144, the variance the sum of
  the squared deviations from the mean divided by the same count, and each entry becomes
  (entry - mean) · rsqrt (variance + ε) · scale + shift.  Here each of those operations is read at one index, and the result
  is identified with the specification's `normOut`.

  Two facts carry the argument.  The sum over a sample, which the program takes over all entries whose sample coordinate is
  `b`, is the double sum over the 1024 positions `n` and the 256 channels of the entry at pixel `(n / 32, n % 32)`: the map
  `(n, d) ↦ (b, n / 32, n % 32, d)` is a bijection onto those entries.  And the variance routine's guard holds: its divisor
  is the count less the integer 0, which is the count, and the count is positive, so the routine returns the quotient.
  Everything else is a pointwise operation or a spreading of a smaller array over a larger one, read at an index.
-/
import proofs.«134831_j36223754174593_2_alg».proof.Proof.RefTerm
import proofs.«134831_j36223754174593_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefNorm

open Cert.ReferenceIdeal Cert.ReferenceIdeal.Gen Cert.ReferenceIdeal.RefTerm Idealize.ShloMosaic Idealize.ShloMosaic.ValueIdx AttnSpec

/-- A channel vector spread over samples and pixels reads, at every sample and pixel, its entry of the channel. -/
theorem chan_apply (v : FVec Ideal S256 .f32) (b : Fin 8) (i j : Fin 32) (d : Fin 256) :
    chan (F := Ideal) v (ix4 b i j d) = v (ix1 d) := by
  unfold chan
  refine (broadcastInDim_apply _ _ _ _ (ix4 (0 : Fin 1) (0 : Fin 1) (0 : Fin 1) d) ?_).trans ?_
  · intro a
    match a with
    | ⟨0, _⟩ => rfl
    | ⟨1, _⟩ => rfl
    | ⟨2, _⟩ => rfl
    | ⟨3, _⟩ => rfl
  · refine broadcastInDim_apply _ _ _ _ (ix1 d) ?_
    intro a
    match a with
    | ⟨0, _⟩ => rfl

/-- A per-sample value spread over the sample reads, at every entry of sample `b`, the value of sample `b`. -/
theorem perSample_apply (v : FVec Ideal S8x1x1x1 .f32) (b : Fin 8) (i j : Fin 32) (d : Fin 256) :
    perSample (F := Ideal) v (ix4 b i j d) = v (ix4 b (0 : Fin 1) (0 : Fin 1) (0 : Fin 1)) := by
  unfold perSample
  refine broadcastInDim_apply _ _ _ _ (ix4 b (0 : Fin 1) (0 : Fin 1) (0 : Fin 1)) ?_
  intro a
  match a with
  | ⟨0, _⟩ => rfl
  | ⟨1, _⟩ => rfl
  | ⟨2, _⟩ => rfl
  | ⟨3, _⟩ => rfl

/-- A vector of 8 per-sample values given one unit axis per pixel and channel axis. -/
theorem keep_apply (v : FVec Ideal S8 .f32) (b : Fin 8) :
    broadcastInDim S8x1x1x1 ![0] bcast_S8_S8x1x1x1_0 v (ix4 b (0 : Fin 1) (0 : Fin 1) (0 : Fin 1)) = v (ix1 b) := by
  refine broadcastInDim_apply _ _ _ _ (ix1 b) ?_
  intro a
  match a with
  | ⟨0, _⟩ => rfl

/-- A scalar spread over the 8 samples. -/
theorem splat_apply {α : Type} (v : S_.Idx → α) (k : S8x1x1x1.Idx) :
    broadcastInDim S8x1x1x1 ![] bcast_S_S8x1x1x1 v k = v ix0 := by
  refine broadcastInDim_apply _ _ _ _ ix0 ?_
  intro a
  exact a.elim0

/-- The projection read at an entry: the sum over the 512 contracted channels. -/
theorem dot_apply (t : FVec Ideal S8x32x32x512 .f32) (wo : FVec Ideal S512x256 .f32) (b : Fin 8) (i j : Fin 32) (d : Fin 256) :
    Host.dotGeneral (F := Ideal) dot_S8x32x32x512_S512x256_S8x32x32x256_3_0_012_1_n_n none t wo (ix4 b i j d)
      = ∑ k : Fin 512, t (ix4 b i j k) * wo (ix2 k d) := by
  show FloatOps.dotGeneral _ none _ t wo (ix4 b i j d) = _
  rw [Ideal.dotGeneral_apply,
    ← Equiv.sum_comp (contrEquiv1 dot_S8x32x32x512_S512x256_S8x32x32x256_3_0_012_1_n_n 512 rfl rfl).symm]
  refine Finset.sum_congr rfl fun c _ => ?_
  have c3 := contrEquiv1_symm_val dot_S8x32x32x512_S512x256_S8x32x32x256_3_0_012_1_n_n 512 rfl rfl c
  have l : dot_S8x32x32x512_S512x256_S8x32x32x256_3_0_012_1_n_n.lhsIdx (ix4 b i j d)
      ((contrEquiv1 _ 512 rfl rfl).symm c) = ix4 b i j c := by
    funext ax; apply Fin.ext
    match ax with
    | ⟨0, _⟩ => simp [DotDims.lhsIdx, dot_S8x32x32x512_S512x256_S8x32x32x256_3_0_012_1_n_n]; rfl
    | ⟨1, _⟩ => simp [DotDims.lhsIdx, dot_S8x32x32x512_S512x256_S8x32x32x256_3_0_012_1_n_n]; rfl
    | ⟨2, _⟩ => simp [DotDims.lhsIdx, dot_S8x32x32x512_S512x256_S8x32x32x256_3_0_012_1_n_n]; rfl
    | ⟨3, _⟩ => simp [DotDims.lhsIdx, dot_S8x32x32x512_S512x256_S8x32x32x256_3_0_012_1_n_n]; exact c3
  have r : dot_S8x32x32x512_S512x256_S8x32x32x256_3_0_012_1_n_n.rhsIdx (ix4 b i j d)
      ((contrEquiv1 _ 512 rfl rfl).symm c) = ix2 c d := by
    funext ax; apply Fin.ext
    match ax with
    | ⟨0, _⟩ => simp [DotDims.rhsIdx, dot_S8x32x32x512_S512x256_S8x32x32x256_3_0_012_1_n_n]; exact c3
    | ⟨1, _⟩ => simp [DotDims.rhsIdx, dot_S8x32x32x512_S512x256_S8x32x32x256_3_0_012_1_n_n]; rfl
  rw [l, r]

/-- Dropping the pixel and channel coordinates of an entry leaves its sample. -/
theorem drop_ix4 (a : Fin 8) (i j : Fin 32) (d : Fin 256) :
    reducesTo_S8x32x32x256_S8_d1_2_3.drop (ix4 a i j d) = ix1 a := by
  funext c
  match c with
  | ⟨0, _⟩ => exact Fin.ext (Shape.ReducesTo.drop_apply_val_of_eq reducesTo_S8x32x32x256_S8_d1_2_3 (ix4 a i j d) 0 0)

/-- The host's sum over a sample: the entries of sample `b` are those at `(b, n / 32, n % 32, d)` for the 1024 positions
    `n` and the 256 channels `d`, each met once. -/
theorem sum_sample (f : S8x32x32x256.Idx → EReal) (b : Fin 8) :
    Host.reduceAdd (F := Ideal) (φ := .f32) f (constant (F := Ideal) S_ .f32 0x00000000#32) reducesTo_S8x32x32x256_S8_d1_2_3 h_S_ (ix1 b)
      = ∑ n : Fin 1024, ∑ d : Fin 256, f (ix4 b (rowHi n) (rowLo n) d) := by
  show Ideal.hostReduceAdd reducesTo_S8x32x32x256_S8_d1_2_3 f (Ideal.ofBits .f32 0x00000000#32) (ix1 b) = _
  unfold Ideal.hostReduceAdd
  rw [Ideal.ofBits_zero_f32, zero_add, ← Finset.sum_product']
  refine Finset.sum_nbij' (fun x => ((row (x 1) (x 2), x 3) : Fin 1024 × Fin 256))
    (fun p => ix4 b (rowHi p.1) (rowLo p.1) p.2) ?_ ?_ ?_ ?_ ?_
  · intro x _
    exact Finset.mem_product.mpr ⟨Finset.mem_univ _, Finset.mem_univ _⟩
  · intro p _
    exact Finset.mem_filter.mpr ⟨Finset.mem_univ _, drop_ix4 b _ _ _⟩
  · intro x hx
    obtain ⟨a, i, j, d, rfl⟩ : ∃ (a : Fin 8) (i j : Fin 32) (d : Fin 256), x = ix4 a i j d := ⟨x 0, x 1, x 2, x 3, eq_ix4 x⟩
    have hx' := (Finset.mem_filter.mp hx).2
    rw [drop_ix4] at hx'
    have hab : a = b := congrFun hx' 0
    subst hab
    show ix4 a (rowHi (row i j)) (rowLo (row i j)) d = ix4 a i j d
    rw [rowHi_row, rowLo_row]
  · intro p _
    show ((row (rowHi p.1) (rowLo p.1), p.2) : Fin 1024 × Fin 256) = p
    rw [row_rowHi_rowLo]
  · intro x hx
    obtain ⟨a, i, j, d, rfl⟩ : ∃ (a : Fin 8) (i j : Fin 32) (d : Fin 256), x = ix4 a i j d := ⟨x 0, x 1, x 2, x 3, eq_ix4 x⟩
    have hx' := (Finset.mem_filter.mp hx).2
    rw [drop_ix4] at hx'
    have hab : a = b := congrFun hx' 0
    subst hab
    show f (ix4 a i j d) = f (ix4 a (rowHi (row i j)) (rowLo (row i j)) d)
    rw [rowHi_row, rowLo_row]

/-- The per-sample mean read at sample `b`: the sum of the sample's entries divided by their number. -/
theorem sampleMean_apply (y : FVec Ideal S8x32x32x256 .f32) (b : Fin 8) :
    sampleMean (F := Ideal) y (ix4 b (0 : Fin 1) (0 : Fin 1) (0 : Fin 1))
      = Ideal.div (∑ n : Fin 1024, ∑ d : Fin 256, y (ix4 b (rowHi n) (rowLo n) d)) cnt := by
  unfold sampleMean
  show Ideal.div _ _ = _
  refine (congrArg₂ Ideal.div (keep_apply _ b) (splat_apply _ _)).trans ?_
  rw [sum_sample]
  rfl

/-- The divisor of the variance: the count less the integer 0 is the count. -/
theorem divisor_eq :
    subf (F := Ideal) (constant S_ .f32 0x48800000#32) (sitofp .f32 (constantI S_ 32 0#32)) ix0 = cnt := by
  show Ideal.ofBits .f32 0x48800000#32 - (((0#32 : BitVec 32).toInt : ℝ) : EReal) = cnt
  rw [show (0#32 : BitVec 32).toInt = 0 from rfl, Int.cast_zero, EReal.coe_zero, sub_zero]
  rfl

/-- The count is positive, so the comparison that guards the variance's quotient holds. -/
theorem divisor_pos : Ideal.cmp .ogt cnt (Ideal.ofBits .f32 0x00000000#32) = 1#1 := by
  have h : Ideal.ofBits .f32 0x00000000#32 < cnt := by
    rw [Ideal.ofBits_zero_f32, cnt_eq]; exact EReal.coe_pos.mpr (by norm_num)
  show BitVec.ofBool (decide (_ < _)) = 1#1
  rw [decide_eq_true h]
  rfl

/-- The per-sample variance read at sample `b`: the guard holds, so it is the sum of the squared deviations from the
    sample's mean divided by the count. -/
theorem sampleVar_apply (y : FVec Ideal S8x32x32x256 .f32) (b : Fin 8) :
    sampleVar (F := Ideal) y (ix4 b (0 : Fin 1) (0 : Fin 1) (0 : Fin 1))
      = Ideal.div (∑ n : Fin 1024, ∑ d : Fin 256,
          (y (ix4 b (rowHi n) (rowLo n) d) - sampleMean (F := Ideal) y (ix4 b (0 : Fin 1) (0 : Fin 1) (0 : Fin 1)))
            * (y (ix4 b (rowHi n) (rowLo n) d) - sampleMean (F := Ideal) y (ix4 b (0 : Fin 1) (0 : Fin 1) (0 : Fin 1)))) cnt := by
  unfold sampleVar
  refine (select_apply _ _ _ _).trans ?_
  have hc : broadcastInDim S8x1x1x1 ![] bcast_S_S8x1x1x1
      (cmpf (F := Ideal) .ogt (subf (constant S_ .f32 0x48800000#32) (sitofp .f32 (constantI S_ 32 0#32)))
        (constant S_ .f32 0x00000000#32)) (ix4 b (0 : Fin 1) (0 : Fin 1) (0 : Fin 1)) = 1#1 := by
    rw [splat_apply, cmpf_apply, divisor_eq]
    exact divisor_pos
  rw [hc, select_one]
  show Ideal.div _ _ = _
  refine (congrArg₂ Ideal.div (keep_apply _ b) (splat_apply _ _)).trans ?_
  rw [sum_sample, divisor_eq]
  refine congrArg (Ideal.div · cnt) (Finset.sum_congr rfl fun n _ => Finset.sum_congr rfl fun d _ => ?_)
  rw [mulf_apply, subf_apply, perSample_apply]

/-- The projected and biased entry. -/
theorem y_apply (t : FVec Ideal S8x32x32x512 .f32) (wo : FVec Ideal S512x256 .f32) (bo : FVec Ideal S256 .f32)
    (b : Fin 8) (i j : Fin 32) (d : Fin 256) :
    addf (Host.dotGeneral (F := Ideal) dot_S8x32x32x512_S512x256_S8x32x32x256_3_0_012_1_n_n none t wo) (chan bo) (ix4 b i j d)
      = proj t wo bo b (row i j) d := by
  rw [addf_apply, dot_apply, chan_apply]
  unfold proj
  rw [rowHi_row, rowLo_row]

/-- The normalisation of an array whose entries are the projected ones, read at an entry. -/
theorem tail_apply (t : FVec Ideal S8x32x32x512 .f32) (wo : FVec Ideal S512x256 .f32) (bo g be : FVec Ideal S256 .f32)
    (y : FVec Ideal S8x32x32x256 .f32)
    (hy : ∀ (b : Fin 8) (i j : Fin 32) (d : Fin 256), y (ix4 b i j d) = proj t wo bo b (row i j) d)
    (b : Fin 8) (i j : Fin 32) (d : Fin 256) :
    addf
      (mulf
        (mulf (subf y (perSample (sampleMean y)))
          (perSample (Host.rsqrt (addf (sampleVar y) (broadcastInDim S8x1x1x1 ![] bcast_S_S8x1x1x1 (constant S_ .f32 0x3727C5AC#32))))))
        (chan g))
      (chan be) (ix4 b i j d)
      = normAt t wo bo g be b (row i j) d := by
  have hM : sampleMean (F := Ideal) y (ix4 b (0 : Fin 1) (0 : Fin 1) (0 : Fin 1)) = mean t wo bo b := by
    rw [sampleMean_apply]
    unfold mean total
    refine congrArg (Ideal.div · cnt) (Finset.sum_congr rfl fun n _ => Finset.sum_congr rfl fun d _ => ?_)
    rw [hy, row_rowHi_rowLo]
  have hV : sampleVar (F := Ideal) y (ix4 b (0 : Fin 1) (0 : Fin 1) (0 : Fin 1)) = var t wo bo b := by
    rw [sampleVar_apply, hM]
    unfold var sqTotal dev
    refine congrArg (Ideal.div · cnt) (Finset.sum_congr rfl fun n _ => Finset.sum_congr rfl fun d _ => ?_)
    rw [hy, row_rowHi_rowLo]
  rw [addf_apply, mulf_apply, mulf_apply, subf_apply, chan_apply, chan_apply, perSample_apply, perSample_apply]
  show ((y (ix4 b i j d) - sampleMean (F := Ideal) y (ix4 b (0 : Fin 1) (0 : Fin 1) (0 : Fin 1)))
      * Ideal.rsqrt (sampleVar (F := Ideal) y (ix4 b (0 : Fin 1) (0 : Fin 1) (0 : Fin 1))
          + broadcastInDim S8x1x1x1 ![] bcast_S_S8x1x1x1 (constant (F := Ideal) S_ .f32 0x3727C5AC#32) (ix4 b (0 : Fin 1) (0 : Fin 1) (0 : Fin 1))))
      * g (ix1 d) + be (ix1 d) = _
  rw [splat_apply, hy, hM, hV]
  rfl

/-- Stage two of the reference is the specification's stage two. -/
theorem refTail_eq (t : FVec Ideal S8x32x32x512 .f32) (wo : FVec Ideal S512x256 .f32) (bo g be : FVec Ideal S256 .f32) :
    Cert.ReferenceIdeal.RefTerm.refTail (F := Ideal) t wo bo g be = AttnSpec.normOut t wo bo g be := by
  funext idx
  obtain ⟨b, i, j, d, rfl⟩ : ∃ (b : Fin 8) (i j : Fin 32) (d : Fin 256), idx = ix4 b i j d :=
    ⟨idx 0, idx 1, idx 2, idx 3, eq_ix4 idx⟩
  rw [normOut_apply]
  unfold refTail
  exact tail_apply t wo bo g be _ (y_apply t wo bo) b i j d

end Cert.ReferenceIdeal.RefNorm

end
-- ==== Proof.lean ====
/-
  The certificate of a fused attention block against its jnp reference, over the extended reals.

  Both programs compute, from an image X of 8 samples × 32 × 32 pixels × 256 channels: the projection to queries, keys and
  values of 8 heads of width 64; per head the scores of scaled queries against keys, their row-wise softmax (the row's
  maximum subtracted, exponentials divided by their sum) and the weighted sum of the values; a regrouping of the heads'
  outputs into 512 channels per pixel; a projection to 256 channels with bias; and a normalisation of each sample by the
  mean and variance of all its entries, with a scale and a shift per channel (Proof/Spec.lean states this function once).

  The kernel program does stage one in one region per sample (the projected rows kept in a scratch array, the heads
  unrolled) and stage two in a second region per sample, with reshapes between; the reference is one straight line of
  whole-array operations. At the ideal instance a change of float format is the identity, a matrix product is the sum of
  products whatever its tiling, and a reduction is the sum or the maximum over its axis in any order, so each side is the
  stated function index by index:
    · the reference: its run (Proof/RefRun.lean) ends at the composed term (Proof/RefTerm.lean), which is the stated
      function (Proof/RefAttn.lean, Proof/RefNorm.lean);
    · the kernel program: its run with the result named (Proof/KernRun.lean) ends at what the blocks written over the two
      grids assemble to (Proof/KernGlue.lean), and each block is the stated function of its input blocks
      (Proof/KernAttn.lean, Proof/KernNorm.lean).
  No law that fails at an infinity is used (only re-indexing of sums, `0 + x = x` and `max ⊥ x = x`), so the precondition
  is never opened. The ideal pass rewrote nothing, so `preserves` is `True`.
-/
import proofs.«134831_j36223754174593_2_alg».proof.Defs
import proofs.«134831_j36223754174593_2_alg».proof.Proof.Gen.Kernel
import proofs.«134831_j36223754174593_2_alg».proof.Proof.Gen.Kernel.Skeleton
import proofs.«134831_j36223754174593_2_alg».proof.Proof.Gen.Kernel.Launch
import proofs.«134831_j36223754174593_2_alg».proof.Proof.Gen.Kernel.Points
import proofs.«134831_j36223754174593_2_alg».proof.Proof.Gen.Kernel.Frame
import proofs.«134831_j36223754174593_2_alg».proof.Proof.Gen.KernelIdeal
import proofs.«134831_j36223754174593_2_alg».proof.Proof.Gen.KernelIdeal.Skeleton
import proofs.«134831_j36223754174593_2_alg».proof.Proof.Gen.KernelIdeal.Launch
import proofs.«134831_j36223754174593_2_alg».proof.Proof.Gen.KernelIdeal.Points
import proofs.«134831_j36223754174593_2_alg».proof.Proof.Gen.KernelIdeal.Frame
import proofs.«134831_j36223754174593_2_alg».proof.Proof.Gen.ReferenceIdeal
import proofs.«134831_j36223754174593_2_alg».proof.Proof.Gen.Pre_finite_inputs
import proofs.«134831_j36223754174593_2_alg».proof.Proof.KernRun
import proofs.«134831_j36223754174593_2_alg».proof.Proof.KernGlue
import proofs.«134831_j36223754174593_2_alg».proof.Proof.KernAttn
import proofs.«134831_j36223754174593_2_alg».proof.Proof.KernNorm
import proofs.«134831_j36223754174593_2_alg».proof.Proof.RefRun
import proofs.«134831_j36223754174593_2_alg».proof.Proof.RefAttn
import proofs.«134831_j36223754174593_2_alg».proof.Proof.RefNorm
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run with the result dropped. -/
theorem frame_ri : Cert.frame_ReferenceIdeal (hReferenceIdeal := Cert.ReferenceIdeal.Gen.facts) (hPre_finite_inputs := Cert.Pre_finite_inputs.Gen.facts) :=
  fun m ρ _ => Cert.ReferenceIdeal.RefRun.frame (F := Ideal) m ρ

/-- The regrouping between the two stages is the same two operations (a reshape, a transposition) in both programs. -/
theorem regroup_eq (o : AttnSpec.SO.Idx → EReal) :
    Cert.ReferenceIdeal.RefTerm.regroup (F := Ideal) o = Cert.KernelIdeal.Glue.regroupK o := rfl

/-- Both idealized programs end with stage two of the regrouped stage one of the arguments. -/
theorem algebraic :
    Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => AttnSpec.normOut (Cert.KernelIdeal.Glue.midArr m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Glue.result m ρ
          (fun c i arg1 harg1 arg2 harg2 arg3 harg3 arg4 harg4 x0 x1 X W b hx0 hx1 h n e =>
            Cert.KernelIdeal.AttnBody.out_value c i arg1 harg1 arg2 harg2 arg3 harg3 arg4 harg4 x0 x1 X W b hx0 hx1 h n e)
          (fun x0 x1 x2 x3 x4 T Wo bo g be b hx0 hx1 hx2 hx3 hx4 n d =>
            Cert.KernelIdeal.NormBody.out_value x0 x1 x2 x3 x4 T Wo bo g be b hx0 hx1 hx2 hx3 hx4 n d) c), (h c).2⟩)
      (Cert.KernelIdeal.ValueRun.run_value (F := Ideal) m ρ)
  · refine (θ_run Cert.ReferenceIdeal.defs _ _).mono (fun r h c => ⟨(h c).1.trans ?_, (h c).2⟩)
      (Cert.ReferenceIdeal.RefRun.run (F := Ideal) m' ρ')
    obtain ⟨a0, a1, a2, a3, a4, a5⟩ := hagree c
    rw [a0, a1, a2, a3, a4, a5]
    unfold Cert.ReferenceIdeal.RefTerm.refTerm
    rw [Cert.ReferenceIdeal.RefNorm.refTail_eq, Cert.ReferenceIdeal.RefAttn.refO_eq, regroup_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
